-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S4x64 : Shape := ⟨2, ![4, 64]⟩
abbrev S64 : Shape := ⟨1, ![64]⟩
abbrev S64x64 : Shape := ⟨2, ![64, 64]⟩
abbrev S1 : Shape := ⟨1, ![1]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x4 .f32) (main_arg1 : FVec F S4x64 .f32) (main_arg2 : FVec F S64 .f32) (main_arg3 : FVec F S64x64 .f32) (main_arg4 : FVec F S64 .f32) (main_arg5 : FVec F S64 .f32) (main_arg6 : FVec F S1 .f32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S8192x4 : Shape := ⟨2, ![8192, 4]⟩
abbrev S4x64 : Shape := ⟨2, ![4, 64]⟩
abbrev S64 : Shape := ⟨1, ![64]⟩
abbrev S64x64 : Shape := ⟨2, ![64, 64]⟩
abbrev S1 : Shape := ⟨1, ![1]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S2048x1 : Shape := ⟨2, ![2048, 1]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S1x64 : Shape := ⟨2, ![1, 64]⟩
abbrev S8192x64 : Shape := ⟨2, ![8192, 64]⟩
abbrev S2048x4 : Shape := ⟨2, ![2048, 4]⟩
abbrev S2048x64 : Shape := ⟨2, ![2048, 64]⟩
abbrev S64x1 : Shape := ⟨2, ![64, 1]⟩
abbrev S1x1 : Shape := ⟨2, ![1, 1]⟩

abbrev nBuf : Space → Nat
  | .hbm => 34
  | .vmem => 36
  | .smem => 0
  | _ => 0

abbrev bufTy : (tb : Table) → Fin (tcTables nBuf tb) → BufTy
  | .hbm, ⟨0, _⟩ => ⟨S8192x4, .f32⟩
  | .hbm, ⟨1, _⟩ => ⟨S4x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S1, .f32⟩
  | .hbm, ⟨7, _⟩ => ⟨S8192x1, .f32⟩
  | .hbm, ⟨8, _⟩ => ⟨S8192, .f32⟩
  | .hbm, ⟨9, _⟩ => ⟨S8192x1, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S1x8192, .f32⟩
  | .hbm, ⟨14, _⟩ => ⟨S1x8192, .f32⟩
  | .hbm, ⟨15, _⟩ => ⟨S8192x8192, .i32⟩
  | .hbm, ⟨16, _⟩ => ⟨S8192x1, .f32⟩
  | .hbm, ⟨17, _⟩ => ⟨S_, .i32⟩
  | .hbm, ⟨18, _⟩ => ⟨S8192x8192, .i32⟩
  | .hbm, ⟨19, _⟩ => ⟨S8192x8192, .i1⟩
  | .hbm, ⟨20, _⟩ => ⟨S8192x8192, .i1⟩
  | .hbm, ⟨21, _⟩ => ⟨S8192x1, .f32⟩
  | .hbm, ⟨22, _⟩ => ⟨S8192x4, .f32⟩
  | .hbm, ⟨23, _⟩ => ⟨S8192x4, .f32⟩
  | .hbm, ⟨24, _⟩ => ⟨S1x64, .f32⟩
  | .hbm, ⟨25, _⟩ => ⟨S8192x8192, .i32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S1x64, .f32⟩
  | .hbm, ⟨30, _⟩ => ⟨S64x1, .f32⟩
  | .hbm, ⟨31, _⟩ => ⟨S1x1, .f32⟩
  | .hbm, ⟨32, _⟩ => ⟨S8192x8192, .i32⟩
  | .hbm, ⟨33, _⟩ => ⟨S8192x1, .f32⟩
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x1, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x2048, .i32⟩
  | .local _ .vmem, ⟨9, _⟩ => ⟨S2048x2048, .i32⟩
  | .local _ .vmem, ⟨10, _⟩ => ⟨S2048x1, .f32⟩
  | .local _ .vmem, ⟨11, _⟩ => ⟨S2048x1, .f32⟩
  | .local _ .vmem, ⟨12, _⟩ => ⟨S2048x2048, .i32⟩
  | .local _ .vmem, ⟨13, _⟩ => ⟨S2048x2048, .i32⟩
  | .local _ .vmem, ⟨14, _⟩ => ⟨S2048x4, .f32⟩
  | .local _ .vmem, ⟨15, _⟩ => ⟨S2048x4, .f32⟩
  | .local _ .vmem, ⟨16, _⟩ => ⟨S2048x1, .f32⟩
  | .local _ .vmem, ⟨17, _⟩ => ⟨S2048x1, .f32⟩
  | .local _ .vmem, ⟨18, _⟩ => ⟨S4x64, .f32⟩
  | .local _ .vmem, ⟨19, _⟩ => ⟨S1x64, .f32⟩
  | .local _ .vmem, ⟨20, _⟩ => ⟨S2048x64, .f32⟩
  | .local _ .vmem, ⟨21, _⟩ => ⟨S2048x64, .f32⟩
  | .local _ .vmem, ⟨22, _⟩ => ⟨S2048x4, .f32⟩
  | .local _ .vmem, ⟨23, _⟩ => ⟨S2048x2048, .i32⟩
  | .local _ .vmem, ⟨24, _⟩ => ⟨S2048x2048, .i32⟩
  | .local _ .vmem, ⟨25, _⟩ => ⟨S2048x64, .f32⟩
  | .local _ .vmem, ⟨26, _⟩ => ⟨S2048x64, .f32⟩
  | .local _ .vmem, ⟨27, _⟩ => ⟨S2048x1, .f32⟩
  | .local _ .vmem, ⟨28, _⟩ => ⟨S2048x1, .f32⟩
  | .local _ .vmem, ⟨29, _⟩ => ⟨S64x64, .f32⟩
  | .local _ .vmem, ⟨30, _⟩ => ⟨S1x64, .f32⟩
  | .local _ .vmem, ⟨31, _⟩ => ⟨S64x1, .f32⟩
  | .local _ .vmem, ⟨32, _⟩ => ⟨S1x1, .f32⟩
  | .local _ .vmem, ⟨33, _⟩ => ⟨S2048x1, .f32⟩
  | .local _ .vmem, ⟨34, _⟩ => ⟨S2048x1, .f32⟩
  | .local _ .vmem, ⟨35, _⟩ => ⟨S2048x64, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc2_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_9 : BitVec 32 := 0#32
  let v18 : BitVec 1 := Scalar.cmpi .ne v17 c0_i32_9
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_9 : BitVec 32 := 0#32
  let v18 : BitVec 1 := Scalar.cmpi .ne v17 c0_i32_9
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S2048x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

class Facts₀ : Prop where
  slices_S8192x4_S8192x1_0_0 : S8192x4.Slices ![0, 0] S8192x1
  shapeCasts_S8192x1_S8192 : S8192x1.ShapeCasts S8192
  slices_S8192x4_S8192x1_0_1 : S8192x4.Slices ![0, 1] S8192x1
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  natLt_1_32 : 1 < 32
  reduces_S2048x2048_S2048 : S2048x2048.Reduces [1] S2048
  shapeCasts_S2048_S2048x1 : S2048.ShapeCasts S2048x1
  bcast_S_S8192x8192 : S_.BroadcastsInDim S8192x8192 (![] : Fin 0 → Fin S8192x8192.rank)
  bcast_S8192x1_S8192x4_0_1 : S8192x1.BroadcastsInDim S8192x4 (![0, 1] : Fin 2 → Fin S8192x4.rank)
  shapeCasts_S64_S1x64 : S64.ShapeCasts S1x64
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  shapeCasts_S2048x2048_S2048x2048 : S2048x2048.ShapeCasts S2048x2048
  broadcasts_S2048x1_S2048x4 : S2048x1.Broadcasts S2048x4
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  bcast_S8192x1_S8192x64_0_1 : S8192x1.BroadcastsInDim S8192x64 (![0, 1] : Fin 2 → Fin S8192x64.rank)
  shapeCasts_S64_S64x1 : S64.ShapeCasts S64x1
  shapeCasts_S1_S1x1 : S1.ShapeCasts S1x1
  shapeCasts_S2048x64_S2048x64 : S2048x64.ShapeCasts S2048x64
  broadcasts_S2048x1_S2048x64 : S2048x1.Broadcasts S2048x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  dot_S2048x2048_S2048x4_S2048x4_1_0_0_1_n_n_wf : DotDims.WF S2048x2048 S2048x4 S2048x4 [1] [0] [0] [1] [] []
  dot_S2048x4_S4x64_S2048x64_1_0_0_1_n_n_wf : DotDims.WF S2048x4 S4x64 S2048x64 [1] [0] [0] [1] [] []
  dot_S2048x2048_S2048x64_S2048x64_1_0_0_1_n_n_wf : DotDims.WF S2048x2048 S2048x64 S2048x64 [1] [0] [0] [1] [] []
  dot_S2048x64_S64x64_S2048x64_1_0_0_1_n_n_wf : DotDims.WF S2048x64 S64x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S8192x1.size a
  hwx0_0 : ∀ i : grid0.Coords, EltTy.bits .f32 = 32 ∨ (Rect.block (s := S8192x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x8192.size a
  hwx0_4 : ∀ i : grid0.Coords, EltTy.bits .i32 = 32 ∨ (Rect.block (s := S8192x8192) S2048x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S8192x1.size a
  hwx0_5 : ∀ i : grid0.Coords, EltTy.bits .f32 = 32 ∨ (Rect.block (s := S8192x1) S2048x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .i32 = 32 ∨ (Rect.block (s := S8192x8192) S2048x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x4.size a ≤ S8192x4.size a
  hwx1_1 : ∀ i : grid1.Coords, EltTy.bits .f32 = 32 ∨ (Rect.block (s := S8192x4) S2048x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S8192x64.size a
  hwx1_5 : ∀ i : grid1.Coords, EltTy.bits .f32 = 32 ∨ (Rect.block (s := S8192x64) S2048x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .i32 = 32 ∨ (Rect.block (s := S8192x8192) S2048x2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .f32 = 32 ∨ (Rect.block (s := S8192x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x1.size a ≤ S8192x1.size a
  hwx2_7 : ∀ i : grid2.Coords, EltTy.bits .f32 = 32 ∨ (Rect.block (s := S8192x1) S2048x1.size (cc2_transform_7 i) (hinb2_7 i)).WholeWords (EltTy.packing .f32)

variable [Facts₀]

def dot_S2048x2048_S2048x4_S2048x4_1_0_0_1_n_n : DotDims S2048x2048 S2048x4 S2048x4 where
  lhsContracting := [1]
  rhsContracting := [0]
  lhsNonContracting := [0]
  rhsNonContracting := [1]
  lhsBatch := []
  rhsBatch := []
  wf := dot_S2048x2048_S2048x4_S2048x4_1_0_0_1_n_n_wf
def dot_S2048x4_S4x64_S2048x64_1_0_0_1_n_n : DotDims S2048x4 S4x64 S2048x64 where
  lhsContracting := [1]
  rhsContracting := [0]
  lhsNonContracting := [0]
  rhsNonContracting := [1]
  lhsBatch := []
  rhsBatch := []
  wf := dot_S2048x4_S4x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v4) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S2048x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2048x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v23) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v24) S2048x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S8192x4 : Shape := ⟨2, ![8192, 4]⟩
abbrev S4x64 : Shape := ⟨2, ![4, 64]⟩
abbrev S64 : Shape := ⟨1, ![64]⟩
abbrev S64x64 : Shape := ⟨2, ![64, 64]⟩
abbrev S1 : Shape := ⟨1, ![1]⟩
abbrev S8192x2 : Shape := ⟨2, ![8192, 2]⟩
abbrev S8192x1x2 : Shape := ⟨3, ![8192, 1, 2]⟩
abbrev S1x8192x2 : Shape := ⟨3, ![1, 8192, 2]⟩
abbrev S8192x8192x2 : Shape := ⟨3, ![8192, 8192, 2]⟩
abbrev S_ : Shape := ⟨0, ![]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩
abbrev S1x64 : Shape := ⟨2, ![1, 64]⟩
abbrev S64x1 : Shape := ⟨2, ![64, 1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S4x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S1, .f32⟩
  | .hbm, ⟨7, _⟩ => ⟨S8192x2, .f32⟩
  | .hbm, ⟨8, _⟩ => ⟨S8192x1x2, .f32⟩
  | .hbm, ⟨9, _⟩ => ⟨S1x8192x2, .f32⟩
  | .hbm, ⟨10, _⟩ => ⟨S8192x8192x2, .f32⟩
  | .hbm, ⟨11, _⟩ => ⟨S8192x8192x2, .f32⟩
  | .hbm, ⟨12, _⟩ => ⟨S8192x8192x2, .f32⟩
  | .hbm, ⟨13, _⟩ => ⟨S8192x8192x2, .f32⟩
  | .hbm, ⟨14, _⟩ => ⟨S_, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .i1⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .i1⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .i32⟩
  | .hbm, ⟨34, _⟩ => ⟨S8192x8192, .i32⟩
  | .hbm, ⟨35, _⟩ => ⟨S_, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1, .f32⟩
  | .hbm, ⟨45, _⟩ => ⟨S8192x8192, .f32⟩
  | .hbm, ⟨46, _⟩ => ⟨S8192x8192, .f32⟩
  | .hbm, ⟨47, _⟩ => ⟨S1x8192, .f32⟩
  | .hbm, ⟨48, _⟩ => ⟨S8192x8192, .f32⟩
  | .hbm, ⟨49, _⟩ => ⟨S8192x8192, .f32⟩
  | .hbm, ⟨50, _⟩ => ⟨S8192x64, .f32⟩
  | .hbm, ⟨51, _⟩ => ⟨S8192x64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S8192x64, .f32⟩
  | .hbm, ⟨60, _⟩ => ⟨S1x64, .f32⟩
  | .hbm, ⟨61, _⟩ => ⟨S8192x64, .f32⟩
  | .hbm, ⟨62, _⟩ => ⟨S8192x64, .f32⟩
  | .hbm, ⟨63, _⟩ => ⟨S_, .f32⟩
  | .hbm, ⟨64, _⟩ => ⟨S8192x64, .f32⟩
  | .hbm, ⟨65, _⟩ => ⟨S8192x64, .f32⟩
  | .hbm, ⟨66, _⟩ => ⟨S64x1, .f32⟩
  | .hbm, ⟨67, _⟩ => ⟨S8192x1, .f32⟩
  | .hbm, ⟨68, _⟩ => ⟨S1x1, .f32⟩
  | .hbm, ⟨69, _⟩ => ⟨S8192x1, .f32⟩
  | .hbm, ⟨70, _⟩ => ⟨S8192x1, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_cst : Ref sig .tc := ⟨.hbm, 55, rfl⟩
abbrev main_call1_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call2_cst : Ref sig .tc := ⟨.hbm, 63, rfl⟩
abbrev main_call2_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  slices_S8192x4_S8192x2_0_0 : S8192x4.Slices ![0, 0] S8192x2
  bcast_S8192x2_S8192x1x2_0_2 : S8192x2.BroadcastsInDim S8192x1x2 (![0, 2] : Fin 2 → Fin S8192x1x2.rank)
  bcast_S8192x2_S1x8192x2_1_2 : S8192x2.BroadcastsInDim S1x8192x2 (![1, 2] : Fin 2 → Fin S1x8192x2.rank)
  bcast_S8192x1x2_S8192x8192x2_0_1_2 : S8192x1x2.BroadcastsInDim S8192x8192x2 (![0, 1, 2] : Fin 3 → Fin S8192x8192x2.rank)
  bcast_S1x8192x2_S8192x8192x2_0_1_2 : S1x8192x2.BroadcastsInDim S8192x8192x2 (![0, 1, 2] : Fin 3 → Fin S8192x8192x2.rank)
  reducesTo_S8192x8192x2_S8192x8192_d2 : S8192x8192x2.ReducesTo [2] S8192x8192
  h_S_ : 0 < S_.numel
  bcast_S_S8192x8192 : S_.BroadcastsInDim S8192x8192 (![] : Fin 0 → Fin S8192x8192.rank)
  reducesTo_S8192x8192_S8192_d1 : S8192x8192.ReducesTo [1] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S64_S64x1_0 : S64.BroadcastsInDim S64x1 (![0] : Fin 1 → Fin S64x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x4_S4x64_S8192x64_1_0_0_1_n_n_wf : DotDims.WF S8192x4 S4x64 S8192x64 [1] [0] [0] [1] [] []
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []
  dot_S8192x64_S64x1_S8192x1_1_0_0_1_n_n_wf : DotDims.WF S8192x64 S64x1 S8192x1 [1] [0] [0] [1] [] []

variable [Facts₀]

def dot_S8192x4_S4x64_S8192x64_1_0_0_1_n_n : DotDims S8192x4 S4x64 S8192x64 where
  lhsContracting := [1]
  rhsContracting := [0]
  lhsNonContracting := [0]
  rhsNonContracting := [1]
  lhsBatch := []
  rhsBatch := []
  wf := dot_S8192x4_S4x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.KB.K0Base.lean ====
/-
  The first kernel region (the nearness words and the degrees), what its case runs share.

  The grid is 4 × 4, a point t standing for the row tile t / 4 and the column tile t % 4. Windows 0–3 bring in
  the row tile's two position columns [2048, 1] and the column tile's two position rows [1, 2048]; window 4
  is the [2048, 2048] tile of nearness words, written whole at every point; window 5 is the row tile's
  [2048, 1] degree block, which the body resets when the column tile is 0 and adds the tile's row sums into
  at every point, so between two points of one row tile it holds what the point before left.
-/
import proofs.«138637_j24172075942523_2_alg».proof.Proof.Gen.Kernel.Launch
import proofs.«138637_j24172075942523_2_alg».proof.Proof.Gen.Kernel.Skeleton
import proofs.«138637_j24172075942523_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the unscoped buffers' contents on each core when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The body's one branch: the column tile is 0 (the skeleton's scalar chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- No window of this region is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-- One staging buffer of each output window, through which its contents are stated. -/
abbrev VO0_4 : View sig .tc .vmem S2048x2048 .i32 := (Memref.whole cc0_stg4_0 : Memref sig .tc .vmem S2048x2048 .i32).view
abbrev VO0_5 : View sig .tc .vmem S2048x1 .f32 := (Memref.whole cc0_stg5_0 : Memref sig .tc .vmem S2048x1 .f32).view
/-- Each window's current staging memref at point `t`, as the pipeline passes it, and its wholeness. -/
abbrev ms0_0 (t : Fin cfg0.N) : Memref sig .tc .vmem S2048x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1 .f32 := win0_5.stage (cfg0.slots t 5)
abbrev hs0_5 (t : Fin cfg0.N) : (ms0_5 t).IsWhole := hstage0_5 ((cfg0.slots t 5).cast nbuf0_5)

end Cert.Kernel.Hand

end
-- ==== Proof.KB.K0RunA.lean ====
/-
  The first region's body when the column tile is 0: the degree block is reset, the nearness tile computed and
  stored, the tile's row sums added into the degree block.  The pieces each output buffer ends with are found
  by running the body.
-/
import proofs.«138637_j24172075942523_2_alg».proof.Proof.KB.K0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the nearness tile's buffer and in the degree block's, with the proof that on whole
    staging memrefs — the four position blocks at their contents, the two outputs at anything — it runs to the
    continuation holding the inputs as they were and each output with its pieces written. -/
noncomputable def kernelRun0_A (c : Dev nD) (i : grid0.Coords)
    (arg2 : Memref sig .tc .vmem S2048x1 .f32) (harg2 : arg2.IsWhole) (arg3 : Memref sig .tc .vmem S2048x1 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S2048x2048 .i32) (harg6 : arg6.IsWhole) (arg7 : Memref sig .tc .vmem S2048x1 .f32) (harg7 : arg7.IsWhole)
    (hc0 : cond0_0 i)
    (x0 : Vec F S2048x1 .f32) (x1 : Vec F S2048x1 .f32) (x2 : Vec F S1x2048 .f32) (x3 : Vec F S1x2048 .f32) :
    Σ' (L4 : List (View.Piece (Elt F) S2048x2048 .i32)), { L5 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__mask_deg_kernel i arg2 harg2 arg3 harg3 arg4 harg4 arg5 harg5 arg6 harg6 arg7 harg7) K } := by
  refine ⟨?_, ?_, fun E K => ?run⟩
  case run =>
    simp only [cc0__mask_deg_kernel_eq_skeleton]; unfold cc0__mask_deg_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.Kernel.Hand

end
-- ==== Proof.KB.K0RunB.lean ====
/-
  The first region's body when the column tile is not 0: the nearness tile is computed and stored and the tile's
  row sums are added into the degree block, which holds what the point before left.  The pieces each output buffer ends with are found
  by running the body.
-/
import proofs.«138637_j24172075942523_2_alg».proof.Proof.KB.K0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the nearness tile's buffer and in the degree block's, with the proof that on whole
    staging memrefs — the four position blocks at their contents, the nearness tile's at anything, the degree block's at what the
    point before left — it runs to the
    continuation holding the inputs as they were and each output with its pieces written. -/
noncomputable def kernelRun0_B (c : Dev nD) (i : grid0.Coords)
    (arg2 : Memref sig .tc .vmem S2048x1 .f32) (harg2 : arg2.IsWhole) (arg3 : Memref sig .tc .vmem S2048x1 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S2048x2048 .i32) (harg6 : arg6.IsWhole) (arg7 : Memref sig .tc .vmem S2048x1 .f32) (harg7 : arg7.IsWhole)
    (hc0 : ¬cond0_0 i)
    (x0 : Vec F S2048x1 .f32) (x1 : Vec F S2048x1 .f32) (x2 : Vec F S1x2048 .f32) (x3 : Vec F S1x2048 .f32) (xo5 : Vec F S2048x1 .f32) :
    Σ' (L4 : List (View.Piece (Elt F) S2048x2048 .i32)), { L5 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__mask_deg_kernel i arg2 harg2 arg3 harg3 arg4 harg4 arg5 harg5 arg6 harg6 arg7 harg7) K } := by
  refine ⟨?_, ?_, fun E K => ?run⟩
  case run =>
    simp only [cc0__mask_deg_kernel_eq_skeleton]; unfold cc0__mask_deg_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.Kernel.Hand

end
-- ==== Proof.KB.K0Dat.lean ====
/-
  The first region, point by point: what the nearness tile's buffer and the degree block's hold after each point
  (the degree block by recursion on the point: reset and one tile's row sums at a column tile 0, the point
  before's contents plus this tile's row sums elsewhere), the region's proof data, and the body obligation.
-/
import proofs.«138637_j24172075942523_2_alg».proof.Proof.KB.K0RunA
import proofs.«138637_j24172075942523_2_alg».proof.Proof.KB.K0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces of each case tile the buffer they are stored into, so they cover it. -/
theorem cover0_A_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) (y : S2048x2048.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S2048x2048.size (by sl_kernel_rfl) y
theorem cover0_A_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) (y : S2048x1.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S2048x1.size (by sl_kernel_rfl) y
theorem cover0_B_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) (y : S2048x2048.Idx) :
    ∃ pc ∈ (kernelRun0_B c i arg2 harg2 arg3 harg3 arg4 harg4 arg5 harg5 arg6 harg6 arg7 harg7 hc0 x0 x1 x2 x3 xo5).1, y ∈ pc.1.set :=
  View.cover_of_tiledL (kernelRun0_B c i arg2 harg2 arg3 harg3 arg4 harg4 arg5 harg5 arg6 harg6 arg7 harg7 hc0 x0 x1 x2 x3 xo5).1 S2048x2048.size (by sl_kernel_rfl) y
theorem cover0_B_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) (y : S2048x1.Idx) :
    ∃ pc ∈ (kernelRun0_B c i arg2 harg2 arg3 harg3 arg4 harg4 arg5 harg5 arg6 harg6 arg7 harg7 hc0 x0 x1 x2 x3 xo5).2.1, y ∈ pc.1.set :=
  View.cover_of_tiledL (kernelRun0_B c i arg2 harg2 arg3 harg3 arg4 harg4 arg5 harg5 arg6 harg6 arg7 harg7 hc0 x0 x1 x2 x3 xo5).2.1 S2048x1.size (by sl_kernel_rfl) y

/-- What each case leaves in each output's staging buffer: its pieces read back. -/
def out0_A_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) : Vec F S2048x2048 .i32 :=
  VO0_4.read (Elt F) (VO0_4.writes (Elt F) VO0_4.junk (kernelRun0_A c i arg2 harg2 arg3 harg3 arg4 harg4 arg5 harg5 arg6 harg6 arg7 harg7 hc0 x0 x1 x2 x3).1)
def out0_A_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) : Vec F S2048x1 .f32 :=
  VO0_5.read (Elt F) (VO0_5.writes (Elt F) VO0_5.junk (kernelRun0_A c i arg2 harg2 arg3 harg3 arg4 harg4 arg5 harg5 arg6 harg6 arg7 harg7 hc0 x0 x1 x2 x3).2.1)
def out0_B_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) : Vec F S2048x2048 .i32 :=
  VO0_4.read (Elt F) (VO0_4.writes (Elt F) VO0_4.junk (kernelRun0_B c i arg2 harg2 arg3 harg3 arg4 harg4 arg5 harg5 arg6 harg6 arg7 harg7 hc0 x0 x1 x2 x3 xo5).1)
def out0_B_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) : Vec F S2048x1 .f32 :=
  VO0_5.read (Elt F) (VO0_5.writes (Elt F) VO0_5.junk (kernelRun0_B c i arg2 harg2 arg3 harg3 arg4 harg4 arg5 harg5 arg6 harg6 arg7 harg7 hc0 x0 x1 x2 x3 xo5).2.1)

/-- THE ACCUMULATION: what the two outputs' staging buffers hold after the body at position `n` (the nearness tile,
    the degree block): the case the column tile selects, run at the point's memrefs and input blocks, the degree block
    at a column tile other than 0 over what the point before left. -/
def outsAt0 (c : Dev nD) : (n : ℕ) → n < cfg0.N → Vec F S2048x2048 .i32 × Vec F S2048x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩),
             out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body at point `t` each input's
    buffer at its block and the outputs' at `outsAt0`; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a column tile other than 0 the degree block's current buffer holds what the body left at the point before: the
    buffer was not written back between. -/
theorem before0_5_B (c : Dev nD) (t : Fin cfg0.N) (h0 : ¬t.val % 4 = 0) (d) :
    (dat0 V c).before 5 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' memrefs hold their blocks; the column tile says which case the point is in; at a
    column tile other than 0 the degree block holds what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 16 := lt_of_lt_of_eq t.isLt (show cfg0.N = 16 from N_0)
  by_cases h0 : t.val % 4 = 0
  · rw [outsAt0_A V c t h0]
    unfold out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B V c t h0]
    simp only [before0_5_B V c t h0]
    unfold out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.K1Base.lean ====
/-
  An aggregation region, what its case runs share.

  The grid is 4 × 4, a point t standing for the row tile t / 4 and the column tile t % 4. Window 0 brings in the
  [2048, 2048] tile of nearness words, window 1 the column tile's feature rows, window 2 the row tile's
  inverse-root degrees, the remaining input windows the whole dense weights and biases. A scratch buffer of
  the kernel's own holds the row tile's running aggregate: reset when the column tile is 0, the tile's product
  added into it at every point. The output window is the row tile's block: stored only when the column tile is
  the last, 3, and left untouched (and not written back) at the other points.
-/
import proofs.«138637_j24172075942523_2_alg».proof.Proof.Gen.Kernel.Launch
import proofs.«138637_j24172075942523_2_alg».proof.Proof.Gen.Kernel.Skeleton
import proofs.«138637_j24172075942523_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the unscoped buffers' contents on each core when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body's first branch: the column tile is 0 (the skeleton's scalar chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The body's second branch: the column tile is the last. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the output window is idle: at every point whose column tile is not the last, and there it is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-- One staging buffer of the output window, through which its contents are stated. -/
abbrev VO1_5 : View sig .tc .vmem S2048x64 .f32 := (Memref.whole cc1_stg5_0 : Memref sig .tc .vmem S2048x64 .f32).view
abbrev ms1_0 (t : Fin cfg1.N) : Memref sig .tc .vmem S2048x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x4 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)
/-- The scratch operand: a whole scoped buffer of the kernel's own, and its view. -/
abbrev scM1_0 : Memref sig .tc .vmem S2048x4 .f32 := Memref.whole cc1_scratch0
abbrev VS1_0 : View sig .tc .vmem S2048x4 .f32 := scM1_0.view

end Cert.Kernel.Hand

end
-- ==== Proof.KB.K1RunA.lean ====
/-
  An aggregation region's body when the column tile is 0: the running aggregate is reset and the tile's product added into it; the output
  block is not touched.
  The pieces the scratch buffer (and, at the last column tile, the output buffer) ends with are found by running the body.
-/
import proofs.«138637_j24172075942523_2_alg».proof.Proof.KB.K1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun1_A (c : Dev nD) (i : grid1.Coords)
    (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole)
    (hc0 : cond1_0 i) (hc1 : ¬cond1_1 i)
    (x0 : Vec F S2048x2048 .i32) (x1 : Vec F S2048x4 .f32) (x2 : Vec F S2048x1 .f32) (x3 : Vec F S4x64 .f32) (x4 : Vec F S1x64 .f32) :
    Σ' (LO : List (View.Piece (Elt F) S2048x64 .f32)), { LS0 : List (View.Piece (Elt F) S2048x4 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi
                ∗ (∃ f, arg8.view.loc (c : Thread nD τ) ↦[arg8.view.set]{fullShare} arg8.view.writes (Elt F) f LS0)) -∗ K ⟨⟩))
          ⊢ wp frame (wpE (defs₀ (F := F)) Variants.none c none) E (cc1__agg1_kernel i arg2 harg2 arg3 harg3 arg4 harg4 arg5 harg5 arg6 harg6 arg7 harg7 arg8 harg8) K } := by
  refine ⟨[], ?_, fun xi E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS0

end Cert.Kernel.Hand

end
-- ==== Proof.KB.K1RunB.lean ====
/-
  An aggregation region's body when the column tile is neither 0 nor the last: the tile's product is added into the running
  aggregate the point before left; the output block is not touched.
  The pieces the scratch buffer (and, at the last column tile, the output buffer) ends with are found by running the body.
-/
import proofs.«138637_j24172075942523_2_alg».proof.Proof.KB.K1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun1_B (c : Dev nD) (i : grid1.Coords)
    (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole)
    (hc0 : ¬cond1_0 i) (hc1 : ¬cond1_1 i)
    (x0 : Vec F S2048x2048 .i32) (x1 : Vec F S2048x4 .f32) (x2 : Vec F S2048x1 .f32) (x3 : Vec F S4x64 .f32) (x4 : Vec F S1x64 .f32) (xs0 : Vec F S2048x4 .f32) :
    Σ' (LO : List (View.Piece (Elt F) S2048x64 .f32)), { LS0 : List (View.Piece (Elt F) S2048x4 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi
                ∗ (∃ f, arg8.view.loc (c : Thread nD τ) ↦[arg8.view.set]{fullShare} arg8.view.writes (Elt F) f LS0)) -∗ K ⟨⟩))
          ⊢ wp frame (wpE (defs₀ (F := F)) Variants.none c none) E (cc1__agg1_kernel i arg2 harg2 arg3 harg3 arg4 harg4 arg5 harg5 arg6 harg6 arg7 harg7 arg8 harg8) K } := by
  refine ⟨[], ?_, fun xi E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfO; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS0

end Cert.Kernel.Hand

end
-- ==== Proof.KB.K1RunC.lean ====
/-
  An aggregation region's body when the column tile is the last: the tile's product is added into the running aggregate, which is
  then scaled by the row's inverse-root degrees, sent through the dense map and the bias, clipped below at zero and stored
  into the output block.
  The pieces the scratch buffer (and, at the last column tile, the output buffer) ends with are found by running the body.
-/
import proofs.«138637_j24172075942523_2_alg».proof.Proof.KB.K1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun1_C (c : Dev nD) (i : grid1.Coords)
    (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole)
    (hc0 : ¬cond1_0 i) (hc1 : cond1_1 i)
    (x0 : Vec F S2048x2048 .i32) (x1 : Vec F S2048x4 .f32) (x2 : Vec F S2048x1 .f32) (x3 : Vec F S4x64 .f32) (x4 : Vec F S1x64 .f32) (xs0 : Vec F S2048x4 .f32) :
    Σ' (LO : List (View.Piece (Elt F) S2048x64 .f32)), { LS0 : List (View.Piece (Elt F) S2048x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS0)) -∗ K ⟨⟩))
          ⊢ wp frame (wpE (defs₀ (F := F)) Variants.none c none) E (cc1__agg1_kernel i arg2 harg2 arg3 harg3 arg4 harg4 arg5 harg5 arg6 harg6 arg7 harg7 arg8 harg8) K } := by
  refine ⟨?_, ?_, fun E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]; · iexists _; iexact HO
    iexists _; iexact HS0

end Cert.Kernel.Hand

end
-- ==== Proof.KB.K1Dat.lean ====
/-
  An aggregation region, point by point: what the output block's buffer and the scratch buffer hold after each
  point (the scratch by recursion on the point: reset and one tile's product at a column tile 0, the point before's
  contents plus this tile's product elsewhere), the invariant that carries the scratch from point to point, the
  region's proof data, and the body obligation.
-/
import proofs.«138637_j24172075942523_2_alg».proof.Proof.KB.K1RunA
import proofs.«138637_j24172075942523_2_alg».proof.Proof.KB.K1RunB
import proofs.«138637_j24172075942523_2_alg».proof.Proof.KB.K1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's buffer: its pieces read back (it stores none: a placeholder nothing consults, the window being idle there). -/
def out1_A_5 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : cond1_0 i) (hc1 : ¬cond1_1 i) (x0 : Vec F S2048x2048 .i32) (x1 : Vec F S2048x4 .f32) (x2 : Vec F S2048x1 .f32) (x3 : Vec F S4x64 .f32) (x4 : Vec F S1x64 .f32) : Vec F S2048x64 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)
/-- Case A's pieces for the scratch buffer tile it, so they cover it. -/
theorem scover1_A_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : cond1_0 i) (hc1 : ¬cond1_1 i) (x0 : Vec F S2048x2048 .i32) (x1 : Vec F S2048x4 .f32) (x2 : Vec F S2048x1 .f32) (x3 : Vec F S4x64 .f32) (x4 : Vec F S1x64 .f32) (y : S2048x4.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x4.size (by sl_kernel_rfl) y
/-- What case A leaves in the scratch buffer: its pieces read back. -/
def sout1_A_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : cond1_0 i) (hc1 : ¬cond1_1 i) (x0 : Vec F S2048x2048 .i32) (x1 : Vec F S2048x4 .f32) (x2 : Vec F S2048x1 .f32) (x3 : Vec F S4x64 .f32) (x4 : Vec F S1x64 .f32) : Vec F S2048x4 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case B leaves in the output block's buffer: its pieces read back (it stores none: a placeholder nothing consults, the window being idle there). -/
def out1_B_5 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : ¬cond1_1 i) (x0 : Vec F S2048x2048 .i32) (x1 : Vec F S2048x4 .f32) (x2 : Vec F S2048x1 .f32) (x3 : Vec F S4x64 .f32) (x4 : Vec F S1x64 .f32) (xs0 : Vec F S2048x4 .f32) : Vec F S2048x64 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)
/-- Case B's pieces for the scratch buffer tile it, so they cover it. -/
theorem scover1_B_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : ¬cond1_1 i) (x0 : Vec F S2048x2048 .i32) (x1 : Vec F S2048x4 .f32) (x2 : Vec F S2048x1 .f32) (x3 : Vec F S4x64 .f32) (x4 : Vec F S1x64 .f32) (xs0 : Vec F S2048x4 .f32) (y : S2048x4.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x4.size (by sl_kernel_rfl) y
/-- What case B leaves in the scratch buffer: its pieces read back. -/
def sout1_B_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : ¬cond1_1 i) (x0 : Vec F S2048x2048 .i32) (x1 : Vec F S2048x4 .f32) (x2 : Vec F S2048x1 .f32) (x3 : Vec F S4x64 .f32) (x4 : Vec F S1x64 .f32) (xs0 : Vec F S2048x4 .f32) : Vec F S2048x4 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- The last column tile's pieces for the output block tile it, so they cover it. -/
theorem cover1_C_5 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) (y : S2048x64.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x64.size (by sl_kernel_rfl) y
/-- What case C leaves in the output block's buffer: its pieces read back. -/
def out1_C_5 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) : Vec F S2048x64 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)
/-- Case C's pieces for the scratch buffer tile it, so they cover it. -/
theorem scover1_C_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) (y : S2048x4.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x4.size (by sl_kernel_rfl) y
/-- What case C leaves in the scratch buffer: its pieces read back. -/
def sout1_C_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) : Vec F S2048x4 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-- THE ACCUMULATION: what the output block's buffer and the scratch buffer hold after the body at position `n`: the
    case the column tile selects, run at the point's memrefs and input blocks, the scratch at a column tile other than 0
    over what the point before left. (No column tile is both 0 and the last.) -/
def outsAt1 (c : Dev nD) : (n : ℕ) → n < cfg1.N → Vec F S2048x64 .f32 × Vec F S2048x4 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The scoped buffers that are neither a staging buffer of this region nor its scratch, each at some contents. -/
abbrev restBut1 (c : Dev nD) : sProp 𝕄 :=
  Pipeline.scopedRestBut (Ix := Unit) (Name := ℕ) (U := UR sig nD τ) (Lvl := ℕ) (Val := Elt F) spec1 c [cc1_scratch0]

/-- The region's scoped rest split at its scratch. -/
theorem scopedRest1_atScratch (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ restBut1 (F := F) c) :=
  Pipeline.scopedRest_split_of_list spec1 c [cc1_scratch0] (by decide) (by decide)

/-- The class invariant with the scratch as a memref owned at some contents. -/
theorem PhiA1_eq (c : Dev nD) :
    (Pipeline.ΦA spec1 c : sProp 𝕄)
      = iprop(iprop(iprop((∃ d, owns (c : Thread nD τ) scM1_0 fullShare d)) ∗ restBut1 (F := F) c) ∗ (∃ r, prngReg c r)) := by
  unfold Pipeline.ΦA; rw [scopedRest1_atScratch]; simp only [scM1_0, owns_whole]; try rfl

/-- The region invariant before position `n`: before the first point the class's (the scratch at anything); afterwards
    the scratch at what the point before left in it, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-- The region's proof data on core `c`: the arrays as the region finds them; after the body at point `t` each input's
    buffer at its block and the output's at `outsAt`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
/-- The body at any point: the inputs' memrefs hold their blocks; the column tile says which case the point is in; the
    invariant hands the body the scratch at what the point before left (at anything at the first point) and takes it back
    at this point's contents; at the last column tile the output block is stored, elsewhere handed back untouched; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%eO, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.KB.K2Base.lean ====
/-
  An aggregation region, what its case runs share.

  The grid is 4 × 4, a point t standing for the row tile t / 4 and the column tile t % 4. Window 0 brings in the
  [2048, 2048] tile of nearness words, window 1 the column tile's feature rows, window 2 the row tile's
  inverse-root degrees, the remaining input windows the whole dense weights and biases. A scratch buffer of
  the kernel's own holds the row tile's running aggregate: reset when the column tile is 0, the tile's product
  added into it at every point. The output window is the row tile's block: stored only when the column tile is
  the last, 3, and left untouched (and not written back) at the other points.
-/
import proofs.«138637_j24172075942523_2_alg».proof.Proof.Gen.Kernel.Launch
import proofs.«138637_j24172075942523_2_alg».proof.Proof.Gen.Kernel.Skeleton
import proofs.«138637_j24172075942523_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the unscoped buffers' contents on each core when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The body's first branch: the column tile is 0 (the skeleton's scalar chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)
/-- The body's second branch: the column tile is the last. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Where the output window is idle: at every point whose column tile is not the last, and there it is not written back. -/
theorem idleAt2_7_A : ∀ t : Fin cfg2.N, cond2_0 (grid2.coords t) → ¬cond2_1 (grid2.coords t) → cfg2.idle 7 (grid2.coords t) = true := by decide +kernel
theorem noFlush2_7_A : ∀ t : Fin cfg2.N, cond2_0 (grid2.coords t) → ¬cond2_1 (grid2.coords t) → (cfg2.win 7).flush t = false := by decide +kernel
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
theorem liveAt2_7_C : ∀ t : Fin cfg2.N, ¬cond2_0 (grid2.coords t) → cond2_1 (grid2.coords t) → cfg2.idle 7 (grid2.coords t) = false := by decide +kernel

/-- One staging buffer of the output window, through which its contents are stated. -/
abbrev VO2_7 : View sig .tc .vmem S2048x1 .f32 := (Memref.whole cc2_stg7_0 : Memref sig .tc .vmem S2048x1 .f32).view
abbrev ms2_0 (t : Fin cfg2.N) : Memref sig .tc .vmem S2048x2048 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2048x1 .f32 := win2_7.stage (cfg2.slots t 7)
abbrev hs2_7 (t : Fin cfg2.N) : (ms2_7 t).IsWhole := hstage2_7 ((cfg2.slots t 7).cast nbuf2_7)
/-- The scratch operand: a whole scoped buffer of the kernel's own, and its view. -/
abbrev scM2_0 : Memref sig .tc .vmem S2048x64 .f32 := Memref.whole cc2_scratch0
abbrev VS2_0 : View sig .tc .vmem S2048x64 .f32 := scM2_0.view

end Cert.Kernel.Hand

end
-- ==== Proof.KB.K2RunA.lean ====
/-
  An aggregation region's body when the column tile is 0: the running aggregate is reset and the tile's product added into it; the output
  block is not touched.
  The pieces the scratch buffer (and, at the last column tile, the output buffer) ends with are found by running the body.
-/
import proofs.«138637_j24172075942523_2_alg».proof.Proof.KB.K2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun2_A (c : Dev nD) (i : grid2.Coords)
    (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole)
    (hc0 : cond2_0 i) (hc1 : ¬cond2_1 i)
    (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) :
    Σ' (LO : List (View.Piece (Elt F) S2048x1 .f32)), { LS0 : List (View.Piece (Elt F) S2048x64 .f32) //
      ∀ (xi : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi
                ∗ (∃ f, arg10.view.loc (c : Thread nD τ) ↦[arg10.view.set]{fullShare} arg10.view.writes (Elt F) f LS0)) -∗ K ⟨⟩))
          ⊢ wp frame (wpE (defs₀ (F := F)) Variants.none c none) E (cc2__agg2_kernel i arg2 harg2 arg3 harg3 arg4 harg4 arg5 harg5 arg6 harg6 arg7 harg7 arg8 harg8 arg9 harg9 arg10 harg10) K } := by
  refine ⟨[], ?_, fun xi E K => ?run⟩
  case run =>
    simp only [cc2__agg2_kernel_eq_skeleton]; unfold cc2__agg2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS0

end Cert.Kernel.Hand

end
-- ==== Proof.KB.K2RunB.lean ====
/-
  An aggregation region's body when the column tile is neither 0 nor the last: the tile's product is added into the running
  aggregate the point before left; the output block is not touched.
  The pieces the scratch buffer (and, at the last column tile, the output buffer) ends with are found by running the body.
-/
import proofs.«138637_j24172075942523_2_alg».proof.Proof.KB.K2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun2_B (c : Dev nD) (i : grid2.Coords)
    (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole)
    (hc0 : ¬cond2_0 i) (hc1 : ¬cond2_1 i)
    (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) :
    Σ' (LO : List (View.Piece (Elt F) S2048x1 .f32)), { LS0 : List (View.Piece (Elt F) S2048x64 .f32) //
      ∀ (xi : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi
                ∗ (∃ f, arg10.view.loc (c : Thread nD τ) ↦[arg10.view.set]{fullShare} arg10.view.writes (Elt F) f LS0)) -∗ K ⟨⟩))
          ⊢ wp frame (wpE (defs₀ (F := F)) Variants.none c none) E (cc2__agg2_kernel i arg2 harg2 arg3 harg3 arg4 harg4 arg5 harg5 arg6 harg6 arg7 harg7 arg8 harg8 arg9 harg9 arg10 harg10) K } := by
  refine ⟨[], ?_, fun xi E K => ?run⟩
  case run =>
    simp only [cc2__agg2_kernel_eq_skeleton]; unfold cc2__agg2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfO; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS0

end Cert.Kernel.Hand

end
-- ==== Proof.KB.K2RunC.lean ====
/-
  An aggregation region's body when the column tile is the last: the tile's product is added into the running aggregate, which is
  then scaled by the row's inverse-root degrees, sent through the dense map and the bias, clipped below at zero, summed
  against the head's weights with its bias added, and stored
  into the output block.
  The pieces the scratch buffer (and, at the last column tile, the output buffer) ends with are found by running the body.
-/
import proofs.«138637_j24172075942523_2_alg».proof.Proof.KB.K2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun2_C (c : Dev nD) (i : grid2.Coords)
    (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole)
    (hc0 : ¬cond2_0 i) (hc1 : cond2_1 i)
    (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) :
    Σ' (LO : List (View.Piece (Elt F) S2048x1 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f LO)
                ∗ (∃ f, arg10.view.loc (c : Thread nD τ) ↦[arg10.view.set]{fullShare} arg10.view.writes (Elt F) f LS0)) -∗ K ⟨⟩))
          ⊢ wp frame (wpE (defs₀ (F := F)) Variants.none c none) E (cc2__agg2_kernel i arg2 harg2 arg3 harg3 arg4 harg4 arg5 harg5 arg6 harg6 arg7 harg7 arg8 harg8 arg9 harg9 arg10 harg10) K } := by
  refine ⟨?_, ?_, fun E K => ?run⟩
  case run =>
    simp only [cc2__agg2_kernel_eq_skeleton]; unfold cc2__agg2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS0

end Cert.Kernel.Hand

end
-- ==== Proof.KB.K2Dat.lean ====
/-
  An aggregation region, point by point: what the output block's buffer and the scratch buffer hold after each
  point (the scratch by recursion on the point: reset and one tile's product at a column tile 0, the point before's
  contents plus this tile's product elsewhere), the invariant that carries the scratch from point to point, the
  region's proof data, and the body obligation.
-/
import proofs.«138637_j24172075942523_2_alg».proof.Proof.KB.K2RunA
import proofs.«138637_j24172075942523_2_alg».proof.Proof.KB.K2RunB
import proofs.«138637_j24172075942523_2_alg».proof.Proof.KB.K2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's buffer: its pieces read back (it stores none: a placeholder nothing consults, the window being idle there). -/
def out2_A_7 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) : Vec F S2048x1 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 hc0 hc1 x0 x1 x2 x3 x4 x5 x6).1)
/-- Case A's pieces for the scratch buffer tile it, so they cover it. -/
theorem scover2_A_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (y : S2048x64.Idx) :
    ∃ pc ∈ (kernelRun2_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3 x4 x5 x6).2.1 S2048x64.size (by sl_kernel_rfl) y
/-- What case A leaves in the scratch buffer: its pieces read back. -/
def sout2_A_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) : Vec F S2048x64 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 x0 x1 x2 x3 x4 x5 x6).2.1)

/-- What case B leaves in the output block's buffer: its pieces read back (it stores none: a placeholder nothing consults, the window being idle there). -/
def out2_B_7 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) : Vec F S2048x1 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 hc0 hc1 x0 x1 x2 x3 x4 x5 x6 xs0).1)
/-- Case B's pieces for the scratch buffer tile it, so they cover it. -/
theorem scover2_B_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) (y : S2048x64.Idx) :
    ∃ pc ∈ (kernelRun2_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 x4 x5 x6 xs0).2.1 S2048x64.size (by sl_kernel_rfl) y
/-- What case B leaves in the scratch buffer: its pieces read back. -/
def sout2_B_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) : Vec F S2048x64 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 hc0 hc1 x0 x1 x2 x3 x4 x5 x6 xs0).2.1)

/-- The last column tile's pieces for the output block tile it, so they cover it. -/
theorem cover2_C_7 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) (y : S2048x1.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 x6 xs0).1 S2048x1.size (by sl_kernel_rfl) y
/-- What case C leaves in the output block's buffer: its pieces read back. -/
def out2_C_7 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) : Vec F S2048x1 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 hc0 hc1 x0 x1 x2 x3 x4 x5 x6 xs0).1)
/-- Case C's pieces for the scratch buffer tile it, so they cover it. -/
theorem scover2_C_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) (y : S2048x64.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 x6 xs0).2.1 S2048x64.size (by sl_kernel_rfl) y
/-- What case C leaves in the scratch buffer: its pieces read back. -/
def sout2_C_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) : Vec F S2048x64 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 hc0 hc1 x0 x1 x2 x3 x4 x5 x6 xs0).2.1)

/-- THE ACCUMULATION: what the output block's buffer and the scratch buffer hold after the body at position `n`: the
    case the column tile selects, run at the point's memrefs and input blocks, the scratch at a column tile other than 0
    over what the point before left. (No column tile is both 0 and the last.) -/
def outsAt2 (c : Dev nD) : (n : ℕ) → n < cfg2.N → Vec F S2048x1 .f32 × Vec F S2048x64 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 4 = 0 then
      if h1 : (n + 1) % 4 = 3 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 4 = 3 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The scoped buffers that are neither a staging buffer of this region nor its scratch, each at some contents. -/
abbrev restBut2 (c : Dev nD) : sProp 𝕄 :=
  Pipeline.scopedRestBut (Ix := Unit) (Name := ℕ) (U := UR sig nD τ) (Lvl := ℕ) (Val := Elt F) spec2 c [cc2_scratch0]

/-- The region's scoped rest split at its scratch. -/
theorem scopedRest2_atScratch (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ restBut2 (F := F) c) :=
  Pipeline.scopedRest_split_of_list spec2 c [cc2_scratch0] (by decide) (by decide)

/-- The class invariant with the scratch as a memref owned at some contents. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_atScratch]; simp only [scM2_0, owns_whole]; try rfl

/-- The region invariant before position `n`: before the first point the class's (the scratch at anything); afterwards
    the scratch at what the point before left in it, the other scoped buffers at anything, the generator register at
    some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restBut2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-- The region's proof data on core `c`: the arrays as the region finds them; after the body at point `t` each input's
    buffer at its block and the output's at `outsAt`'s first component; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 6400000 in
/-- The body at any point: the inputs' memrefs hold their blocks; the column tile says which case the point is in; the
    invariant hands the body the scratch at what the point before left (at anything at the first point) and takes it back
    at this point's contents; at the last column tile the output block is stored, elsewhere handed back untouched; the
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
      unfold Dat.leavesExact; rw [liveAt2_7_C t (fun h => h0 ((hcond2_0 t).mp h)) ((hcond2_1 t).mpr h1)], after2_7]
      rw [outsAt2_C V c t h0 h1]
      unfold out2_C_7 sout2_C_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%eO, H7⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover2_C_7 c _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.KB.Frame.lean ====
/-
  The whole program as a chain of segments: three stretches of host operations, each followed by a kernel region.
  The contents of every unscoped buffer at each boundary are a fold from the launch memory: a stretch applies its
  operations, a region replaces its arrays by what its write-backs leave and keeps every other buffer. The run: every
  weakly fair execution terminates, and in the final memory every unscoped buffer holds the last boundary's
  contents.
-/
import proofs.«138637_j24172075942523_2_alg».proof.Proof.KB.K0Dat
import proofs.«138637_j24172075942523_2_alg».proof.Proof.KB.K1Dat
import proofs.«138637_j24172075942523_2_alg».proof.Proof.KB.K2Dat
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (each output's write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (each output's write-backs folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (each output's write-backs folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- No pallas_call has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- Region 0 over the thread state: entered from every unscoped buffer at `W1`, left at `W2`. Its arrays are split
    out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h := hin1 (V3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := hout1 (V3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    have h := hin2 (V5 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V5 m) c).Φ (Fin.last cfg2.N) from rfl]
    have h := hout2 (V5 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The six segments in order. -/
abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)),
    .region (reg2 m) ]
/-- The program is the run of the segments. -/
theorem main_run (c : Dev nD) : main (F := F) c = Pipeline.Seg.run (segs m) := (main_chain c).trans (by chain_rfl)

set_option backward.isDefEq.respectTransparency.types false in
/-- THE RUN: from any memory with zero counters every weakly fair execution terminates, nothing faulting, and in the
    final memory every unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.KB.Args.lean ====
/-
  The argument arrays end as launched: the fold of boundary contents, read at an argument's buffer, walks back to the
  launch memory (no host operation writes an argument; a region reads it through an input window or passes it by).
  Hence the frame: every weakly fair execution terminates and leaves the seven arguments unchanged.
-/
import proofs.«138637_j24172075942523_2_alg».proof.Proof.KB.Frame
import proofs.«138637_j24172075942523_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Argument 0 reaches the end as launched: no host operation writes it, and a region only reads it or passes it by. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- Argument 1 reaches the end as launched: no host operation writes it, and a region only reads it or passes it by. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := (W4_arr m c 3).trans (((dat1 (V3 m) c).arrAt_in 3 rfl _).trans (A_eq1 (V3 m) c 3))
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- Argument 2 reaches the end as launched: no host operation writes it, and a region only reads it or passes it by. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- Argument 3 reaches the end as launched: no host operation writes it, and a region only reads it or passes it by. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := (W6_arr m c 3).trans (((dat2 (V5 m) c).arrAt_in 3 rfl _).trans (A_eq2 (V5 m) c 3))
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- Argument 4 reaches the end as launched: no host operation writes it, and a region only reads it or passes it by. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- Argument 5 reaches the end as launched: no host operation writes it, and a region only reads it or passes it by. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- Argument 6 reaches the end as launched: no host operation writes it, and a region only reads it or passes it by. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- THE FRAME, at any instance: from any memory with zero counters every weakly fair execution terminates, nothing
    faulting, and the final memory holds every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.Kernel.Hand

end
-- ==== Proof.KI.K0Base.lean ====
/-
  The first kernel region (the nearness words and the degrees), what its case runs share.

  The grid is 4 × 4, a point t standing for the row tile t / 4 and the column tile t % 4. Windows 0–3 bring in
  the row tile's two position columns [2048, 1] and the column tile's two position rows [1, 2048]; window 4
  is the [2048, 2048] tile of nearness words, written whole at every point; window 5 is the row tile's
  [2048, 1] degree block, which the body resets when the column tile is 0 and adds the tile's row sums into
  at every point, so between two points of one row tile it holds what the point before left.
-/
import proofs.«138637_j24172075942523_2_alg».proof.Proof.Gen.KernelIdeal.Launch
import proofs.«138637_j24172075942523_2_alg».proof.Proof.Gen.KernelIdeal.Skeleton
import proofs.«138637_j24172075942523_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the unscoped buffers' contents on each core when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The body's one branch: the column tile is 0 (the skeleton's scalar chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- No window of this region is ever idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-- One staging buffer of each output window, through which its contents are stated. -/
abbrev VO0_4 : View sig .tc .vmem S2048x2048 .i32 := (Memref.whole cc0_stg4_0 : Memref sig .tc .vmem S2048x2048 .i32).view
abbrev VO0_5 : View sig .tc .vmem S2048x1 .f32 := (Memref.whole cc0_stg5_0 : Memref sig .tc .vmem S2048x1 .f32).view
/-- Each window's current staging memref at point `t`, as the pipeline passes it, and its wholeness. -/
abbrev ms0_0 (t : Fin cfg0.N) : Memref sig .tc .vmem S2048x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2048 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1 .f32 := win0_5.stage (cfg0.slots t 5)
abbrev hs0_5 (t : Fin cfg0.N) : (ms0_5 t).IsWhole := hstage0_5 ((cfg0.slots t 5).cast nbuf0_5)

end Cert.KernelIdeal.Hand

end
-- ==== Proof.KI.K0RunA.lean ====
/-
  The first region's body when the column tile is 0: the degree block is reset, the nearness tile computed and
  stored, the tile's row sums added into the degree block.  The pieces each output buffer ends with are found
  by running the body.
-/
import proofs.«138637_j24172075942523_2_alg».proof.Proof.KI.K0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the nearness tile's buffer and in the degree block's, with the proof that on whole
    staging memrefs — the four position blocks at their contents, the two outputs at anything — it runs to the
    continuation holding the inputs as they were and each output with its pieces written. -/
noncomputable def kernelRun0_A (c : Dev nD) (i : grid0.Coords)
    (arg2 : Memref sig .tc .vmem S2048x1 .f32) (harg2 : arg2.IsWhole) (arg3 : Memref sig .tc .vmem S2048x1 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S2048x2048 .i32) (harg6 : arg6.IsWhole) (arg7 : Memref sig .tc .vmem S2048x1 .f32) (harg7 : arg7.IsWhole)
    (hc0 : cond0_0 i)
    (x0 : Vec F S2048x1 .f32) (x1 : Vec F S2048x1 .f32) (x2 : Vec F S1x2048 .f32) (x3 : Vec F S1x2048 .f32) :
    Σ' (L4 : List (View.Piece (Elt F) S2048x2048 .i32)), { L5 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__mask_deg_kernel i arg2 harg2 arg3 harg3 arg4 harg4 arg5 harg5 arg6 harg6 arg7 harg7) K } := by
  refine ⟨?_, ?_, fun E K => ?run⟩
  case run =>
    simp only [cc0__mask_deg_kernel_eq_skeleton]; unfold cc0__mask_deg_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.KernelIdeal.Hand

end
-- ==== Proof.KI.K0RunB.lean ====
/-
  The first region's body when the column tile is not 0: the nearness tile is computed and stored and the tile's
  row sums are added into the degree block, which holds what the point before left.  The pieces each output buffer ends with are found
  by running the body.
-/
import proofs.«138637_j24172075942523_2_alg».proof.Proof.KI.K0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the nearness tile's buffer and in the degree block's, with the proof that on whole
    staging memrefs — the four position blocks at their contents, the nearness tile's at anything, the degree block's at what the
    point before left — it runs to the
    continuation holding the inputs as they were and each output with its pieces written. -/
noncomputable def kernelRun0_B (c : Dev nD) (i : grid0.Coords)
    (arg2 : Memref sig .tc .vmem S2048x1 .f32) (harg2 : arg2.IsWhole) (arg3 : Memref sig .tc .vmem S2048x1 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S2048x2048 .i32) (harg6 : arg6.IsWhole) (arg7 : Memref sig .tc .vmem S2048x1 .f32) (harg7 : arg7.IsWhole)
    (hc0 : ¬cond0_0 i)
    (x0 : Vec F S2048x1 .f32) (x1 : Vec F S2048x1 .f32) (x2 : Vec F S1x2048 .f32) (x3 : Vec F S1x2048 .f32) (xo5 : Vec F S2048x1 .f32) :
    Σ' (L4 : List (View.Piece (Elt F) S2048x2048 .i32)), { L5 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__mask_deg_kernel i arg2 harg2 arg3 harg3 arg4 harg4 arg5 harg5 arg6 harg6 arg7 harg7) K } := by
  refine ⟨?_, ?_, fun E K => ?run⟩
  case run =>
    simp only [cc0__mask_deg_kernel_eq_skeleton]; unfold cc0__mask_deg_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.KernelIdeal.Hand

end
-- ==== Proof.KI.K0Dat.lean ====
/-
  The first region, point by point: what the nearness tile's buffer and the degree block's hold after each point
  (the degree block by recursion on the point: reset and one tile's row sums at a column tile 0, the point
  before's contents plus this tile's row sums elsewhere), the region's proof data, and the body obligation.
-/
import proofs.«138637_j24172075942523_2_alg».proof.Proof.KI.K0RunA
import proofs.«138637_j24172075942523_2_alg».proof.Proof.KI.K0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces of each case tile the buffer they are stored into, so they cover it. -/
theorem cover0_A_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) (y : S2048x2048.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S2048x2048.size (by sl_kernel_rfl) y
theorem cover0_A_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) (y : S2048x1.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S2048x1.size (by sl_kernel_rfl) y
theorem cover0_B_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) (y : S2048x2048.Idx) :
    ∃ pc ∈ (kernelRun0_B c i arg2 harg2 arg3 harg3 arg4 harg4 arg5 harg5 arg6 harg6 arg7 harg7 hc0 x0 x1 x2 x3 xo5).1, y ∈ pc.1.set :=
  View.cover_of_tiledL (kernelRun0_B c i arg2 harg2 arg3 harg3 arg4 harg4 arg5 harg5 arg6 harg6 arg7 harg7 hc0 x0 x1 x2 x3 xo5).1 S2048x2048.size (by sl_kernel_rfl) y
theorem cover0_B_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) (y : S2048x1.Idx) :
    ∃ pc ∈ (kernelRun0_B c i arg2 harg2 arg3 harg3 arg4 harg4 arg5 harg5 arg6 harg6 arg7 harg7 hc0 x0 x1 x2 x3 xo5).2.1, y ∈ pc.1.set :=
  View.cover_of_tiledL (kernelRun0_B c i arg2 harg2 arg3 harg3 arg4 harg4 arg5 harg5 arg6 harg6 arg7 harg7 hc0 x0 x1 x2 x3 xo5).2.1 S2048x1.size (by sl_kernel_rfl) y

/-- What each case leaves in each output's staging buffer: its pieces read back. -/
def out0_A_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) : Vec F S2048x2048 .i32 :=
  VO0_4.read (Elt F) (VO0_4.writes (Elt F) VO0_4.junk (kernelRun0_A c i arg2 harg2 arg3 harg3 arg4 harg4 arg5 harg5 arg6 harg6 arg7 harg7 hc0 x0 x1 x2 x3).1)
def out0_A_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) : Vec F S2048x1 .f32 :=
  VO0_5.read (Elt F) (VO0_5.writes (Elt F) VO0_5.junk (kernelRun0_A c i arg2 harg2 arg3 harg3 arg4 harg4 arg5 harg5 arg6 harg6 arg7 harg7 hc0 x0 x1 x2 x3).2.1)
def out0_B_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) : Vec F S2048x2048 .i32 :=
  VO0_4.read (Elt F) (VO0_4.writes (Elt F) VO0_4.junk (kernelRun0_B c i arg2 harg2 arg3 harg3 arg4 harg4 arg5 harg5 arg6 harg6 arg7 harg7 hc0 x0 x1 x2 x3 xo5).1)
def out0_B_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) : Vec F S2048x1 .f32 :=
  VO0_5.read (Elt F) (VO0_5.writes (Elt F) VO0_5.junk (kernelRun0_B c i arg2 harg2 arg3 harg3 arg4 harg4 arg5 harg5 arg6 harg6 arg7 harg7 hc0 x0 x1 x2 x3 xo5).2.1)

/-- THE ACCUMULATION: what the two outputs' staging buffers hold after the body at position `n` (the nearness tile,
    the degree block): the case the column tile selects, run at the point's memrefs and input blocks, the degree block
    at a column tile other than 0 over what the point before left. -/
def outsAt0 (c : Dev nD) : (n : ℕ) → n < cfg0.N → Vec F S2048x2048 .i32 × Vec F S2048x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩),
             out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 4 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's proof data on core `c`: the arrays as the region finds them; after the body at point `t` each input's
    buffer at its block and the outputs' at `outsAt0`; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a column tile other than 0 the degree block's current buffer holds what the body left at the point before: the
    buffer was not written back between. -/
theorem before0_5_B (c : Dev nD) (t : Fin cfg0.N) (h0 : ¬t.val % 4 = 0) (d) :
    (dat0 V c).before 5 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 1600000 in
/-- The body at any point: the inputs' memrefs hold their blocks; the column tile says which case the point is in; at a
    column tile other than 0 the degree block holds what the point before left; so the case's run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 16 := lt_of_lt_of_eq t.isLt (show cfg0.N = 16 from N_0)
  by_cases h0 : t.val % 4 = 0
  · rw [outsAt0_A V c t h0]
    unfold out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B V c t h0]
    simp only [before0_5_B V c t h0]
    unfold out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.K1Base.lean ====
/-
  An aggregation region, what its case runs share.

  The grid is 4 × 4, a point t standing for the row tile t / 4 and the column tile t % 4. Window 0 brings in the
  [2048, 2048] tile of nearness words, window 1 the column tile's feature rows, window 2 the row tile's
  inverse-root degrees, the remaining input windows the whole dense weights and biases. A scratch buffer of
  the kernel's own holds the row tile's running aggregate: reset when the column tile is 0, the tile's product
  added into it at every point. The output window is the row tile's block: stored only when the column tile is
  the last, 3, and left untouched (and not written back) at the other points.
-/
import proofs.«138637_j24172075942523_2_alg».proof.Proof.Gen.KernelIdeal.Launch
import proofs.«138637_j24172075942523_2_alg».proof.Proof.Gen.KernelIdeal.Skeleton
import proofs.«138637_j24172075942523_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the unscoped buffers' contents on each core when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body's first branch: the column tile is 0 (the skeleton's scalar chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The body's second branch: the column tile is the last. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the output window is idle: at every point whose column tile is not the last, and there it is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-- One staging buffer of the output window, through which its contents are stated. -/
abbrev VO1_5 : View sig .tc .vmem S2048x64 .f32 := (Memref.whole cc1_stg5_0 : Memref sig .tc .vmem S2048x64 .f32).view
abbrev ms1_0 (t : Fin cfg1.N) : Memref sig .tc .vmem S2048x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x4 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)
/-- The scratch operand: a whole scoped buffer of the kernel's own, and its view. -/
abbrev scM1_0 : Memref sig .tc .vmem S2048x4 .f32 := Memref.whole cc1_scratch0
abbrev VS1_0 : View sig .tc .vmem S2048x4 .f32 := scM1_0.view

end Cert.KernelIdeal.Hand

end
-- ==== Proof.KI.K1RunA.lean ====
/-
  An aggregation region's body when the column tile is 0: the running aggregate is reset and the tile's product added into it; the output
  block is not touched.
  The pieces the scratch buffer (and, at the last column tile, the output buffer) ends with are found by running the body.
-/
import proofs.«138637_j24172075942523_2_alg».proof.Proof.KI.K1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun1_A (c : Dev nD) (i : grid1.Coords)
    (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole)
    (hc0 : cond1_0 i) (hc1 : ¬cond1_1 i)
    (x0 : Vec F S2048x2048 .i32) (x1 : Vec F S2048x4 .f32) (x2 : Vec F S2048x1 .f32) (x3 : Vec F S4x64 .f32) (x4 : Vec F S1x64 .f32) :
    Σ' (LO : List (View.Piece (Elt F) S2048x64 .f32)), { LS0 : List (View.Piece (Elt F) S2048x4 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi
                ∗ (∃ f, arg8.view.loc (c : Thread nD τ) ↦[arg8.view.set]{fullShare} arg8.view.writes (Elt F) f LS0)) -∗ K ⟨⟩))
          ⊢ wp frame (wpE (defs₀ (F := F)) Variants.none c none) E (cc1__agg1_kernel i arg2 harg2 arg3 harg3 arg4 harg4 arg5 harg5 arg6 harg6 arg7 harg7 arg8 harg8) K } := by
  refine ⟨[], ?_, fun xi E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS0

end Cert.KernelIdeal.Hand

end
-- ==== Proof.KI.K1RunB.lean ====
/-
  An aggregation region's body when the column tile is neither 0 nor the last: the tile's product is added into the running
  aggregate the point before left; the output block is not touched.
  The pieces the scratch buffer (and, at the last column tile, the output buffer) ends with are found by running the body.
-/
import proofs.«138637_j24172075942523_2_alg».proof.Proof.KI.K1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun1_B (c : Dev nD) (i : grid1.Coords)
    (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole)
    (hc0 : ¬cond1_0 i) (hc1 : ¬cond1_1 i)
    (x0 : Vec F S2048x2048 .i32) (x1 : Vec F S2048x4 .f32) (x2 : Vec F S2048x1 .f32) (x3 : Vec F S4x64 .f32) (x4 : Vec F S1x64 .f32) (xs0 : Vec F S2048x4 .f32) :
    Σ' (LO : List (View.Piece (Elt F) S2048x64 .f32)), { LS0 : List (View.Piece (Elt F) S2048x4 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi
                ∗ (∃ f, arg8.view.loc (c : Thread nD τ) ↦[arg8.view.set]{fullShare} arg8.view.writes (Elt F) f LS0)) -∗ K ⟨⟩))
          ⊢ wp frame (wpE (defs₀ (F := F)) Variants.none c none) E (cc1__agg1_kernel i arg2 harg2 arg3 harg3 arg4 harg4 arg5 harg5 arg6 harg6 arg7 harg7 arg8 harg8) K } := by
  refine ⟨[], ?_, fun xi E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfO; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS0

end Cert.KernelIdeal.Hand

end
-- ==== Proof.KI.K1RunC.lean ====
/-
  An aggregation region's body when the column tile is the last: the tile's product is added into the running aggregate, which is
  then scaled by the row's inverse-root degrees, sent through the dense map and the bias, clipped below at zero and stored
  into the output block.
  The pieces the scratch buffer (and, at the last column tile, the output buffer) ends with are found by running the body.
-/
import proofs.«138637_j24172075942523_2_alg».proof.Proof.KI.K1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun1_C (c : Dev nD) (i : grid1.Coords)
    (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole)
    (hc0 : ¬cond1_0 i) (hc1 : cond1_1 i)
    (x0 : Vec F S2048x2048 .i32) (x1 : Vec F S2048x4 .f32) (x2 : Vec F S2048x1 .f32) (x3 : Vec F S4x64 .f32) (x4 : Vec F S1x64 .f32) (xs0 : Vec F S2048x4 .f32) :
    Σ' (LO : List (View.Piece (Elt F) S2048x64 .f32)), { LS0 : List (View.Piece (Elt F) S2048x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS0)) -∗ K ⟨⟩))
          ⊢ wp frame (wpE (defs₀ (F := F)) Variants.none c none) E (cc1__agg1_kernel i arg2 harg2 arg3 harg3 arg4 harg4 arg5 harg5 arg6 harg6 arg7 harg7 arg8 harg8) K } := by
  refine ⟨?_, ?_, fun E K => ?run⟩
  case run =>
    simp only [cc1__agg1_kernel_eq_skeleton]; unfold cc1__agg1_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]; · iexists _; iexact HO
    iexists _; iexact HS0

end Cert.KernelIdeal.Hand

end
-- ==== Proof.KI.K1Dat.lean ====
/-
  An aggregation region, point by point: what the output block's buffer and the scratch buffer hold after each
  point (the scratch by recursion on the point: reset and one tile's product at a column tile 0, the point before's
  contents plus this tile's product elsewhere), the invariant that carries the scratch from point to point, the
  region's proof data, and the body obligation.
-/
import proofs.«138637_j24172075942523_2_alg».proof.Proof.KI.K1RunA
import proofs.«138637_j24172075942523_2_alg».proof.Proof.KI.K1RunB
import proofs.«138637_j24172075942523_2_alg».proof.Proof.KI.K1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's buffer: its pieces read back (it stores none: a placeholder nothing consults, the window being idle there). -/
def out1_A_5 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : cond1_0 i) (hc1 : ¬cond1_1 i) (x0 : Vec F S2048x2048 .i32) (x1 : Vec F S2048x4 .f32) (x2 : Vec F S2048x1 .f32) (x3 : Vec F S4x64 .f32) (x4 : Vec F S1x64 .f32) : Vec F S2048x64 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)
/-- Case A's pieces for the scratch buffer tile it, so they cover it. -/
theorem scover1_A_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : cond1_0 i) (hc1 : ¬cond1_1 i) (x0 : Vec F S2048x2048 .i32) (x1 : Vec F S2048x4 .f32) (x2 : Vec F S2048x1 .f32) (x3 : Vec F S4x64 .f32) (x4 : Vec F S1x64 .f32) (y : S2048x4.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2048x4.size (by sl_kernel_rfl) y
/-- What case A leaves in the scratch buffer: its pieces read back. -/
def sout1_A_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : cond1_0 i) (hc1 : ¬cond1_1 i) (x0 : Vec F S2048x2048 .i32) (x1 : Vec F S2048x4 .f32) (x2 : Vec F S2048x1 .f32) (x3 : Vec F S4x64 .f32) (x4 : Vec F S1x64 .f32) : Vec F S2048x4 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- What case B leaves in the output block's buffer: its pieces read back (it stores none: a placeholder nothing consults, the window being idle there). -/
def out1_B_5 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : ¬cond1_1 i) (x0 : Vec F S2048x2048 .i32) (x1 : Vec F S2048x4 .f32) (x2 : Vec F S2048x1 .f32) (x3 : Vec F S4x64 .f32) (x4 : Vec F S1x64 .f32) (xs0 : Vec F S2048x4 .f32) : Vec F S2048x64 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)
/-- Case B's pieces for the scratch buffer tile it, so they cover it. -/
theorem scover1_B_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : ¬cond1_1 i) (x0 : Vec F S2048x2048 .i32) (x1 : Vec F S2048x4 .f32) (x2 : Vec F S2048x1 .f32) (x3 : Vec F S4x64 .f32) (x4 : Vec F S1x64 .f32) (xs0 : Vec F S2048x4 .f32) (y : S2048x4.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2048x4.size (by sl_kernel_rfl) y
/-- What case B leaves in the scratch buffer: its pieces read back. -/
def sout1_B_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : ¬cond1_1 i) (x0 : Vec F S2048x2048 .i32) (x1 : Vec F S2048x4 .f32) (x2 : Vec F S2048x1 .f32) (x3 : Vec F S4x64 .f32) (x4 : Vec F S1x64 .f32) (xs0 : Vec F S2048x4 .f32) : Vec F S2048x4 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- The last column tile's pieces for the output block tile it, so they cover it. -/
theorem cover1_C_5 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) (y : S2048x64.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2048x64.size (by sl_kernel_rfl) y
/-- What case C leaves in the output block's buffer: its pieces read back. -/
def out1_C_5 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) : Vec F S2048x64 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)
/-- Case C's pieces for the scratch buffer tile it, so they cover it. -/
theorem scover1_C_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) (y : S2048x4.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2048x4.size (by sl_kernel_rfl) y
/-- What case C leaves in the scratch buffer: its pieces read back. -/
def sout1_C_0 (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) : Vec F S2048x4 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-- THE ACCUMULATION: what the output block's buffer and the scratch buffer hold after the body at position `n`: the
    case the column tile selects, run at the point's memrefs and input blocks, the scratch at a column tile other than 0
    over what the point before left. (No column tile is both 0 and the last.) -/
def outsAt1 (c : Dev nD) : (n : ℕ) → n < cfg1.N → Vec F S2048x64 .f32 × Vec F S2048x4 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The scoped buffers that are neither a staging buffer of this region nor its scratch, each at some contents. -/
abbrev restBut1 (c : Dev nD) : sProp 𝕄 :=
  Pipeline.scopedRestBut (Ix := Unit) (Name := ℕ) (U := UR sig nD τ) (Lvl := ℕ) (Val := Elt F) spec1 c [cc1_scratch0]

/-- The region's scoped rest split at its scratch. -/
theorem scopedRest1_atScratch (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ restBut1 (F := F) c) :=
  Pipeline.scopedRest_split_of_list spec1 c [cc1_scratch0] (by decide) (by decide)

/-- The class invariant with the scratch as a memref owned at some contents. -/
theorem PhiA1_eq (c : Dev nD) :
    (Pipeline.ΦA spec1 c : sProp 𝕄)
      = iprop(iprop(iprop((∃ d, owns (c : Thread nD τ) scM1_0 fullShare d)) ∗ restBut1 (F := F) c) ∗ (∃ r, prngReg c r)) := by
  unfold Pipeline.ΦA; rw [scopedRest1_atScratch]; simp only [scM1_0, owns_whole]; try rfl

/-- The region invariant before position `n`: before the first point the class's (the scratch at anything); afterwards
    the scratch at what the point before left in it, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-- The region's proof data on core `c`: the arrays as the region finds them; after the body at point `t` each input's
    buffer at its block and the output's at `outsAt`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
/-- The body at any point: the inputs' memrefs hold their blocks; the column tile says which case the point is in; the
    invariant hands the body the scratch at what the point before left (at anything at the first point) and takes it back
    at this point's contents; at the last column tile the output block is stored, elsewhere handed back untouched; the
    core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%eO, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.K2Base.lean ====
/-
  An aggregation region, what its case runs share.

  The grid is 4 × 4, a point t standing for the row tile t / 4 and the column tile t % 4. Window 0 brings in the
  [2048, 2048] tile of nearness words, window 1 the column tile's feature rows, window 2 the row tile's
  inverse-root degrees, the remaining input windows the whole dense weights and biases. A scratch buffer of
  the kernel's own holds the row tile's running aggregate: reset when the column tile is 0, the tile's product
  added into it at every point. The output window is the row tile's block: stored only when the column tile is
  the last, 3, and left untouched (and not written back) at the other points.
-/
import proofs.«138637_j24172075942523_2_alg».proof.Proof.Gen.KernelIdeal.Launch
import proofs.«138637_j24172075942523_2_alg».proof.Proof.Gen.KernelIdeal.Skeleton
import proofs.«138637_j24172075942523_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the unscoped buffers' contents on each core when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The body's first branch: the column tile is 0 (the skeleton's scalar chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)
/-- The body's second branch: the column tile is the last. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Where the output window is idle: at every point whose column tile is not the last, and there it is not written back. -/
theorem idleAt2_7_A : ∀ t : Fin cfg2.N, cond2_0 (grid2.coords t) → ¬cond2_1 (grid2.coords t) → cfg2.idle 7 (grid2.coords t) = true := by decide +kernel
theorem noFlush2_7_A : ∀ t : Fin cfg2.N, cond2_0 (grid2.coords t) → ¬cond2_1 (grid2.coords t) → (cfg2.win 7).flush t = false := by decide +kernel
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
theorem liveAt2_7_C : ∀ t : Fin cfg2.N, ¬cond2_0 (grid2.coords t) → cond2_1 (grid2.coords t) → cfg2.idle 7 (grid2.coords t) = false := by decide +kernel

/-- One staging buffer of the output window, through which its contents are stated. -/
abbrev VO2_7 : View sig .tc .vmem S2048x1 .f32 := (Memref.whole cc2_stg7_0 : Memref sig .tc .vmem S2048x1 .f32).view
abbrev ms2_0 (t : Fin cfg2.N) : Memref sig .tc .vmem S2048x2048 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S64x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2048x1 .f32 := win2_7.stage (cfg2.slots t 7)
abbrev hs2_7 (t : Fin cfg2.N) : (ms2_7 t).IsWhole := hstage2_7 ((cfg2.slots t 7).cast nbuf2_7)
/-- The scratch operand: a whole scoped buffer of the kernel's own, and its view. -/
abbrev scM2_0 : Memref sig .tc .vmem S2048x64 .f32 := Memref.whole cc2_scratch0
abbrev VS2_0 : View sig .tc .vmem S2048x64 .f32 := scM2_0.view

end Cert.KernelIdeal.Hand

end
-- ==== Proof.KI.K2RunA.lean ====
/-
  An aggregation region's body when the column tile is 0: the running aggregate is reset and the tile's product added into it; the output
  block is not touched.
  The pieces the scratch buffer (and, at the last column tile, the output buffer) ends with are found by running the body.
-/
import proofs.«138637_j24172075942523_2_alg».proof.Proof.KI.K2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun2_A (c : Dev nD) (i : grid2.Coords)
    (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole)
    (hc0 : cond2_0 i) (hc1 : ¬cond2_1 i)
    (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) :
    Σ' (LO : List (View.Piece (Elt F) S2048x1 .f32)), { LS0 : List (View.Piece (Elt F) S2048x64 .f32) //
      ∀ (xi : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi
                ∗ (∃ f, arg10.view.loc (c : Thread nD τ) ↦[arg10.view.set]{fullShare} arg10.view.writes (Elt F) f LS0)) -∗ K ⟨⟩))
          ⊢ wp frame (wpE (defs₀ (F := F)) Variants.none c none) E (cc2__agg2_kernel i arg2 harg2 arg3 harg3 arg4 harg4 arg5 harg5 arg6 harg6 arg7 harg7 arg8 harg8 arg9 harg9 arg10 harg10) K } := by
  refine ⟨[], ?_, fun xi E K => ?run⟩
  case run =>
    simp only [cc2__agg2_kernel_eq_skeleton]; unfold cc2__agg2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fO, %hfO, HO⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS0

end Cert.KernelIdeal.Hand

end
-- ==== Proof.KI.K2RunB.lean ====
/-
  An aggregation region's body when the column tile is neither 0 nor the last: the tile's product is added into the running
  aggregate the point before left; the output block is not touched.
  The pieces the scratch buffer (and, at the last column tile, the output buffer) ends with are found by running the body.
-/
import proofs.«138637_j24172075942523_2_alg».proof.Proof.KI.K2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun2_B (c : Dev nD) (i : grid2.Coords)
    (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole)
    (hc0 : ¬cond2_0 i) (hc1 : ¬cond2_1 i)
    (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) :
    Σ' (LO : List (View.Piece (Elt F) S2048x1 .f32)), { LS0 : List (View.Piece (Elt F) S2048x64 .f32) //
      ∀ (xi : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi
                ∗ (∃ f, arg10.view.loc (c : Thread nD τ) ↦[arg10.view.set]{fullShare} arg10.view.writes (Elt F) f LS0)) -∗ K ⟨⟩))
          ⊢ wp frame (wpE (defs₀ (F := F)) Variants.none c none) E (cc2__agg2_kernel i arg2 harg2 arg3 harg3 arg4 harg4 arg5 harg5 arg6 harg6 arg7 harg7 arg8 harg8 arg9 harg9 arg10 harg10) K } := by
  refine ⟨[], ?_, fun xi E K => ?run⟩
  case run =>
    simp only [cc2__agg2_kernel_eq_skeleton]; unfold cc2__agg2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fO, %hfO, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfO; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    iexists _; iexact HS0

end Cert.KernelIdeal.Hand

end
-- ==== Proof.KI.K2RunC.lean ====
/-
  An aggregation region's body when the column tile is the last: the tile's product is added into the running aggregate, which is
  then scaled by the row's inverse-root degrees, sent through the dense map and the bias, clipped below at zero, summed
  against the head's weights with its bias added, and stored
  into the output block.
  The pieces the scratch buffer (and, at the last column tile, the output buffer) ends with are found by running the body.
-/
import proofs.«138637_j24172075942523_2_alg».proof.Proof.KI.K2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body leaves in the output block's buffer (none where it does not store into it) and in the scratch
    buffer, with the proof that on whole memrefs — the inputs at their contents, the output and the scratch as the case
    finds them — it runs to the continuation holding the inputs as they were and each written buffer with its pieces. -/
noncomputable def kernelRun2_C (c : Dev nD) (i : grid2.Coords)
    (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole)
    (hc0 : ¬cond2_0 i) (hc1 : cond2_1 i)
    (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) :
    Σ' (LO : List (View.Piece (Elt F) S2048x1 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f LO)
                ∗ (∃ f, arg10.view.loc (c : Thread nD τ) ↦[arg10.view.set]{fullShare} arg10.view.writes (Elt F) f LS0)) -∗ K ⟨⟩))
          ⊢ wp frame (wpE (defs₀ (F := F)) Variants.none c none) E (cc2__agg2_kernel i arg2 harg2 arg3 harg3 arg4 harg4 arg5 harg5 arg6 harg6 arg7 harg7 arg8 harg8 arg9 harg9 arg10 harg10) K } := by
  refine ⟨?_, ?_, fun E K => ?run⟩
  case run =>
    simp only [cc2__agg2_kernel_eq_skeleton]; unfold cc2__agg2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    iexists _; iexact HS0

end Cert.KernelIdeal.Hand

end
-- ==== Proof.KI.K2Dat.lean ====
/-
  An aggregation region, point by point: what the output block's buffer and the scratch buffer hold after each
  point (the scratch by recursion on the point: reset and one tile's product at a column tile 0, the point before's
  contents plus this tile's product elsewhere), the invariant that carries the scratch from point to point, the
  region's proof data, and the body obligation.
-/
import proofs.«138637_j24172075942523_2_alg».proof.Proof.KI.K2RunA
import proofs.«138637_j24172075942523_2_alg».proof.Proof.KI.K2RunB
import proofs.«138637_j24172075942523_2_alg».proof.Proof.KI.K2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's buffer: its pieces read back (it stores none: a placeholder nothing consults, the window being idle there). -/
def out2_A_7 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) : Vec F S2048x1 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 hc0 hc1 x0 x1 x2 x3 x4 x5 x6).1)
/-- Case A's pieces for the scratch buffer tile it, so they cover it. -/
theorem scover2_A_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (y : S2048x64.Idx) :
    ∃ pc ∈ (kernelRun2_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun2_A c i arg2 harg2 arg3 harg3 arg4 harg4 arg5 harg5 arg6 harg6 arg7 harg7 arg8 harg8 arg9 harg9 arg10 harg10 hc0 hc1 x0 x1 x2 x3 x4 x5 x6).2.1 S2048x64.size (by sl_kernel_rfl) y
/-- What case A leaves in the scratch buffer: its pieces read back. -/
def sout2_A_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) : Vec F S2048x64 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 hc0 hc1 x0 x1 x2 x3 x4 x5 x6).2.1)

/-- What case B leaves in the output block's buffer: its pieces read back (it stores none: a placeholder nothing consults, the window being idle there). -/
def out2_B_7 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) : Vec F S2048x1 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 hc0 hc1 x0 x1 x2 x3 x4 x5 x6 xs0).1)
/-- Case B's pieces for the scratch buffer tile it, so they cover it. -/
theorem scover2_B_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) (y : S2048x64.Idx) :
    ∃ pc ∈ (kernelRun2_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun2_B c i arg2 harg2 arg3 harg3 arg4 harg4 arg5 harg5 arg6 harg6 arg7 harg7 arg8 harg8 arg9 harg9 arg10 harg10 hc0 hc1 x0 x1 x2 x3 x4 x5 x6 xs0).2.1 S2048x64.size (by sl_kernel_rfl) y
/-- What case B leaves in the scratch buffer: its pieces read back. -/
def sout2_B_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) : Vec F S2048x64 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 hc0 hc1 x0 x1 x2 x3 x4 x5 x6 xs0).2.1)

/-- The last column tile's pieces for the output block tile it, so they cover it. -/
theorem cover2_C_7 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) (y : S2048x1.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 x6 xs0).1 S2048x1.size (by sl_kernel_rfl) y
/-- What case C leaves in the output block's buffer: its pieces read back. -/
def out2_C_7 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) : Vec F S2048x1 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 hc0 hc1 x0 x1 x2 x3 x4 x5 x6 xs0).1)
/-- Case C's pieces for the scratch buffer tile it, so they cover it. -/
theorem scover2_C_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) (y : S2048x64.Idx) :
    ∃ pc ∈ (kernelRun2_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun2_C c i arg2 harg2 arg3 harg3 arg4 harg4 arg5 harg5 arg6 harg6 arg7 harg7 arg8 harg8 arg9 harg9 arg10 harg10 hc0 hc1 x0 x1 x2 x3 x4 x5 x6 xs0).2.1 S2048x64.size (by sl_kernel_rfl) y
/-- What case C leaves in the scratch buffer: its pieces read back. -/
def sout2_C_0 (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) : Vec F S2048x64 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 hc0 hc1 x0 x1 x2 x3 x4 x5 x6 xs0).2.1)

/-- THE ACCUMULATION: what the output block's buffer and the scratch buffer hold after the body at position `n`: the
    case the column tile selects, run at the point's memrefs and input blocks, the scratch at a column tile other than 0
    over what the point before left. (No column tile is both 0 and the last.) -/
def outsAt2 (c : Dev nD) : (n : ℕ) → n < cfg2.N → Vec F S2048x1 .f32 × Vec F S2048x64 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 4 = 0 then
      if h1 : (n + 1) % 4 = 3 then
        False.elim (by omega)
      else
        (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      if h1 : (n + 1) % 4 = 3 then
        (out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)
      else
        (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The scoped buffers that are neither a staging buffer of this region nor its scratch, each at some contents. -/
abbrev restBut2 (c : Dev nD) : sProp 𝕄 :=
  Pipeline.scopedRestBut (Ix := Unit) (Name := ℕ) (U := UR sig nD τ) (Lvl := ℕ) (Val := Elt F) spec2 c [cc2_scratch0]

/-- The region's scoped rest split at its scratch. -/
theorem scopedRest2_atScratch (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ restBut2 (F := F) c) :=
  Pipeline.scopedRest_split_of_list spec2 c [cc2_scratch0] (by decide) (by decide)

/-- The class invariant with the scratch as a memref owned at some contents. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_atScratch]; simp only [scM2_0, owns_whole]; try rfl

/-- The region invariant before position `n`: before the first point the class's (the scratch at anything); afterwards
    the scratch at what the point before left in it, the other scoped buffers at anything, the generator register at
    some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restBut2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-- The region's proof data on core `c`: the arrays as the region finds them; after the body at point `t` each input's
    buffer at its block and the output's at `outsAt`'s first component; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 6400000 in
/-- The body at any point: the inputs' memrefs hold their blocks; the column tile says which case the point is in; the
    invariant hands the body the scratch at what the point before left (at anything at the first point) and takes it back
    at this point's contents; at the last column tile the output block is stored, elsewhere handed back untouched; the
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [show (dat2 V c).leavesExact 7 t = owns (c : Thread nD τ) (ms2_7 t) fullShare ((dat2 V c).after 7 t) from by
      unfold Dat.leavesExact; rw [liveAt2_7_C t (fun h => h0 ((hcond2_0 t).mp h)) ((hcond2_1 t).mpr h1)], after2_7]
      rw [outsAt2_C V c t h0 h1]
      unfold out2_C_7 sout2_C_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%eO, H7⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover2_C_7 c _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t], after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.KI.Frame.lean ====
/-
  The whole program as a chain of segments: three stretches of host operations, each followed by a kernel region.
  The contents of every unscoped buffer at each boundary are a fold from the launch memory: a stretch applies its
  operations, a region replaces its arrays by what its write-backs leave and keeps every other buffer. The run: every
  weakly fair execution terminates, and in the final memory every unscoped buffer holds the last boundary's
  contents.
-/
import proofs.«138637_j24172075942523_2_alg».proof.Proof.KI.K0Dat
import proofs.«138637_j24172075942523_2_alg».proof.Proof.KI.K1Dat
import proofs.«138637_j24172075942523_2_alg».proof.Proof.KI.K2Dat
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (each output's write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (each output's write-backs folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (each output's write-backs folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- No pallas_call has a prefetched table. -/
abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- Region 0 over the thread state: entered from every unscoped buffer at `W1`, left at `W2`. Its arrays are split
    out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h := hin1 (V3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := hout1 (V3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the region's
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    have h := hin2 (V5 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V5 m) c).Φ (Fin.last cfg2.N) from rfl]
    have h := hout2 (V5 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The six segments in order. -/
abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)),
    .region (reg2 m) ]
/-- The program is the run of the segments. -/
theorem main_run (c : Dev nD) : main (F := F) c = Pipeline.Seg.run (segs m) := (main_chain c).trans (by chain_rfl)

set_option backward.isDefEq.respectTransparency.types false in
/-- THE RUN: from any memory with zero counters every weakly fair execution terminates, nothing faulting, and in the
    final memory every unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.GcnSpec.lean ====
/-
  The graph-convolution function both programs compute, written once over whole arrays of extended reals.

  Agents i, j range over Fin 8192; an agent's state has four coordinates, the first two its planar
  position. Two agents are NEAR when the squared planar distance is at most the word 0x3F800000 (the
  number one); `adj` is the 0/1 adjacency (an agent is near itself, so this already holds the self loop
  whenever the positions are finite); `deg` its row sums; `dinv = deg^(-1/2)`.

  A layer aggregates the features scaled by `dinv` over the near agents, scales the row by `dinv` again,
  applies the dense map and the bias, and clips below at zero:
      hid1 i c = max (∑ k, (∑ j, adj i j * (dinv j * x j k)) * dinv i * W1 k c + b1 c) 0.
  The second layer does the same with `hid1` in place of the states, and the head is the channel sum
  against `cw` plus the scalar bias.  Every sum is over the WHOLE index range: how a program tiles it is
  that program's business (extended-real addition is commutative and associative, so any tiling of a sum
  is the sum).
-/
import Idealize.ShloMosaic.PureOps.Ideal
import Idealize.ShloMosaic.Lib.ValueIdx

noncomputable section

namespace Cert.GcnSpec

open Idealize.ShloMosaic Idealize.ShloMosaic.ValueIdx

/-- The two coordinates of a rank-2 index at their literal extents. -/
def idx2_fst {a b : Nat} (p : (⟨2, ![a, b]⟩ : Shape).Idx) : Fin a := ⟨(p 0).val, idx2_lt0 p⟩
def idx2_snd {a b : Nat} (p : (⟨2, ![a, b]⟩ : Shape).Idx) : Fin b := ⟨(p 1).val, idx2_lt1 p⟩
theorem idx2_fst_ix2 {a b : Nat} (i : Fin a) (j : Fin b) : idx2_fst (ix2 i j) = i := rfl
theorem idx2_snd_ix2 {a b : Nat} (i : Fin a) (j : Fin b) : idx2_snd (ix2 i j) = j := rfl

/-- A matrix of extended reals with literal extents, and a vector. -/
abbrev Mat (a b : Nat) : Type := (⟨2, ![a, b]⟩ : Shape).Idx → EReal
abbrev Vc (a : Nat) : Type := (⟨1, ![a]⟩ : Shape).Idx → EReal

/-- The word of the number one, the squared radius. -/
abbrev one32 : EReal := Ideal.ofBits .f32 0x3F800000#32

/-- Squared planar distance of agents `i` and `j`: the first two state coordinates. -/
def dist2 (x : Mat 8192 4) (i j : Fin 8192) : EReal :=
  (x (ix2 i 0) - x (ix2 j 0)) * (x (ix2 i 0) - x (ix2 j 0))
    + (x (ix2 i 1) - x (ix2 j 1)) * (x (ix2 i 1) - x (ix2 j 1))

/-- `j` lies within the radius of `i`, as the one-bit word a float comparison answers. -/
def near (x : Mat 8192 4) (i j : Fin 8192) : BitVec 1 := Ideal.cmp .ole (dist2 x i j) one32

/-- The 0/1 adjacency. -/
def adj (x : Mat 8192 4) (i j : Fin 8192) : EReal := if near x i j = 1#1 then 1 else 0

/-- Row sums of the adjacency, and their inverse square roots. -/
def deg (x : Mat 8192 4) (i : Fin 8192) : EReal := ∑ j : Fin 8192, adj x i j
def dinv (x : Mat 8192 4) (i : Fin 8192) : EReal := Ideal.rsqrt (deg x i)

/-- One aggregation: features scaled by `dinv`, summed over the near agents. -/
def agg {K : Nat} (x : Mat 8192 4) (f : Fin 8192 → Fin K → EReal) (i : Fin 8192) (k : Fin K) : EReal :=
  ∑ j : Fin 8192, adj x i j * (dinv x j * f j k)

/-- One layer: aggregate, scale the row, dense map, bias, clip below at zero. -/
def layer {K : Nat} (x : Mat 8192 4) (f : Fin 8192 → Fin K → EReal) (W : Mat K 64) (b : Vc 64)
    (i : Fin 8192) (c : Fin 64) : EReal :=
  max (∑ k : Fin K, (agg x f i k * dinv x i) * W (ix2 k c) + b (ix1 c)) 0

def hid1 (x : Mat 8192 4) (W1 : Mat 4 64) (b1 : Vc 64) : Fin 8192 → Fin 64 → EReal :=
  layer x (fun j k => x (ix2 j k)) W1 b1

def hid2 (x : Mat 8192 4) (W1 : Mat 4 64) (b1 : Vc 64) (W2 : Mat 64 64) (b2 : Vc 64) : Fin 8192 → Fin 64 → EReal :=
  layer x (hid1 x W1 b1) W2 b2

/-- The head: the channel sum against `cw`, plus the scalar bias. -/
def out (x : Mat 8192 4) (W1 : Mat 4 64) (b1 : Vc 64) (W2 : Mat 64 64) (b2 : Vc 64) (cw : Vc 64) (cb : Vc 1)
    (i : Fin 8192) : EReal :=
  ∑ c : Fin 64, hid2 x W1 b1 W2 b2 i c * cw (ix1 c) + cb (ix1 0)

/-- The two results as arrays: the head as an [8192, 1] column, the nearness words as an [8192, 8192] matrix. -/
def outArr (x : Mat 8192 4) (W1 : Mat 4 64) (b1 : Vc 64) (W2 : Mat 64 64) (b2 : Vc 64) (cw : Vc 64) (cb : Vc 1) :
    (⟨2, ![8192, 1]⟩ : Shape).Idx → EReal :=
  fun p => out x W1 b1 W2 b2 cw cb (idx2_fst p)
def maskArr (x : Mat 8192 4) : (⟨2, ![8192, 8192]⟩ : Shape).Idx → BitVec 1 :=
  fun p => near x (idx2_fst p) (idx2_snd p)

end Cert.GcnSpec

end
-- ==== Proof.LibUnitColumns.lean ====
/-
  A vector presented with a unit axis, read at coordinates.  A vector [a] broadcast along dimension 0 of [a, 1], or cast
  to [a, 1], is the same elements in the same order: entry (p, 0) is the vector's entry p.  A vector [b] broadcast along
  dimension 1 of [1, b] reads, at (0, q), the vector's entry q.  (An index vector handed to a scatter or a gather as a
  column of start indices; a per-row factor handed to a kernel as a column; a bias handed to it as a row.)
-/
import Idealize.ShloMosaic.Lib.Pipeline.Value
import Idealize.ShloMosaic.Lib.ValueIdx
import Idealize.ShloMosaic.Lib.ValueLayout

noncomputable section

namespace Cert.LibUnitColumns

open Idealize.ShloMosaic Idealize.ShloMosaic.ValueIdx

variable {α : Type}

/-- The host's broadcast of a vector [a] along dimension 0 of [a, 1] reads, at (p, u), the vector at p. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) (fun ax => match ax with
    | ⟨0, _⟩ => by
      show p.val = if a = 1 then 0 else p.val
      split
      · have := p.isLt; omega
      · rfl)

/-- Casting a vector [a] to a column [a, 1] moves no element: entry (p, u) is the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h (ix2 p u) (ix1 p) (by
    rw [Shape.rowMajor_val_two, Shape.rowMajor_val_one]
    show p.val = p.val * 1 + u.val
    omega)

/-- The host's broadcast of a vector [b] along dimension 1 of [1, b] reads, at (u, q), the vector at q. -/
theorem broadcastInDim_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) :=
  broadcastInDim_apply ![1] h v (ix2 u q) (ix1 q) (fun ax => match ax with
    | ⟨0, _⟩ => by
      show q.val = if b = 1 then 0 else q.val
      split
      · have := q.isLt; omega
      · rfl)

end Cert.LibUnitColumns

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.KI.GlueV1.lean ====
/-
  The first region's four position arrays, read off the states: the row-side columns hold the first and the second
  state coordinate of agent i at (i, 0), the column-side rows the same at (0, j). So the nearness word the kernel
  computes from them is the specification's.
-/
import proofs.«138637_j24172075942523_2_alg».proof.Proof.KI.Frame
import proofs.«138637_j24172075942523_2_alg».proof.Proof.GcnSpec
import proofs.«138637_j24172075942523_2_alg».proof.Proof.LibUnitColumns
import proofs.«138637_j24172075942523_2_alg».proof.Proof.LibUnitAxes
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.GcnSpec

variable (m : (ℓ : Loc nD τ sig) → Buf (Elt Ideal) ℓ)

/-- The row-side x column at (i, 0) is agent i's first coordinate. -/
theorem V1_v4 (c : Dev nD) (i : Fin 8192) (u : Fin 1) :
    V1 m c main_v4 (ix2 i u) = m ((c : Thread nD τ).loc main_arg0) (ix2 i 0) := by
  have e : (V1 m c main_v4 : S8192x1.Idx → EReal)
      = broadcastInDim S8192x1 ![0] bcast_S8192_S8192x1_0
          (shapeCast S8192 (extractStridedSlice S8192x1 ![0, 0] (m ((c : Thread nD τ).loc main_arg0)) slices_S8192x4_S8192x1_0_0) shapeCasts_S8192x1_S8192) := by
    show StableHlo.after (hostOps0 (F := Ideal)) (W0 m c) (Proc.devRef .tc main_v4) = _
    after_results; rfl
  rw [e, Cert.LibUnitColumns.broadcastInDim_a_a1_apply]
  rw [shapeCast_apply _ shapeCasts_S8192x1_S8192 (ix1 i) (ix2 i (0 : Fin 1)) (by
    rw [Shape.rowMajor_val_two, Shape.rowMajor_val_one]; show i.val * 1 + 0 = i.val; omega)]
  exact extractStridedSlice_apply ![0, 0] _ slices_S8192x4_S8192x1_0_0 (ix2 i (0 : Fin 1)) (ix2 i (0 : Fin 4)) (fun a => match a with
    | ⟨0, _⟩ => (Nat.zero_add _).symm
    | ⟨1, _⟩ => rfl)

/-- The row-side y column at (i, 0) is agent i's second coordinate. -/
theorem V1_v5 (c : Dev nD) (i : Fin 8192) (u : Fin 1) :
    V1 m c main_v5 (ix2 i u) = m ((c : Thread nD τ).loc main_arg0) (ix2 i 1) := by
  have e : (V1 m c main_v5 : S8192x1.Idx → EReal)
      = broadcastInDim S8192x1 ![0] bcast_S8192_S8192x1_0
          (shapeCast S8192 (extractStridedSlice S8192x1 ![0, 1] (m ((c : Thread nD τ).loc main_arg0)) slices_S8192x4_S8192x1_0_1) shapeCasts_S8192x1_S8192) := by
    show StableHlo.after (hostOps0 (F := Ideal)) (W0 m c) (Proc.devRef .tc main_v5) = _
    after_results; rfl
  rw [e, Cert.LibUnitColumns.broadcastInDim_a_a1_apply]
  rw [shapeCast_apply _ shapeCasts_S8192x1_S8192 (ix1 i) (ix2 i (0 : Fin 1)) (by
    rw [Shape.rowMajor_val_two, Shape.rowMajor_val_one]; show i.val * 1 + 0 = i.val; omega)]
  exact extractStridedSlice_apply ![0, 1] _ slices_S8192x4_S8192x1_0_1 (ix2 i (0 : Fin 1)) (ix2 i (1 : Fin 4)) (fun a => match a with
    | ⟨0, _⟩ => (Nat.zero_add _).symm
    | ⟨1, _⟩ => rfl)

/-- The column-side x row at (0, j) is agent j's first coordinate. -/
theorem V1_v6 (c : Dev nD) (i : Fin 8192) (u : Fin 1) :
    V1 m c main_v6 (ix2 u i) = m ((c : Thread nD τ).loc main_arg0) (ix2 i 0) := by
  have e : (V1 m c main_v6 : S1x8192.Idx → EReal)
      = broadcastInDim S1x8192 ![1] bcast_S8192_S1x8192_1
          (shapeCast S8192 (extractStridedSlice S8192x1 ![0, 0] (m ((c : Thread nD τ).loc main_arg0)) slices_S8192x4_S8192x1_0_0) shapeCasts_S8192x1_S8192) := by
    show StableHlo.after (hostOps0 (F := Ideal)) (W0 m c) (Proc.devRef .tc main_v6) = _
    after_results; rfl
  rw [e, Cert.LibUnitColumns.broadcastInDim_b_1b_apply]
  rw [shapeCast_apply _ shapeCasts_S8192x1_S8192 (ix1 i) (ix2 i (0 : Fin 1)) (by
    rw [Shape.rowMajor_val_two, Shape.rowMajor_val_one]; show i.val * 1 + 0 = i.val; omega)]
  exact extractStridedSlice_apply ![0, 0] _ slices_S8192x4_S8192x1_0_0 (ix2 i (0 : Fin 1)) (ix2 i (0 : Fin 4)) (fun a => match a with
    | ⟨0, _⟩ => (Nat.zero_add _).symm
    | ⟨1, _⟩ => rfl)

/-- The column-side y row at (0, j) is agent j's second coordinate. -/
theorem V1_v7 (c : Dev nD) (i : Fin 8192) (u : Fin 1) :
    V1 m c main_v7 (ix2 u i) = m ((c : Thread nD τ).loc main_arg0) (ix2 i 1) := by
  have e : (V1 m c main_v7 : S1x8192.Idx → EReal)
      = broadcastInDim S1x8192 ![1] bcast_S8192_S1x8192_1
          (shapeCast S8192 (extractStridedSlice S8192x1 ![0, 1] (m ((c : Thread nD τ).loc main_arg0)) slices_S8192x4_S8192x1_0_1) shapeCasts_S8192x1_S8192) := by
    show StableHlo.after (hostOps0 (F := Ideal)) (W0 m c) (Proc.devRef .tc main_v7) = _
    after_results; rfl
  rw [e, Cert.LibUnitColumns.broadcastInDim_b_1b_apply]
  rw [shapeCast_apply _ shapeCasts_S8192x1_S8192 (ix1 i) (ix2 i (0 : Fin 1)) (by
    rw [Shape.rowMajor_val_two, Shape.rowMajor_val_one]; show i.val * 1 + 0 = i.val; omega)]
  exact extractStridedSlice_apply ![0, 1] _ slices_S8192x4_S8192x1_0_1 (ix2 i (0 : Fin 1)) (ix2 i (1 : Fin 4)) (fun a => match a with
    | ⟨0, _⟩ => (Nat.zero_add _).symm
    | ⟨1, _⟩ => rfl)

/-- The nearness word computed from position columns and rows that hold the states' first two coordinates is the
    specification's. -/
theorem near_of_cols (px py : S8192x1.Idx → EReal) (qx qy : S1x8192.Idx → EReal) (x : Mat 8192 4)
    (h4 : ∀ i : Fin 8192, px (ix2 i 0) = x (ix2 i 0)) (h5 : ∀ i : Fin 8192, py (ix2 i 0) = x (ix2 i 1))
    (h6 : ∀ j : Fin 8192, qx (ix2 0 j) = x (ix2 j 0)) (h7 : ∀ j : Fin 8192, qy (ix2 0 j) = x (ix2 j 1)) (i j : Fin 8192) :
    Ideal.cmp .ole ((px (ix2 i 0) - qx (ix2 0 j)) * (px (ix2 i 0) - qx (ix2 0 j)) + (py (ix2 i 0) - qy (ix2 0 j)) * (py (ix2 i 0) - qy (ix2 0 j))) one32
      = near x i j := by
  unfold near dist2
  rw [h4 i, h5 i, h6 j, h7 j]

/-- A layer computed from stand-ins for the adjacency row, the scaled features, the row's inverse-root degree, the dense
    column and the bias entry is the specification's layer. -/
theorem layer_congr {K : Nat} (x : Mat 8192 4) (f : Fin 8192 → Fin K → EReal) (W : Mat K 64) (b : Vc 64) (i : Fin 8192) (c : Fin 64)
    (a : Fin 8192 → EReal) (g : Fin 8192 → Fin K → EReal) (d : EReal) (W' : Fin K → EReal) (b' : EReal)
    (ha : ∀ j, a j = adj x i j) (hg : ∀ j k, g j k = dinv x j * f j k) (hd : d = dinv x i) (hW : ∀ k, W' k = W (ix2 k c)) (hb : b' = b (ix1 c)) :
    max (∑ k : Fin K, ((∑ j : Fin 8192, a j * g j k) * d) * W' k + b') 0 = layer x f W b i c := by
  subst hd hb
  unfold layer agg
  simp only [ha, hg, hW]
/-- The head computed from stand-ins for the second layer's row, the head's weights and its bias is the specification's. -/
theorem out_congr (x : Mat 8192 4) (W1 : Mat 4 64) (b1 : Vc 64) (W2 : Mat 64 64) (b2 : Vc 64) (cw : Vc 64) (cb : Vc 1) (i : Fin 8192)
    (h2 : Fin 64 → EReal) (cw' : Fin 64 → EReal) (cb' : EReal)
    (hh : ∀ c, h2 c = hid2 x W1 b1 W2 b2 i c) (hcw : ∀ c, cw' c = cw (ix1 c)) (hcb : cb' = cb (ix1 0)) :
    (∑ c : Fin 64, h2 c * cw' c + cb') = out x W1 b1 W2 b2 cw cb i := by
  subst hcb
  unfold out
  simp only [hh, hcw]

end Cert.KernelIdeal.Hand

end
-- ==== Proof.KI.Args.lean ====
/-
  The argument arrays end as launched: the fold of boundary contents, read at an argument's buffer, walks back to the
  launch memory (no host operation writes an argument; a region reads it through an input window or passes it by).
  Hence the frame: every weakly fair execution terminates and leaves the seven arguments unchanged.
-/
import proofs.«138637_j24172075942523_2_alg».proof.Proof.KI.Frame
import proofs.«138637_j24172075942523_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Argument 0 reaches the end as launched: no host operation writes it, and a region only reads it or passes it by. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- Argument 1 reaches the end as launched: no host operation writes it, and a region only reads it or passes it by. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := (W4_arr m c 3).trans (((dat1 (V3 m) c).arrAt_in 3 rfl _).trans (A_eq1 (V3 m) c 3))
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- Argument 2 reaches the end as launched: no host operation writes it, and a region only reads it or passes it by. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- Argument 3 reaches the end as launched: no host operation writes it, and a region only reads it or passes it by. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := (W6_arr m c 3).trans (((dat2 (V5 m) c).arrAt_in 3 rfl _).trans (A_eq2 (V5 m) c 3))
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- Argument 4 reaches the end as launched: no host operation writes it, and a region only reads it or passes it by. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- Argument 5 reaches the end as launched: no host operation writes it, and a region only reads it or passes it by. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- Argument 6 reaches the end as launched: no host operation writes it, and a region only reads it or passes it by. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- THE FRAME, at any instance: from any memory with zero counters every weakly fair execution terminates, nothing
    faulting, and the final memory holds every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.KernelIdeal.Hand

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.KI.K0ValPay.lean ====
/-
  The first region's body as values.

  What each case of the body leaves in the two output buffers is one store's payload over the loaded blocks: the
  nearness tile is the widened comparison word of every (row, column) pair of the tile, and the degree block is what
  it held (the zero block, after the reset at column tile 0) plus, for every row, the number of near columns of the
  tile.  Read at explicit coordinates: the word at (p, q) compares the squared planar distance of row p's and
  column q's positions with the word of the number one; a 0/1 word widened and converted to a float is 1 or 0.
-/
import proofs.«138637_j24172075942523_2_alg».proof.Proof.KI.K0Dat
import proofs.«138637_j24172075942523_2_alg».proof.Proof.LibLaneSums
import proofs.«138637_j24172075942523_2_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

section Pieces

variable {F : FTy → Type} [FloatOps F]

theorem hz2 : (![0, 0] : Fin 2 → Nat) = fun _ => 0 := funext fun a => by fin_cases a <;> rfl

/-- Column tile 0, the nearness tile: the one store's payload over the four position blocks. -/
theorem out_A_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) :
    out0_A_4 c i arg2 harg2 arg3 harg3 arg4 harg4 arg5 harg5 arg6 harg6 arg7 harg7 hc0 x0 x1 x2 x3 = k0_pay3 x0 x2 x1 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz2]
  simp only [View.readAt_eq_ld, harg2.read_unread, harg3.read_unread, harg4.read_unread, harg5.read_unread, harg7.read_unread,
    View.ld_unit_zero (S := S2048x1) hz2, View.ld_unit_zero (S := S1x2048) hz2]

/-- Column tile 0, the degree block: the reset block is stored, read back, and the tile's row sums added to it. -/
theorem out_A_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : cond0_0 i) (x0 : Vec F S2048x1 .f32) (x1 : Vec F S2048x1 .f32) (x2 : Vec F S1x2048 .f32) (x3 : Vec F S1x2048 .f32) :
    out0_A_5 c i arg2 harg2 arg3 harg3 arg4 harg4 arg5 harg5 arg6 harg6 arg7 harg7 hc0 x0 x1 x2 x3 = k0_pay4 x0 x2 x1 x3 k0_pay1 := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, harg4.read_unread, harg5.read_unread, harg7.read_unread,
    View.ld_unit_zero (S := S2048x1) hz2, View.ld_unit_zero (S := S1x2048) hz2]

/-- Another column tile, the nearness tile. -/
theorem out_B_4 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) :
    out0_B_4 c i arg2 harg2 arg3 harg3 arg4 harg4 arg5 harg5 arg6 harg6 arg7 harg7 hc0 x0 x1 x2 x3 xo5 = k0_pay3 x0 x2 x1 x3 := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  rw [View.canon_unit_zero hz2]
  simp only [View.readAt_eq_ld, harg2.read_unread, harg3.read_unread, harg4.read_unread, harg5.read_unread, harg7.read_unread,
    View.ld_unit_zero (S := S2048x1) hz2, View.ld_unit_zero (S := S1x2048) hz2]

/-- Another column tile, the degree block: the tile's row sums added to what the block held. -/
theorem out_B_5 (c : Dev nD) (i : grid0.Coords) (arg2 : Memref sig .tc .vmem S2048x1 .f32) (harg2 : arg2.IsWhole) (arg3 : Memref sig .tc .vmem S2048x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .i32) (harg6 : arg6.IsWhole) (arg7 : Memref sig .tc .vmem S2048x1 .f32) (harg7 : arg7.IsWhole) (hc0 : ¬cond0_0 i) (x0 : Vec F S2048x1 .f32) (x1 : Vec F S2048x1 .f32) (x2 : Vec F S1x2048 .f32) (x3 : Vec F S1x2048 .f32) (xo5 : Vec F S2048x1 .f32) :
    out0_B_5 c i arg2 harg2 arg3 harg3 arg4 harg4 arg5 harg5 arg6 harg6 arg7 harg7 hc0 x0 x1 x2 x3 xo5 = k0_pay4 x0 x2 x1 x3 xo5 := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  rw [View.canon_unit_zero hz2]
  simp only [View.readAt_eq_ld, harg2.read_unread, harg3.read_unread, harg4.read_unread, harg5.read_unread, harg7.read_unread,
    View.ld_unit_zero (S := S2048x1) hz2, View.ld_unit_zero (S := S1x2048) hz2]

end Pieces

/-! ## The payloads at coordinates, on the extended reals -/

/-- A 0/1 word as a number. -/
def ind (b : BitVec 1) : EReal := if b = 1#1 then 1 else 0

/-- The squared planar distance of a tile's row p and column q, from the two position columns and the two position rows. -/
def tdist2 (x0 x1 : Vec Ideal S2048x1 .f32) (x2 x3 : Vec Ideal S1x2048 .f32) (p q : Fin 2048) : EReal :=
  (x0 (ix2 p (0 : Fin 1)) - x2 (ix2 (0 : Fin 1) q)) * (x0 (ix2 p (0 : Fin 1)) - x2 (ix2 (0 : Fin 1) q))
    + (x1 (ix2 p (0 : Fin 1)) - x3 (ix2 (0 : Fin 1) q)) * (x1 (ix2 p (0 : Fin 1)) - x3 (ix2 (0 : Fin 1) q))

/-- The comparison word of the tile at (p, q). -/
theorem pay2_apply (x0 x1 : Vec Ideal S2048x1 .f32) (x2 x3 : Vec Ideal S1x2048 .f32) (p q : Fin 2048) :
    k0_pay2 (F := Ideal) x0 x2 x1 x3 (ix2 p q)
      = Ideal.cmp .ole (tdist2 x0 x1 x2 x3 p q) (Ideal.ofBits .f32 0x3F800000#32) := by
  unfold k0_pay2 tdist2
  simp only [shapeCast_self, cmpf_apply, addf_apply, mulf_apply, subf_apply, broadcast_apply,
    Cert.LibUnitAxes.broadcastTo_a1_ab_apply, broadcastTo_1b_ab_apply, Ideal.cmpf_def]
  rfl

/-- The stored nearness word at (p, q): the comparison word widened to 32 bits. -/
theorem pay3_apply (x0 x1 : Vec Ideal S2048x1 .f32) (x2 x3 : Vec Ideal S1x2048 .f32) (p q : Fin 2048) :
    k0_pay3 (F := Ideal) x0 x2 x1 x3 (ix2 p q)
      = (Ideal.cmp .ole (tdist2 x0 x1 x2 x3 p q) (Ideal.ofBits .f32 0x3F800000#32)).setWidth 32 := by
  unfold k0_pay3
  exact congrArg (BitVec.setWidth 32) (pay2_apply x0 x1 x2 x3 p q)

/-- A 0/1 word widened to 32 bits and converted to a float is the number it stands for. -/
theorem sitofp_extui (b : BitVec 1) : FloatOps.sitofp (F := Ideal) .f32 (b.setWidth 32) = ind b := by
  unfold ind
  rcases BitVec.eq_zero_or_eq_one b with h | h <;> subst h <;> simp [FloatOps.sitofp, Ideal.scalar_sitofp_def]

/-- The stored degree block at row p: what the block held plus the number of near columns of the tile. -/
theorem pay4_apply (x0 x1 : Vec Ideal S2048x1 .f32) (x2 x3 : Vec Ideal S1x2048 .f32) (v : Vec Ideal S2048x1 .f32)
    (p : Fin 2048) (u : Fin 1) :
    k0_pay4 (F := Ideal) x0 x2 x1 x3 v (ix2 p u)
      = v (ix2 p u) + ∑ k : Fin 2048, ind (Ideal.cmp .ole (tdist2 x0 x1 x2 x3 p k) (Ideal.ofBits .f32 0x3F800000#32)) := by
  unfold k0_pay4
  rw [addf_apply, shapeCast_self]
  refine congrArg (v (ix2 p u) + ·) ?_
  refine (Cert.LibLaneSums.shapeCast_a_a1_apply _ _ p u).trans ?_
  refine (Cert.LibLaneSums.sum_last_apply _ 0x00000000#32 reduces_S2048x2048_S2048 (.inl rfl) rfl p).trans ?_
  refine Finset.sum_congr rfl fun k _ => ?_
  rw [sitofp_apply, extui_apply, pay2_apply, sitofp_extui]

/-- The reset block is zero everywhere. -/
theorem pay1_apply (j : S2048x1.Idx) : k0_pay1 (F := Ideal) j = 0 := by
  unfold k0_pay1
  rw [broadcast_apply]
  exact Ideal.ofBits_zero_f32

end Cert.KernelIdeal.Hand

end
-- ==== Proof.KI.K0ValBlk.lean ====
/-
  The first region's blocks in their arrays.

  Point t of the 4 × 4 grid stands for the row tile t / 4 and the column tile t % 4.  Row p of a row-side block is row
  (t / 4) * 2048 + p of its array; column q of a column-side block is column (t % 4) * 2048 + q; the nearness tile sits
  at both.  Every entry of the nearness array lies in the tile of one point, and every row of the degree array in the
  block of the last point of its row tile.
-/
import proofs.«138637_j24172075942523_2_alg».proof.Proof.KI.K0Dat
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (V : (c : Dev nD) → (b : Ref sig .tc) → Buf (Elt F) ((c : Thread nD τ).loc b))

theorem lt16 (t : Fin cfg0.N) : t.val < 16 := lt_of_lt_of_eq t.isLt (show cfg0.N = 16 from N_0)

/-- The array row under row p of a row-side block at point t, and the array column under column q of a column-side block. -/
def rowAt (t : Fin cfg0.N) (p : Fin 2048) : Fin 8192 := ⟨(t.val / 4) * 2048 + p.val, by have := lt16 t; have := p.isLt; omega⟩
def colAt (t : Fin cfg0.N) (q : Fin 2048) : Fin 8192 := ⟨(t.val % 4) * 2048 + q.val, by have := lt16 t; have := q.isLt; omega⟩

/-- The printed index maps, decided over the grid. -/
theorem idx_facts0 : ∀ t : Fin cfg0.N,
    win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 2) = 0 ∧ win0_2.index t (1 : Fin 2) = t.val % 4
    ∧ win0_3.index t (0 : Fin 2) = 0 ∧ win0_3.index t (1 : Fin 2) = t.val % 4
    ∧ win0_4.index t (0 : Fin 2) = t.val / 4 ∧ win0_4.index t (1 : Fin 2) = t.val % 4
    ∧ win0_5.index t (0 : Fin 2) = t.val / 4 ∧ win0_5.index t (1 : Fin 2) = 0 :=
  (by decide +kernel : ∀ t : Fin grid0.N, _)

/-! ## The input blocks read at coordinates -/

theorem iblk0_0_apply (c : Dev nD) (t : Fin cfg0.N) (p : Fin 2048) (u : Fin 1) :
    iblk0 V c 0 t (ix2 p u) = V c main_v4 (ix2 (rowAt t p) u) := by
  unfold iblk0
  rw [View.read_apply]
  show V c main_v4 _ = V c main_v4 _
  refine congrArg (V c main_v4) (funext fun a => Fin.ext ?_)
  obtain ⟨e0, e1, -⟩ := idx_facts0 t
  match a with
  | ⟨0, _⟩ => show win0_0.index t (0 : Fin 2) * 2048 + 1 * p.val = (t.val / 4) * 2048 + p.val; omega
  | ⟨1, _⟩ => show win0_0.index t (1 : Fin 2) * 1 + 1 * u.val = u.val; omega

theorem iblk0_1_apply (c : Dev nD) (t : Fin cfg0.N) (p : Fin 2048) (u : Fin 1) :
    iblk0 V c 1 t (ix2 p u) = V c main_v5 (ix2 (rowAt t p) u) := by
  unfold iblk0
  rw [View.read_apply]
  show V c main_v5 _ = V c main_v5 _
  refine congrArg (V c main_v5) (funext fun a => Fin.ext ?_)
  obtain ⟨-, -, e0, e1, -⟩ := idx_facts0 t
  match a with
  | ⟨0, _⟩ => show win0_1.index t (0 : Fin 2) * 2048 + 1 * p.val = (t.val / 4) * 2048 + p.val; omega
  | ⟨1, _⟩ => show win0_1.index t (1 : Fin 2) * 1 + 1 * u.val = u.val; omega

theorem iblk0_2_apply (c : Dev nD) (t : Fin cfg0.N) (u : Fin 1) (q : Fin 2048) :
    iblk0 V c 2 t (ix2 u q) = V c main_v6 (ix2 u (colAt t q)) := by
  unfold iblk0
  rw [View.read_apply]
  show V c main_v6 _ = V c main_v6 _
  refine congrArg (V c main_v6) (funext fun a => Fin.ext ?_)
  obtain ⟨-, -, -, -, e0, e1, -⟩ := idx_facts0 t
  match a with
  | ⟨0, _⟩ => show win0_2.index t (0 : Fin 2) * 1 + 1 * u.val = u.val; omega
  | ⟨1, _⟩ => show win0_2.index t (1 : Fin 2) * 2048 + 1 * q.val = (t.val % 4) * 2048 + q.val; omega

theorem iblk0_3_apply (c : Dev nD) (t : Fin cfg0.N) (u : Fin 1) (q : Fin 2048) :
    iblk0 V c 3 t (ix2 u q) = V c main_v7 (ix2 u (colAt t q)) := by
  unfold iblk0
  rw [View.read_apply]
  show V c main_v7 _ = V c main_v7 _
  refine congrArg (V c main_v7) (funext fun a => Fin.ext ?_)
  obtain ⟨-, -, -, -, -, -, e0, e1, -⟩ := idx_facts0 t
  match a with
  | ⟨0, _⟩ => show win0_3.index t (0 : Fin 2) * 1 + 1 * u.val = u.val; omega
  | ⟨1, _⟩ => show win0_3.index t (1 : Fin 2) * 2048 + 1 * q.val = (t.val % 4) * 2048 + q.val; omega

/-! ## The output blocks in their arrays -/

/-- Entry (p, q) of the nearness tile at point t is entry (row, column) of the array. -/
theorem emb4 (t : Fin cfg0.N) (p q : Fin 2048) :
    ((cfg0.win 4).blk t).view.emb (ix2 p q) = ix2 (rowAt t p) (colAt t q) := by
  funext a; apply Fin.ext
  obtain ⟨-, -, -, -, -, -, -, -, e0, e1, -⟩ := idx_facts0 t
  match a with
  | ⟨0, _⟩ => show win0_4.index t (0 : Fin 2) * 2048 + 1 * p.val = (t.val / 4) * 2048 + p.val; omega
  | ⟨1, _⟩ => show win0_4.index t (1 : Fin 2) * 2048 + 1 * q.val = (t.val % 4) * 2048 + q.val; omega

/-- Row p of the degree block at point t is that row of the array. -/
theorem emb5 (t : Fin cfg0.N) (p : Fin 2048) (u : Fin 1) :
    ((cfg0.win 5).blk t).view.emb (ix2 p u) = ix2 (rowAt t p) u := by
  funext a; apply Fin.ext
  obtain ⟨-, -, -, -, -, -, -, -, -, -, e0, e1⟩ := idx_facts0 t
  match a with
  | ⟨0, _⟩ => show win0_5.index t (0 : Fin 2) * 2048 + 1 * p.val = (t.val / 4) * 2048 + p.val; omega
  | ⟨1, _⟩ => show win0_5.index t (1 : Fin 2) * 1 + 1 * u.val = u.val; omega

/-- An index of the nearness array is in point t's tile iff each coordinate is in the tile's range. -/
theorem mem_blk4 (t : Fin cfg0.N) (i : S8192x8192.Idx) :
    i ∈ ((cfg0.win 4).blk t).view.set ↔ ∀ a : Fin 2, win0_4.index t a * S2048x2048.size a ≤ (i a).val ∧ (i a).val < win0_4.index t a * S2048x2048.size a + S2048x2048.size a := by
  show i ∈ ((View.whole main_v8_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v8_1).slice (win0_5.rect t)).set ↔ _
  rw [View.set_slice_whole, Rect.mem_set_unit]
  exact Iff.rfl

/-- Every entry of the nearness array is in the tile of the point of its row tile and column tile. -/
theorem cover4 (i : S8192x8192.Idx) : ∃ t : Fin cfg0.N, (cfg0.win 4).flush t = true ∧ i ∈ ((cfg0.win 4).blk t).view.set := by
  have h0 : (i 0).val < 8192 := (i 0).isLt
  have h1 : (i 1).val < 8192 := (i 1).isLt
  refine ⟨⟨4 * ((i 0).val / 2048) + (i 1).val / 2048, by rw [show cfg0.N = 16 from N_0]; omega⟩, flush0_4 _, ?_⟩
  rw [mem_blk4]
  obtain ⟨-, -, -, -, -, -, -, -, e0, e1, -⟩ := idx_facts0 ⟨4 * ((i 0).val / 2048) + (i 1).val / 2048, by rw [show cfg0.N = 16 from N_0]; omega⟩
  intro a
  match a with
  | ⟨0, _⟩ =>
    show win0_4.index _ (0 : Fin 2) * 2048 ≤ (i 0).val ∧ (i 0).val < win0_4.index _ (0 : Fin 2) * 2048 + 2048
    rw [e0]; dsimp only; omega
  | ⟨1, _⟩ =>
    show win0_4.index _ (1 : Fin 2) * 2048 ≤ (i 1).val ∧ (i 1).val < win0_4.index _ (1 : Fin 2) * 2048 + 2048
    rw [e1]; dsimp only; omega

/-- Every row of the degree array is in the block of the last point of its row tile, which writes it back. -/
theorem cover5 (i : S8192x1.Idx) : ∃ t : Fin cfg0.N, (cfg0.win 5).flush t = true ∧ i ∈ ((cfg0.win 5).blk t).view.set := by
  have h0 : (i 0).val < 8192 := (i 0).isLt
  have h1 : (i 1).val < 1 := (i 1).isLt
  refine ⟨⟨4 * ((i 0).val / 2048) + 3, by rw [show cfg0.N = 16 from N_0]; omega⟩, (flush0_5 _).mpr (by dsimp only; omega), ?_⟩
  rw [mem_blk5]
  obtain ⟨-, -, -, -, -, -, -, -, -, -, e0, e1⟩ := idx_facts0 ⟨4 * ((i 0).val / 2048) + 3, by rw [show cfg0.N = 16 from N_0]; omega⟩
  intro a
  match a with
  | ⟨0, _⟩ =>
    show win0_5.index _ (0 : Fin 2) * 2048 ≤ (i 0).val ∧ (i 0).val < win0_5.index _ (0 : Fin 2) * 2048 + 2048
    rw [e0]; dsimp only; omega
  | ⟨1, _⟩ =>
    show win0_5.index _ (1 : Fin 2) * 1 ≤ (i 1).val ∧ (i 1).val < win0_5.index _ (1 : Fin 2) * 1 + 1
    rw [e1]; omega

end Cert.KernelIdeal.Hand

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.KI.K0Val.lean ====
/-
  What the first region leaves in its two arrays, as whole-array functions of the four position arrays it reads:
  the nearness word of every pair (widened to 32 bits), and for every agent the number of near agents (the sum of
  the 0/1 words over the whole row, the four column tiles' partial sums put together).
-/
import proofs.«138637_j24172075942523_2_alg».proof.Proof.KI.K0Dat
import proofs.«138637_j24172075942523_2_alg».proof.Proof.GcnSpec
import proofs.«138637_j24172075942523_2_alg».proof.Proof.KI.K0ValPay
import proofs.«138637_j24172075942523_2_alg».proof.Proof.KI.K0ValBlk
import proofs.«138637_j24172075942523_2_alg».proof.Proof.LibERealStats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.GcnSpec

-- the unscoped buffers' contents on each core when the region is entered, as extended reals
variable (V : (c : Dev nD) → (b : Ref sig .tc) → Buf (Elt Ideal) ((c : Thread nD τ).loc b))

/-- Squared planar distance of agents `i` and `j` from the row-side position columns and the column-side position rows. -/
def kdist2 (px py : S8192x1.Idx → EReal) (qx qy : S1x8192.Idx → EReal) (i j : Fin 8192) : EReal :=
  (px (ix2 i 0) - qx (ix2 0 j)) * (px (ix2 i 0) - qx (ix2 0 j)) + (py (ix2 i 0) - qy (ix2 0 j)) * (py (ix2 i 0) - qy (ix2 0 j))
/-- The nearness word. -/
def knear (px py : S8192x1.Idx → EReal) (qx qy : S1x8192.Idx → EReal) (i j : Fin 8192) : BitVec 1 :=
  Ideal.cmp .ole (kdist2 px py qx qy i j) one32

/-! ## One point -/

/-- The comparison word of the tile at point t, entry (p, k), is the nearness word of the array row and column under it. -/
theorem word_of_reads (x0 x1 : Vec Ideal S2048x1 .f32) (x2 x3 : Vec Ideal S1x2048 .f32)
    (px py : S8192x1.Idx → EReal) (qx qy : S1x8192.Idx → EReal) (p k : Fin 2048) (r s : Fin 8192)
    (h0 : x0 (ix2 p (0 : Fin 1)) = px (ix2 r (0 : Fin 1))) (h1 : x1 (ix2 p (0 : Fin 1)) = py (ix2 r (0 : Fin 1)))
    (h2 : x2 (ix2 (0 : Fin 1) k) = qx (ix2 (0 : Fin 1) s)) (h3 : x3 (ix2 (0 : Fin 1) k) = qy (ix2 (0 : Fin 1) s)) :
    Ideal.cmp .ole (tdist2 x0 x1 x2 x3 p k) (Ideal.ofBits .f32 0x3F800000#32) = knear px py qx qy r s := by
  unfold tdist2 knear kdist2
  rw [h0, h1, h2, h3]

theorem word_eq (c : Dev nD) (t : Fin cfg0.N) (p k : Fin 2048) :
    Ideal.cmp .ole (tdist2 (iblk0 V c 0 t) (iblk0 V c 1 t) (iblk0 V c 2 t) (iblk0 V c 3 t) p k) (Ideal.ofBits .f32 0x3F800000#32)
      = knear (V c main_v4) (V c main_v5) (V c main_v6) (V c main_v7) (rowAt t p) (colAt t k) :=
  word_of_reads (iblk0 V c 0 t) (iblk0 V c 1 t) (iblk0 V c 2 t) (iblk0 V c 3 t) (V c main_v4) (V c main_v5) (V c main_v6) (V c main_v7) p k (rowAt t p) (colAt t k)
    (iblk0_0_apply V c t p 0) (iblk0_1_apply V c t p 0) (iblk0_2_apply V c t 0 k) (iblk0_3_apply V c t 0 k)

/-- The nearness tile's buffer after the body at any point: the widened words of the point's blocks. -/
theorem outs4_eq (c : Dev nD) (t : Fin cfg0.N) :
    (outsAt0 V c t.val t.isLt).1 = k0_pay3 (iblk0 V c 0 t) (iblk0 V c 2 t) (iblk0 V c 1 t) (iblk0 V c 3 t) := by
  by_cases h0 : t.val % 4 = 0
  · rw [outsAt0_A V c t h0]
    dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)
  · rw [outsAt0_B V c t h0]
    dsimp only
    exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) _

/-- Nearness as a number over natural-number coordinates, zero outside the arrays. -/
def nearN (px py : S8192x1.Idx → EReal) (qx qy : S1x8192.Idx → EReal) (r s : ℕ) : EReal :=
  if h : r < 8192 ∧ s < 8192 then ind (knear px py qx qy ⟨r, h.1⟩ ⟨s, h.2⟩) else 0

/-- The number of near columns of the tile at point t, for row p. -/
theorem tile_sum (c : Dev nD) (t : Fin cfg0.N) (p : Fin 2048) :
    ∑ k : Fin 2048, ind (Ideal.cmp .ole (tdist2 (iblk0 V c 0 t) (iblk0 V c 1 t) (iblk0 V c 2 t) (iblk0 V c 3 t) p k) (Ideal.ofBits .f32 0x3F800000#32))
      = ∑ k : Fin 2048, nearN (V c main_v4) (V c main_v5) (V c main_v6) (V c main_v7) ((t.val / 4) * 2048 + p.val) ((t.val % 4) * 2048 + k.val) := by
  refine Finset.sum_congr rfl fun k _ => ?_
  have h : (t.val / 4) * 2048 + p.val < 8192 ∧ (t.val % 4) * 2048 + k.val < 8192 := ⟨(rowAt t p).isLt, (colAt t k).isLt⟩
  rw [word_eq V c t p k]
  unfold nearN
  rw [dif_pos h]
  rfl

/-- At a column tile 0 the degree block is the tile's row counts. -/
theorem stepA (c : Dev nD) (t : Fin cfg0.N) (h0 : t.val % 4 = 0) (p : Fin 2048) (u : Fin 1) :
    (outsAt0 V c t.val t.isLt).2 (ix2 p u)
      = ∑ k : Fin 2048, nearN (V c main_v4) (V c main_v5) (V c main_v6) (V c main_v7) ((t.val / 4) * 2048 + p.val) ((t.val % 4) * 2048 + k.val) := by
  rw [outsAt0_A V c t h0]
  dsimp only
  rw [out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t),
    pay4_apply (iblk0 V c 0 t) (iblk0 V c 1 t) (iblk0 V c 2 t) (iblk0 V c 3 t) (k0_pay1 (F := Ideal)) p u, pay1_apply, zero_add, tile_sum V c t p]

/-- At another column tile it is what the point before left plus the tile's row counts. -/
theorem stepB (c : Dev nD) (t : Fin cfg0.N) (h0 : ¬t.val % 4 = 0) (p : Fin 2048) (u : Fin 1) :
    (outsAt0 V c t.val t.isLt).2 (ix2 p u)
      = (outsAt0 V c (t.val - 1) (Nat.lt_of_le_of_lt (Nat.sub_le _ _) t.isLt)).2 (ix2 p u)
        + ∑ k : Fin 2048, nearN (V c main_v4) (V c main_v5) (V c main_v6) (V c main_v7) ((t.val / 4) * 2048 + p.val) ((t.val % 4) * 2048 + k.val) := by
  rw [outsAt0_B V c t h0]
  dsimp only
  rw [out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t),
    pay4_apply (iblk0 V c 0 t) (iblk0 V c 1 t) (iblk0 V c 2 t) (iblk0 V c 3 t) _ p u, tile_sum V c t p]

/-! ## The accumulation over a row tile's points -/

/-- After the point of row tile n / 4 and column tile n % 4 the degree block holds, for row p, the number of near
    columns among the column tiles 0 … n % 4. -/
theorem outs5_eq (c : Dev nD) : ∀ (n : ℕ) (h : n < cfg0.N) (p : Fin 2048) (u : Fin 1),
    (outsAt0 V c n h).2 (ix2 p u)
      = ∑ s ∈ Finset.range (n % 4 + 1), ∑ k : Fin 2048, nearN (V c main_v4) (V c main_v5) (V c main_v6) (V c main_v7) ((n / 4) * 2048 + p.val) (s * 2048 + k.val)
  | 0, h, p, u => by
    rw [stepA V c ⟨0, h⟩ rfl p u]
    show _ = ∑ s ∈ Finset.range 1, _
    rw [Finset.sum_range_one]
    rfl
  | n + 1, h, p, u => by
    by_cases h0 : (n + 1) % 4 = 0
    · rw [stepA V c ⟨n + 1, h⟩ h0 p u]
      dsimp only
      rw [h0, Nat.zero_add, Finset.sum_range_one]
    · rw [stepB V c ⟨n + 1, h⟩ h0 p u]
      show (outsAt0 V c n _).2 (ix2 p u) + _ = _
      rw [outs5_eq c n (Nat.lt_of_succ_lt h) p u]
      have e1 : (n + 1) / 4 = n / 4 := by omega
      have e2 : (n + 1) % 4 = n % 4 + 1 := by omega
      dsimp only
      rw [e1, e2, Finset.sum_range_succ _ (n % 4 + 1)]

/-! ## What the points write back, and the arrays after the region -/

/-- The nearness array the region computes. -/
abbrev G4 (c : Dev nD) : S8192x8192.Idx → BitVec 32 :=
  fun p => (knear (V c main_v4) (V c main_v5) (V c main_v6) (V c main_v7) (idx2_fst p) (idx2_snd p)).setWidth 32

/-- The degree array the region computes. -/
abbrev G5 (c : Dev nD) : S8192x1.Idx → EReal :=
  fun p => ∑ j : Fin 8192, (if knear (V c main_v4) (V c main_v5) (V c main_v6) (V c main_v7) (idx2_fst p) j = 1#1 then (1 : EReal) else 0)

/-- Every point writes back its tile of the nearness array. -/
theorem flushed4_eq (c : Dev nD) (t : Fin cfg0.N) :
    (dat0 (F := Ideal) V c).flushed 4 t = ((cfg0.win 4).blk t).view.read (Elt Ideal) (G4 V c) := by
  show (cfg0.win 4).cut (grid0.coords t) ((dat0 V c).after 4 t) = _
  rw [after0_4, outs4_eq V c t]
  funext j
  obtain ⟨p, q, rfl⟩ : ∃ (p q : Fin 2048), j = ix2 p q := ⟨j 0, j 1, eq_ix2 j⟩
  rw [View.read_apply, emb4 t p q]
  show k0_pay3 (iblk0 V c 0 t) (iblk0 V c 2 t) (iblk0 V c 1 t) (iblk0 V c 3 t) (ix2 p q) = G4 V c (ix2 (rowAt t p) (colAt t q))
  rw [pay3_apply (iblk0 V c 0 t) (iblk0 V c 1 t) (iblk0 V c 2 t) (iblk0 V c 3 t) p q, word_eq V c t p q]
  rfl

/-- The last point of a row tile writes back the row tile's block of the degree array: the four column tiles' counts
    together are the count over the whole row. -/
theorem flushed5_eq (c : Dev nD) (t : Fin cfg0.N) (hf : (cfg0.win 5).flush t = true) :
    (dat0 (F := Ideal) V c).flushed 5 t = ((cfg0.win 5).blk t).view.read (Elt Ideal) (G5 V c) := by
  have h3 : t.val % 4 = 3 := (flush0_5 t).mp hf
  show (cfg0.win 5).cut (grid0.coords t) ((dat0 V c).after 5 t) = _
  rw [after0_5]
  funext j
  obtain ⟨p, u, rfl⟩ : ∃ (p : Fin 2048) (u : Fin 1), j = ix2 p u := ⟨j 0, j 1, eq_ix2 j⟩
  rw [View.read_apply, emb5 t p u]
  show (outsAt0 V c t.val t.isLt).2 (ix2 p u) = ∑ j : Fin 8192, ind (knear (V c main_v4) (V c main_v5) (V c main_v6) (V c main_v7) (rowAt t p) j)
  rw [outs5_eq V c t.val t.isLt p u, h3,
    ← Fin.sum_univ_eq_sum_range (fun s => ∑ k : Fin 2048, nearN (V c main_v4) (V c main_v5) (V c main_v6) (V c main_v7) ((t.val / 4) * 2048 + p.val) (s * 2048 + k.val)) 4,
    Cert.LibERealStats.sum_tiles_of_eq 4 2048 8192 rfl (fun n => nearN (V c main_v4) (V c main_v5) (V c main_v6) (V c main_v7) ((t.val / 4) * 2048 + p.val) n)]
  refine Finset.sum_congr rfl fun j _ => ?_
  have h : (t.val / 4) * 2048 + p.val < 8192 ∧ j.val < 8192 := ⟨(rowAt t p).isLt, j.isLt⟩
  unfold nearN
  rw [dif_pos h]
  rfl

/-- The nearness array after the region: every pair's word, widened. -/
theorem final0_mask (c : Dev nD) :
    (dat0 (F := Ideal) V c).arrAt 4 cfg0.N
      = fun p => (knear (V c main_v4) (V c main_v5) (V c main_v6) (V c main_v7) (idx2_fst p) (idx2_snd p)).setWidth 32 := by
  exact (dat0 (F := Ideal) V c).arrAt_eq_of_cover 4 (G4 V c) (fun t _ => flushed4_eq V c t) cover4

/-- The degree array after the region: every agent's count of near agents. -/
theorem final0_deg (c : Dev nD) :
    (dat0 (F := Ideal) V c).arrAt 5 cfg0.N
      = fun p => ∑ j : Fin 8192, (if knear (V c main_v4) (V c main_v5) (V c main_v6) (V c main_v7) (idx2_fst p) j = 1#1 then (1 : EReal) else 0) := by
  exact (dat0 (F := Ideal) V c).arrAt_eq_of_cover 5 (G5 V c) (fun t hf => flushed5_eq V c t hf) cover5

end Cert.KernelIdeal.Hand

end
-- ==== Proof.KI.Wt.lean ====
/-
  The 0/1 weight a 32-bit word stands for: zero for the zero word, one for every other word.
-/
import Mathlib.Data.EReal.Basic

noncomputable section

namespace Cert.KernelIdeal.Hand

/-- The weight of a word. -/
def wt (w : BitVec 32) : EReal := if w = 0#32 then 0 else 1

end Cert.KernelIdeal.Hand

end
-- ==== Proof.KI.K1ValPieces.lean ====
/-
  The first aggregation region's case runs read back as values: what each control case leaves in the running
  aggregate's buffer and, at the last column tile, in the output block, as the body's arithmetic applied to the
  contents the case found.  Every load and store of the body is of a whole buffer, so each written buffer ends as
  one payload of the loaded contents; a load after a store reads the stored payload.
-/
import proofs.«138637_j24172075942523_2_alg».proof.Proof.KI.K1Dat
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

theorem hz1 : (![0, 0] : Fin 2 → Nat) = fun _ => 0 := funext fun a => by fin_cases a <;> rfl

/-- Away from the first and the last column tile the scratch ends at what it held plus the tile's product. -/
theorem sout1_B_eq (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : ¬cond1_1 i) (x0 : Vec F S2048x2048 .i32) (x1 : Vec F S2048x4 .f32) (x2 : Vec F S2048x1 .f32) (x3 : Vec F S4x64 .f32) (x4 : Vec F S1x64 .f32) (xs0 : Vec F S2048x4 .f32) :
    sout1_B_0 c i arg2 harg2 arg3 harg3 arg4 harg4 arg5 harg5 arg6 harg6 arg7 harg7 arg8 harg8 hc0 hc1 x0 x1 x2 x3 x4 xs0 = k1_pay2 x0 xs0 x1 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  try sl_unfold_words
  rw [View.canon_unit_zero hz1]
  simp only [View.readAt_eq_ld, harg2.read_unread, harg3.read_unread, harg8.read_unread, View.ld_unit_zero (S := S2048x2048) hz1, View.ld_unit_zero (S := S2048x4) hz1]

/-- At the first column tile the scratch is reset and ends at zero plus the tile's product. -/
theorem sout1_A_eq (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : cond1_0 i) (hc1 : ¬cond1_1 i) (x0 : Vec F S2048x2048 .i32) (x1 : Vec F S2048x4 .f32) (x2 : Vec F S2048x1 .f32) (x3 : Vec F S4x64 .f32) (x4 : Vec F S1x64 .f32) :
    sout1_A_0 c i arg2 harg2 arg3 harg3 arg4 harg4 arg5 harg5 arg6 harg6 arg7 harg7 arg8 harg8 hc0 hc1 x0 x1 x2 x3 x4 = k1_pay2 x0 (k1_pay1 (F := F)) x1 := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  try sl_unfold_words
  rw [View.canon_cons_unit_zero (S := S2048x4) hz1]
  simp only [View.readCov_unit_zero (S := S2048x4) _ hz1, View.readAt_eq_ld, harg2.read_unread, harg3.read_unread, harg8.read_unread, View.ld_unit_zero (S := S2048x2048) hz1, View.ld_unit_zero (S := S2048x4) hz1]

/-- At the last column tile the scratch ends as elsewhere, -/
theorem sout1_C_eq (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) :
    sout1_C_0 c i arg2 harg2 arg3 harg3 arg4 harg4 arg5 harg5 arg6 harg6 arg7 harg7 arg8 harg8 hc0 hc1 x0 x1 x2 x3 x4 xs0 = k1_pay2 x0 xs0 x1 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero hz1]
  simp only [View.readAt_eq_ld, harg2.read_unread, harg3.read_unread, harg8.read_unread, View.ld_unit_zero (S := S2048x2048) hz1, View.ld_unit_zero (S := S2048x4) hz1]

/-- and the output block is the dense layer of the scratch's new contents. -/
theorem out1_C_eq (c : Dev nD) (i : grid1.Coords) (arg2 : Memref sig .tc .vmem S2048x2048 .i32) (harg2 : arg2.IsWhole) (arg3 : Memref sig .tc .vmem S2048x4 .f32) (harg3 : arg3.IsWhole) (arg4 : Memref sig .tc .vmem S2048x1 .f32) (harg4 : arg4.IsWhole) (arg5 : Memref sig .tc .vmem S4x64 .f32) (harg5 : arg5.IsWhole) (arg6 : Memref sig .tc .vmem S1x64 .f32) (harg6 : arg6.IsWhole) (arg7 : Memref sig .tc .vmem S2048x64 .f32) (harg7 : arg7.IsWhole) (arg8 : Memref sig .tc .vmem S2048x4 .f32) (harg8 : arg8.IsWhole) (hc0 : ¬cond1_0 i) (hc1 : cond1_1 i) (x0 : Vec F S2048x2048 .i32) (x1 : Vec F S2048x4 .f32) (x2 : Vec F S2048x1 .f32) (x3 : Vec F S4x64 .f32) (x4 : Vec F S1x64 .f32) (xs0 : Vec F S2048x4 .f32) :
    out1_C_5 c i arg2 harg2 arg3 harg3 arg4 harg4 arg5 harg5 arg6 harg6 arg7 harg7 arg8 harg8 hc0 hc1 x0 x1 x2 x3 x4 xs0 = k1_pay3 (k1_pay2 x0 xs0 x1) x2 x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero hz1]
  simp only [View.readCov_unit_zero (S := S2048x4) _ hz1, View.readAt_eq_ld, harg2.read_unread, harg3.read_unread, harg4.read_unread, harg5.read_unread, harg6.read_unread, harg8.read_unread, View.ld_unit_zero (S := S2048x2048) hz1, View.ld_unit_zero (S := S2048x4) hz1, View.ld_unit_zero (S := S2048x1) hz1, View.ld_unit_zero (S := S4x64) hz1, View.ld_unit_zero (S := S1x64) hz1]

end Cert.KernelIdeal.Hand

end
-- ==== Proof.KI.K1ValStep.lean ====
/-
  The first aggregation region, point by point: what the running aggregate's buffer holds after a point as the
  update of what it held before (of the reset's zeros at a first column tile), and the output block a last column
  tile stores as the dense layer of the aggregate's final contents.
-/
import proofs.«138637_j24172075942523_2_alg».proof.Proof.KI.K1ValPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]
variable (V : (c : Dev nD) → (b : Ref sig .tc) → Buf (Elt F) ((c : Thread nD τ).loc b))

/-- At a first column tile the aggregate ends at the update of the reset's zeros by the point's blocks. -/
theorem scratchAt1_first (c : Dev nD) (t : Fin cfg1.N) (h0 : t.val % 4 = 0) :
    (outsAt1 V c t.val t.isLt).2 = k1_pay2 (F := F) (iblk1 V c 0 t : Vec F S2048x2048 .i32) (k1_pay1 (F := F)) (iblk1 V c 1 t : Vec F S2048x4 .f32) := by
  have h1 : ¬t.val % 4 = 3 := by omega
  have key := sout1_A_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole cc1_scratch0) ((hcond1_0 t).mpr h0) (fun h => h1 ((hcond1_1 t).mp h)) (iblk1 V c 0 t : Vec F S2048x2048 .i32) (iblk1 V c 1 t : Vec F S2048x4 .f32) (iblk1 V c 2 t : Vec F S2048x1 .f32) (iblk1 V c 3 t : Vec F S4x64 .f32) (iblk1 V c 4 t : Vec F S1x64 .f32)
  rw [outsAt1_A V c t h0 h1]
  dsimp only
  exact key

/-- At any other column tile it ends at the update of what the point before left. -/
theorem scratchAt1_next (c : Dev nD) (t : Fin cfg1.N) (h0 : ¬t.val % 4 = 0) :
    (outsAt1 V c t.val t.isLt).2 = k1_pay2 (F := F) (iblk1 V c 0 t : Vec F S2048x2048 .i32) (outsAt1 V c (t.val - 1) (Nat.lt_of_le_of_lt (Nat.sub_le _ _) t.isLt)).2 (iblk1 V c 1 t : Vec F S2048x4 .f32) := by
  by_cases h1 : t.val % 4 = 3
  · have key := sout1_C_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole cc1_scratch0) (fun h => h0 ((hcond1_0 t).mp h)) ((hcond1_1 t).mpr h1) (iblk1 V c 0 t : Vec F S2048x2048 .i32) (iblk1 V c 1 t : Vec F S2048x4 .f32) (iblk1 V c 2 t : Vec F S2048x1 .f32) (iblk1 V c 3 t : Vec F S4x64 .f32) (iblk1 V c 4 t : Vec F S1x64 .f32) (outsAt1 V c (t.val - 1) (Nat.lt_of_le_of_lt (Nat.sub_le _ _) t.isLt)).2
    rw [outsAt1_C V c t h0 h1]
    dsimp only
    exact key
  · have key := sout1_B_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole cc1_scratch0) (fun h => h0 ((hcond1_0 t).mp h)) (fun h => h1 ((hcond1_1 t).mp h)) (iblk1 V c 0 t : Vec F S2048x2048 .i32) (iblk1 V c 1 t : Vec F S2048x4 .f32) (iblk1 V c 2 t : Vec F S2048x1 .f32) (iblk1 V c 3 t : Vec F S4x64 .f32) (iblk1 V c 4 t : Vec F S1x64 .f32) (outsAt1 V c (t.val - 1) (Nat.lt_of_le_of_lt (Nat.sub_le _ _) t.isLt)).2
    rw [outsAt1_B V c t h0 h1]
    dsimp only
    exact key

/-- At a last column tile the output block is the dense layer of the aggregate's final contents. -/
theorem outAt1_last (c : Dev nD) (t : Fin cfg1.N) (h1 : t.val % 4 = 3) :
    (outsAt1 V c t.val t.isLt).1 = k1_pay3 (F := F) (outsAt1 V c t.val t.isLt).2 (iblk1 V c 2 t : Vec F S2048x1 .f32) (iblk1 V c 3 t : Vec F S4x64 .f32) (iblk1 V c 4 t : Vec F S1x64 .f32) := by
  have h0 : ¬t.val % 4 = 0 := by omega
  have key := out1_C_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole cc1_scratch0) (fun h => h0 ((hcond1_0 t).mp h)) ((hcond1_1 t).mpr h1) (iblk1 V c 0 t : Vec F S2048x2048 .i32) (iblk1 V c 1 t : Vec F S2048x4 .f32) (iblk1 V c 2 t : Vec F S2048x1 .f32) (iblk1 V c 3 t : Vec F S4x64 .f32) (iblk1 V c 4 t : Vec F S1x64 .f32) (outsAt1 V c (t.val - 1) (Nat.lt_of_le_of_lt (Nat.sub_le _ _) t.isLt)).2
  rw [scratchAt1_next V c t h0, outsAt1_C V c t h0 h1]
  dsimp only
  exact key

end Cert.KernelIdeal.Hand

end
-- ==== Proof.KI.K1ValRead.lean ====
/-
  The first aggregation region's input blocks read at an index: each window's block at a grid point is its array
  read at the block index times the block's extent plus the coordinate inside the block, the block indices being
  the point's row tile (its quotient by 4), its column tile (its remainder) or zero.
-/
import proofs.«138637_j24172075942523_2_alg».proof.Proof.KI.K1Dat
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]
variable (V : (c : Dev nD) → (b : Ref sig .tc) → Buf (Elt F) ((c : Thread nD τ).loc b))

/-- Position `n` of an axis of extent 8192, taken modulo the extent so that it is defined for every `n`. -/
def pos1 (n : ℕ) : Fin 8192 := ⟨n % 8192, Nat.mod_lt _ (by decide)⟩

theorem pos1_val (i : Fin 8192) : pos1 i.val = i := Fin.ext (Nat.mod_eq_of_lt i.isLt)

/-- The windows' block indices over the grid: the row tile is the point's quotient by 4, the column tile its remainder. -/
theorem idx1_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0 :=
  (by decide +kernel : ∀ t : Fin grid1.N, _)

/-- The tile of words at a point: rows of the row tile, columns of the column tile. -/
theorem iblk1_0_apply (c : Dev nD) (t : Fin cfg1.N) (p q : Fin 2048) :
    (iblk1 V c 0 t : Vec F S2048x2048 .i32) (ix2 p q)
      = V c main_v16 (ix2 (pos1 (t.val / 4 * 2048 + p.val)) (pos1 (t.val % 4 * 2048 + q.val))) := by
  obtain ⟨e0, e1, -⟩ := idx1_facts t
  have hN : t.val < 16 := lt_of_lt_of_eq t.isLt N_1
  unfold iblk1
  rw [View.read_apply]
  show V c main_v16 _ = V c main_v16 _
  congr 1
  funext a
  apply Fin.ext
  match a with
  | ⟨0, _⟩ => show win1_0.index t (0 : Fin 2) * 2048 + 1 * p.val = (t.val / 4 * 2048 + p.val) % 8192; rw [e0]; omega
  | ⟨1, _⟩ => show win1_0.index t (1 : Fin 2) * 2048 + 1 * q.val = (t.val % 4 * 2048 + q.val) % 8192; rw [e1]; omega

/-- The feature rows at a point: those of the column tile. -/
theorem iblk1_1_apply (c : Dev nD) (t : Fin cfg1.N) (q : Fin 2048) (k : Fin 4) :
    (iblk1 V c 1 t : Vec F S2048x4 .f32) (ix2 q k) = V c main_v14 (ix2 (pos1 (t.val % 4 * 2048 + q.val)) k) := by
  obtain ⟨-, -, e0, e1, -⟩ := idx1_facts t
  have hN : t.val < 16 := lt_of_lt_of_eq t.isLt N_1
  unfold iblk1
  rw [View.read_apply]
  show V c main_v14 _ = V c main_v14 _
  congr 1
  funext a
  apply Fin.ext
  match a with
  | ⟨0, _⟩ => show win1_1.index t (0 : Fin 2) * 2048 + 1 * q.val = (t.val % 4 * 2048 + q.val) % 8192; rw [e0]; omega
  | ⟨1, _⟩ => show win1_1.index t (1 : Fin 2) * 4 + 1 * k.val = k.val; rw [e1]; omega

/-- The row factors at a point: those of the row tile. -/
theorem iblk1_2_apply (c : Dev nD) (t : Fin cfg1.N) (p : Fin 2048) (u : Fin 1) :
    (iblk1 V c 2 t : Vec F S2048x1 .f32) (ix2 p u) = V c main_v12 (ix2 (pos1 (t.val / 4 * 2048 + p.val)) 0) := by
  obtain ⟨-, -, -, -, e0, e1, -⟩ := idx1_facts t
  have hN : t.val < 16 := lt_of_lt_of_eq t.isLt N_1
  unfold iblk1
  rw [View.read_apply]
  show V c main_v12 _ = V c main_v12 _
  congr 1
  funext a
  apply Fin.ext
  match a with
  | ⟨0, _⟩ => show win1_2.index t (0 : Fin 2) * 2048 + 1 * p.val = (t.val / 4 * 2048 + p.val) % 8192; rw [e0]; omega
  | ⟨1, _⟩ => show win1_2.index t (1 : Fin 2) * 1 + 1 * u.val = 0; rw [e1]; omega

/-- The dense weights at a point: the whole array. -/
theorem iblk1_3_apply (c : Dev nD) (t : Fin cfg1.N) (k : Fin 4) (ch : Fin 64) :
    (iblk1 V c 3 t : Vec F S4x64 .f32) (ix2 k ch) = V c main_arg1 (ix2 k ch) := by
  obtain ⟨-, -, -, -, -, -, e0, e1, -⟩ := idx1_facts t
  unfold iblk1
  rw [View.read_apply]
  show V c main_arg1 _ = V c main_arg1 _
  congr 1
  funext a
  apply Fin.ext
  match a with
  | ⟨0, _⟩ => show win1_3.index t (0 : Fin 2) * 4 + 1 * k.val = k.val; rw [e0]; omega
  | ⟨1, _⟩ => show win1_3.index t (1 : Fin 2) * 64 + 1 * ch.val = ch.val; rw [e1]; omega

/-- The bias row at a point: the whole array. -/
theorem iblk1_4_apply (c : Dev nD) (t : Fin cfg1.N) (u : Fin 1) (ch : Fin 64) :
    (iblk1 V c 4 t : Vec F S1x64 .f32) (ix2 u ch) = V c main_v15 (ix2 0 ch) := by
  obtain ⟨-, -, -, -, -, -, -, -, e0, e1, -⟩ := idx1_facts t
  unfold iblk1
  rw [View.read_apply]
  show V c main_v15 _ = V c main_v15 _
  congr 1
  funext a
  apply Fin.ext
  match a with
  | ⟨0, _⟩ => show win1_4.index t (0 : Fin 2) * 1 + 1 * u.val = 0; rw [e0]; omega
  | ⟨1, _⟩ => show win1_4.index t (1 : Fin 2) * 64 + 1 * ch.val = ch.val; rw [e1]; omega

end Cert.KernelIdeal.Hand

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.KI.K1ValPay.lean ====
/-
  The first aggregation region's arithmetic read at an index, over the extended reals: the reset's zeros, the
  running aggregate's update (what it held plus the row's 0/1 weights against the tile's feature column), and the
  output block (the aggregate scaled by the row's factor, through the dense map, plus the bias, clipped below at
  zero).  A word's weight is the comparison against the zero word, widened and read as a number: 0 or 1.
-/
import proofs.«138637_j24172075942523_2_alg».proof.Proof.KI.K1ValPieces
import proofs.«138637_j24172075942523_2_alg».proof.Proof.KI.Wt
import proofs.«138637_j24172075942523_2_alg».proof.Proof.LibPlainDot
import proofs.«138637_j24172075942523_2_alg».proof.Proof.LibUnitAxes
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-- The 0/1 weight of a word as the body computes it: the comparison against the zero word, widened, as a number. -/
theorem wt1_eq (w : BitVec 32) :
    FloatOps.sitofp (F := Ideal) .f32 ((IntOp.cmpi .ne w 0#32).setWidth 32) = wt w := by
  show (((((IntOp.cmpi .ne w 0#32).setWidth 32).toInt : ℝ)) : EReal) = wt w
  unfold wt IntOp.cmpi
  by_cases h : w = 0#32
  · subst h; rw [if_pos rfl]
    have : ((BitVec.ofBool ((0#32 : BitVec 32) != 0#32)).setWidth 32).toInt = 0 := by decide
    rw [this]; simp
  · rw [if_neg h]
    have hb : (w != 0#32) = true := by simpa using h
    have : ((BitVec.ofBool (w != 0#32)).setWidth 32).toInt = 1 := by rw [hb]; decide
    rw [this]; simp

/-- The aggregate's new contents at a row and a feature: what it held plus the row's weights against the tile's
    feature column. -/
theorem k1_pay2_apply (v3 : Vec Ideal S2048x2048 .i32) (v8 v9 : Vec Ideal S2048x4 .f32) (p : Fin 2048) (k : Fin 4) :
    k1_pay2 (F := Ideal) v3 v8 v9 (ix2 p k) = v8 (ix2 p k) + ∑ q : Fin 2048, wt (v3 (ix2 p q)) * v9 (ix2 q k) := by
  unfold k1_pay2
  simp only [shapeCast_self]
  show v8 (ix2 p k) + FloatOps.matmul (F := Ideal) dot_S2048x2048_S2048x4_S2048x4_1_0_0_1_n_n none _ v9 (constant S2048x4 .f32 0x00000000#32) (ix2 p k) = _
  refine congrArg (v8 (ix2 p k) + ·) ?_
  refine (Cert.LibPlainDot.matmul_zero_apply dot_S2048x2048_S2048x4_S2048x4_1_0_0_1_n_n rfl rfl rfl rfl (fun _ _ => rfl) (fun _ _ => rfl) none _ v9 p k).trans ?_
  refine Finset.sum_congr rfl fun q _ => ?_
  exact congrArg (· * v9 (ix2 q k)) (wt1_eq (v3 (ix2 p q)))

/-- The reset's contents are zero everywhere. -/
theorem k1_pay1_apply (j : S2048x4.Idx) : k1_pay1 (F := Ideal) j = 0 := by
  unfold k1_pay1
  simp only [shapeCast_self]
  exact Ideal.ofBits_zero_f32

/-- The output block at a row and a channel: the aggregate scaled by the row's factor through the dense map, plus
    the bias, clipped below at zero. -/
theorem k1_pay3_apply (v19 : Vec Ideal S2048x4 .f32) (v20 : Vec Ideal S2048x1 .f32) (v24 : Vec Ideal S4x64 .f32) (v26 : Vec Ideal S1x64 .f32)
    (p : Fin 2048) (ch : Fin 64) :
    k1_pay3 (F := Ideal) v19 v20 v24 v26 (ix2 p ch)
      = max (∑ k : Fin 4, (v19 (ix2 p k) * v20 (ix2 p 0)) * v24 (ix2 k ch) + v26 (ix2 0 ch)) 0 := by
  unfold k1_pay3
  simp only [shapeCast_self]
  show max (FloatOps.matmul (F := Ideal) dot_S2048x4_S4x64_S2048x64_1_0_0_1_n_n none (mulf v19 (broadcastTo S2048x4 v20 broadcasts_S2048x1_S2048x4)) v24 (constant S2048x64 .f32 0x00000000#32) (ix2 p ch)
      + broadcastTo S2048x64 v26 broadcasts_S1x64_S2048x64 (ix2 p ch)) (Ideal.ofBits .f32 0x00000000#32) = _
  rw [Ideal.ofBits_zero_f32]
  refine congrArg (max · 0) ?_
  refine congrArg₂ (· + ·) ?_ ?_
  · refine (Cert.LibPlainDot.matmul_zero_apply dot_S2048x4_S4x64_S2048x64_1_0_0_1_n_n rfl rfl rfl rfl (fun _ _ => rfl) (fun _ _ => rfl) none _ v24 p ch).trans ?_
    refine Finset.sum_congr rfl fun k _ => ?_
    refine congrArg (· * v24 (ix2 k ch)) ?_
    show v19 (ix2 p k) * broadcastTo S2048x4 v20 broadcasts_S2048x1_S2048x4 (ix2 p k) = _
    exact congrArg (v19 (ix2 p k) * ·) (Cert.LibUnitAxes.broadcastTo_a1_ab_apply v20 broadcasts_S2048x1_S2048x4 p k)
  · exact broadcastTo_1b_ab_apply v26 broadcasts_S1x64_S2048x64 p ch

end Cert.KernelIdeal.Hand

end
-- ==== Proof.KI.K1ValAcc.lean ====
/-
  The first aggregation region's accumulation over the column tiles, read at an index over the extended reals.
  After the point of row tile i and column tile j the running aggregate of row p at feature k is the sum over the
  column tiles 0 … j of the row's 0/1 weights against each tile's features (by induction on the point: a first
  column tile starts from zero, every other adds its share to what the point before left).  At the last column
  tile the four shares regroup to the sum over all 8192 agents, and the output block stored there is the layer's
  value at that row and channel.
-/
import proofs.«138637_j24172075942523_2_alg».proof.Proof.KI.K1ValStep
import proofs.«138637_j24172075942523_2_alg».proof.Proof.KI.K1ValRead
import proofs.«138637_j24172075942523_2_alg».proof.Proof.KI.K1ValPay
import proofs.«138637_j24172075942523_2_alg».proof.Proof.LibERealStats
import proofs.«138637_j24172075942523_2_alg».proof.Proof.GcnSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

open Cert.GcnSpec

variable (V : (c : Dev nD) → (b : Ref sig .tc) → Buf (Elt Ideal) ((c : Thread nD τ).loc b))

/-- One column tile's share of the aggregate of row `r` at feature `k`: the row's weights over the tile's
    2048 agents against their features. -/
def tileSum1 (c : Dev nD) (r : Fin 8192) (k : Fin 4) (j : ℕ) : EReal :=
  ∑ q : Fin 2048, wt (V c main_v16 (ix2 r (pos1 (j * 2048 + q.val)))) * V c main_v14 (ix2 (pos1 (j * 2048 + q.val)) k)

/-- At a first column tile the aggregate holds that tile's share. -/
theorem scratch1_first_apply (c : Dev nD) (t : Fin cfg1.N) (h0 : t.val % 4 = 0) (p : Fin 2048) (k : Fin 4) :
    (outsAt1 V c t.val t.isLt).2 (ix2 p k) = tileSum1 V c (pos1 (t.val / 4 * 2048 + p.val)) k (t.val % 4) := by
  rw [scratchAt1_first V c t h0]
  refine (k1_pay2_apply (iblk1 V c 0 t : Vec Ideal S2048x2048 .i32) (k1_pay1 (F := Ideal)) (iblk1 V c 1 t : Vec Ideal S2048x4 .f32) p k).trans ?_
  rw [k1_pay1_apply, zero_add]
  unfold tileSum1
  refine Finset.sum_congr rfl fun q _ => ?_
  rw [iblk1_0_apply V c t p q, iblk1_1_apply V c t q k]

/-- At any other column tile it holds what the point before left plus this tile's share. -/
theorem scratch1_next_apply (c : Dev nD) (t : Fin cfg1.N) (h0 : ¬t.val % 4 = 0) (p : Fin 2048) (k : Fin 4) :
    (outsAt1 V c t.val t.isLt).2 (ix2 p k)
      = (outsAt1 V c (t.val - 1) (Nat.lt_of_le_of_lt (Nat.sub_le _ _) t.isLt)).2 (ix2 p k) + tileSum1 V c (pos1 (t.val / 4 * 2048 + p.val)) k (t.val % 4) := by
  rw [scratchAt1_next V c t h0]
  refine (k1_pay2_apply (iblk1 V c 0 t : Vec Ideal S2048x2048 .i32) (outsAt1 V c (t.val - 1) (Nat.lt_of_le_of_lt (Nat.sub_le _ _) t.isLt)).2 (iblk1 V c 1 t : Vec Ideal S2048x4 .f32) p k).trans ?_
  refine congrArg ((outsAt1 V c (t.val - 1) (Nat.lt_of_le_of_lt (Nat.sub_le _ _) t.isLt)).2 (ix2 p k) + ·) ?_
  unfold tileSum1
  refine Finset.sum_congr rfl fun q _ => ?_
  rw [iblk1_0_apply V c t p q, iblk1_1_apply V c t q k]

/-- THE RUNNING AGGREGATE: after the point of row tile i and column tile j it holds the shares of the column
    tiles 0 … j, by induction on the point. -/
theorem scratch1_apply (c : Dev nD) : ∀ (n : ℕ) (hn : n < cfg1.N) (p : Fin 2048) (k : Fin 4),
    (outsAt1 V c n hn).2 (ix2 p k) = ∑ j ∈ Finset.range (n % 4 + 1), tileSum1 V c (pos1 (n / 4 * 2048 + p.val)) k j
  | 0, hn, p, k => by
    rw [show (0 : ℕ) % 4 + 1 = 1 from rfl, Finset.sum_range_one]
    exact scratch1_first_apply V c ⟨0, hn⟩ rfl p k
  | n + 1, hn, p, k => by
    by_cases h0 : (n + 1) % 4 = 0
    · rw [h0, Finset.sum_range_one]
      have key := scratch1_first_apply V c ⟨n + 1, hn⟩ h0 p k
      rw [show (⟨n + 1, hn⟩ : Fin cfg1.N).val % 4 = 0 from h0] at key
      exact key
    · have key := scratch1_next_apply V c ⟨n + 1, hn⟩ h0 p k
      have ih := scratch1_apply c n (Nat.lt_of_succ_lt hn) p k
      have e1 : (n + 1) / 4 = n / 4 := by omega
      have e2 : (n + 1) % 4 = n % 4 + 1 := by omega
      rw [e2, Finset.sum_range_succ, e1]
      refine key.trans ?_
      show (outsAt1 V c n _).2 (ix2 p k) + tileSum1 V c (pos1 ((n + 1) / 4 * 2048 + p.val)) k ((n + 1) % 4) = _
      rw [ih, e1, e2]

/-- At a last column tile the aggregate is the sum over ALL agents. -/
theorem scratch1_last_apply (c : Dev nD) (t : Fin cfg1.N) (h3 : t.val % 4 = 3) (p : Fin 2048) (k : Fin 4) :
    (outsAt1 V c t.val t.isLt).2 (ix2 p k)
      = ∑ j : Fin 8192, wt (V c main_v16 (ix2 (pos1 (t.val / 4 * 2048 + p.val)) j)) * V c main_v14 (ix2 j k) := by
  rw [scratch1_apply V c t.val t.isLt p k, h3]
  rw [← Fin.sum_univ_eq_sum_range (fun j => tileSum1 V c (pos1 (t.val / 4 * 2048 + p.val)) k j) 4]
  unfold tileSum1
  rw [Cert.LibERealStats.sum_tiles_of_eq 4 2048 8192 rfl (fun n => wt (V c main_v16 (ix2 (pos1 (t.val / 4 * 2048 + p.val)) (pos1 n))) * V c main_v14 (ix2 (pos1 n) k))]
  refine Finset.sum_congr rfl fun j _ => ?_
  rw [pos1_val]

/-- What the output array ends holding, as one function of the arrays the region reads. -/
abbrev G1 (c : Dev nD) : (⟨2, ![8192, 64]⟩ : Shape).Idx → EReal :=
  fun p => max (∑ k : Fin 4, ((∑ j : Fin 8192, wt (V c main_v16 (ix2 (idx2_fst p) j)) * V c main_v14 (ix2 j k)) * V c main_v12 (ix2 (idx2_fst p) 0))
                        * V c main_arg1 (ix2 k (idx2_snd p)) + V c main_v15 (ix2 0 (idx2_snd p))) 0

/-- The output block a last column tile stores, at a row and a channel. -/
theorem out1_last_apply (c : Dev nD) (t : Fin cfg1.N) (h3 : t.val % 4 = 3) (p : Fin 2048) (ch : Fin 64) :
    (outsAt1 V c t.val t.isLt).1 (ix2 p ch) = G1 V c (ix2 (pos1 (t.val / 4 * 2048 + p.val)) ch) := by
  rw [outAt1_last V c t h3]
  refine (k1_pay3_apply (outsAt1 V c t.val t.isLt).2 (iblk1 V c 2 t : Vec Ideal S2048x1 .f32) (iblk1 V c 3 t : Vec Ideal S4x64 .f32) (iblk1 V c 4 t : Vec Ideal S1x64 .f32) p ch).trans ?_
  rw [iblk1_2_apply V c t p 0, iblk1_4_apply V c t 0 ch]
  show _ = max (∑ k : Fin 4, ((∑ j : Fin 8192, wt (V c main_v16 (ix2 (pos1 (t.val / 4 * 2048 + p.val)) j)) * V c main_v14 (ix2 j k)) * V c main_v12 (ix2 (pos1 (t.val / 4 * 2048 + p.val)) 0))
                        * V c main_arg1 (ix2 k ch) + V c main_v15 (ix2 0 ch)) 0
  refine congrArg (max · 0) (congrArg (· + V c main_v15 (ix2 0 ch)) (Finset.sum_congr rfl fun k _ => ?_))
  rw [scratch1_last_apply V c t h3 p k, iblk1_3_apply V c t k ch]

end Cert.KernelIdeal.Hand

end
-- ==== Proof.KI.K1Val.lean ====
/-
  What the first aggregation region leaves in its output array, as a whole-array function of the arrays it reads: for
  agent i and channel c, the 0/1 weights of row i against the scaled features summed over ALL agents (the four column
  tiles' products accumulated), scaled by the row's inverse-root degree, sent through the dense map and the bias, and
  clipped below at zero.
-/
import proofs.«138637_j24172075942523_2_alg».proof.Proof.KI.K1Dat
import proofs.«138637_j24172075942523_2_alg».proof.Proof.GcnSpec
import proofs.«138637_j24172075942523_2_alg».proof.Proof.KI.Wt
import proofs.«138637_j24172075942523_2_alg».proof.Proof.KI.K1ValAcc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.GcnSpec

variable (V : (c : Dev nD) → (b : Ref sig .tc) → Buf (Elt Ideal) ((c : Thread nD τ).loc b))

/-- An index of the output array lies in the block of point `t` iff each coordinate lies in the block's range on its axis. -/
theorem mem_blk1_5 (t : Fin cfg1.N) (i : S8192x64.Idx) :
    i ∈ ((cfg1.win 5).blk t).view.set ↔ ∀ a : Fin 2, win1_5.index t a * S2048x64.size a ≤ (i a).val ∧ (i a).val < win1_5.index t a * S2048x64.size a + S2048x64.size a := by
  show i ∈ ((View.whole main_v17).slice (win1_5.rect t)).set ↔ _
  rw [View.set_slice_whole, Rect.mem_set_unit]
  exact Iff.rfl

/-- What a last column tile writes back is its row tile's block of the whole-array function. -/
theorem flushed1_5_eq (c : Dev nD) (t : Fin cfg1.N) (hf : (cfg1.win 5).flush t = true) :
    (dat1 V c).flushed 5 t = ((cfg1.win 5).blk t).view.read (Elt Ideal) (G1 V c) := by
  have h3 : t.val % 4 = 3 := (flush1_5 t).mp hf
  have hN : t.val < 16 := lt_of_lt_of_eq t.isLt N_1
  obtain ⟨-, -, -, -, -, -, -, -, -, -, e0, e1⟩ := idx1_facts t
  show (cfg1.win 5).cut (grid1.coords t) ((dat1 V c).after 5 t) = _
  rw [after1_5]
  funext j
  obtain ⟨p, ch, rfl⟩ : ∃ (p : Fin 2048) (ch : Fin 64), j = ix2 p ch := ⟨j 0, j 1, eq_ix2 j⟩
  show (outsAt1 V c t.val t.isLt).1 (ix2 p ch) = G1 V c (((cfg1.win 5).blk t).view.emb (ix2 p ch))
  rw [out1_last_apply V c t h3 p ch]
  refine congrArg (G1 V c) (funext fun a => Fin.ext ?_)
  match a with
  | ⟨0, _⟩ => show (t.val / 4 * 2048 + p.val) % 8192 = win1_5.index t (0 : Fin 2) * 2048 + 1 * p.val; rw [e0]; omega
  | ⟨1, _⟩ => show ch.val = win1_5.index t (1 : Fin 2) * 64 + 1 * ch.val; rw [e1]; omega

/-- THE OUTPUT ARRAY after the region: every row lies in the block its row tile's last column tile writes back. -/
theorem final1 (c : Dev nD) :
    (dat1 (F := Ideal) V c).arrAt 5 cfg1.N
      = fun p => max (∑ k : Fin 4, ((∑ j : Fin 8192, wt (V c main_v16 (ix2 (idx2_fst p) j)) * V c main_v14 (ix2 j k)) * V c main_v12 (ix2 (idx2_fst p) 0))
                        * V c main_arg1 (ix2 k (idx2_snd p)) + V c main_v15 (ix2 0 (idx2_snd p))) 0 := by
  refine (dat1 V c).arrAt_eq_of_cover 5 (G1 V c) (flushed1_5_eq V c) fun i => ?_
  have hi0 : (i 0).val < 8192 := (i 0).isLt
  have hi1 : (i 1).val < 64 := (i 1).isLt
  have hN : cfg1.N = 16 := N_1
  have ht : 4 * ((i 0).val / 2048) + 3 < cfg1.N := by omega
  obtain ⟨-, -, -, -, -, -, -, -, -, -, e0, e1⟩ := idx1_facts ⟨4 * ((i 0).val / 2048) + 3, ht⟩
  refine ⟨⟨4 * ((i 0).val / 2048) + 3, ht⟩, (flush1_5 _).mpr (by show (4 * ((i 0).val / 2048) + 3) % 4 = 3; omega), ?_⟩
  rw [mem_blk1_5]
  intro a
  match a with
  | ⟨0, _⟩ =>
    show win1_5.index ⟨4 * ((i 0).val / 2048) + 3, ht⟩ (0 : Fin 2) * 2048 ≤ (i 0).val ∧ (i 0).val < win1_5.index ⟨4 * ((i 0).val / 2048) + 3, ht⟩ (0 : Fin 2) * 2048 + 2048
    rw [e0]
    show (4 * ((i 0).val / 2048) + 3) / 4 * 2048 ≤ (i 0).val ∧ (i 0).val < (4 * ((i 0).val / 2048) + 3) / 4 * 2048 + 2048
    omega
  | ⟨1, _⟩ =>
    show win1_5.index ⟨4 * ((i 0).val / 2048) + 3, ht⟩ (1 : Fin 2) * 64 ≤ (i 1).val ∧ (i 1).val < win1_5.index ⟨4 * ((i 0).val / 2048) + 3, ht⟩ (1 : Fin 2) * 64 + 64
    rw [e1]
    omega

end Cert.KernelIdeal.Hand

end
-- ==== Proof.KI.GlueV3.lean ====
/-
  What the first region leaves, and the second stretch of host operations makes of it, in the specification's terms:
  the nearness array holds every pair's word (widened), the degree array every agent's degree; the second stretch
  turns them into the result mask (the words themselves), the 0/1 weights, the inverse-root degrees as a column,
  and the states scaled by them; the first dense weights and the bias (as a row) pass through.  Hence what the second
  region leaves is the first layer.
-/
import proofs.«138637_j24172075942523_2_alg».proof.Proof.KI.GlueV1
import proofs.«138637_j24172075942523_2_alg».proof.Proof.KI.Args
import proofs.«138637_j24172075942523_2_alg».proof.Proof.KI.K0Val
import proofs.«138637_j24172075942523_2_alg».proof.Proof.KI.K1Val

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.GcnSpec

variable (m : (ℓ : Loc nD τ sig) → Buf (Elt Ideal) ℓ)

/-- A one-bit word widened to 32 bits is nonzero exactly when it is the word one: comparing it against zero gives it back. -/
theorem cmpi_ne_setWidth (b : BitVec 1) : IntOp.cmpi .ne (b.setWidth 32) 0#32 = b := by
  rcases BitVec.eq_zero_or_eq_one b with h | h <;> subst h <;> decide
/-- The weight of a widened one-bit word is one for the word one and zero for the word zero. -/
theorem wt_setWidth (b : BitVec 1) : wt (b.setWidth 32) = if b = 1#1 then 1 else 0 := by
  rcases BitVec.eq_zero_or_eq_one b with h | h <;> subst h <;> simp [wt]

/-- The nearness array after the first region, entry by entry. -/
theorem W2_v8_0 (c : Dev nD) (p : S8192x8192.Idx) :
    W2 m c (Proc.devRef .tc main_v8_0) p = (near (m ((c : Thread nD τ).loc main_arg0)) (idx2_fst p) (idx2_snd p)).setWidth 32 := by
  refine (congrFun ((W2_arr m c 4).trans (final0_mask (V1 m) c)) p).trans ?_
  unfold knear kdist2
  exact congrArg (BitVec.setWidth 32) (near_of_cols _ _ _ _ _ (fun i => V1_v4 m c i 0) (fun i => V1_v5 m c i 0) (fun j => V1_v6 m c j 0) (fun j => V1_v7 m c j 0) _ _)
/-- The degree array after the first region, entry by entry. -/
theorem W2_v8_1 (c : Dev nD) (p : S8192x1.Idx) :
    W2 m c (Proc.devRef .tc main_v8_1) p = deg (m ((c : Thread nD τ).loc main_arg0)) (idx2_fst p) := by
  refine (congrFun ((W2_arr m c 5).trans (final0_deg (V1 m) c)) p).trans ?_
  have h : ∀ j : Fin 8192, knear (V1 m c main_v4) (V1 m c main_v5) (V1 m c main_v6) (V1 m c main_v7) (idx2_fst p) j = near (m ((c : Thread nD τ).loc main_arg0)) (idx2_fst p) j := fun j => by
    unfold knear kdist2
    exact near_of_cols _ _ _ _ _ (fun i => V1_v4 m c i 0) (fun i => V1_v5 m c i 0) (fun j => V1_v6 m c j 0) (fun j => V1_v7 m c j 0) _ _
  show (∑ j : Fin 8192, (if knear (V1 m c main_v4) (V1 m c main_v5) (V1 m c main_v6) (V1 m c main_v7) (idx2_fst p) j = 1#1 then (1 : EReal) else 0)) = _
  exact Finset.sum_congr rfl fun j _ => by rw [h j]; rfl
/-- An argument array is unchanged at the first region's exit. -/
theorem W2_arg (c : Dev nD) (b : Ref sig .tc) (h2 : ∀ w, Pipeline.arrRef spec0 w ≠ b) (h0 : b ∉ hostOps0_W) :
    W2 m c (Proc.devRef .tc b) = m ((c : Thread nD τ).loc b) :=
  (W2_of_ne m c b h2).trans ((StableHlo.after_of_writes_sub hostOps0 _ hostOps0_writes h0).trans rfl)

/-- The result mask, entry by entry: the pair's nearness word. -/
theorem W3_v11 (c : Dev nD) (p : S8192x8192.Idx) : W3 m c (Proc.devRef .tc main_v11) p = near (m ((c : Thread nD τ).loc main_arg0)) (idx2_fst p) (idx2_snd p) := by
  show StableHlo.after (hostOps1 (F := Ideal)) (W2 m c) (Proc.devRef .tc main_v11) p = _
  after_results
  show IntOp.cmpi .ne (W2 m c (Proc.devRef .tc main_v8_0) p) (broadcastInDim S8192x8192 ![] bcast_S_S8192x8192 (constantI S_ 32 0#32) p) = _
  rw [W2_v8_0, Cert.LibUnitAxes.broadcastInDim_scalar_apply]
  exact cmpi_ne_setWidth _
/-- The result mask is the specification's. -/
theorem V3_v11 (c : Dev nD) : (W3 m c (Proc.devRef .tc main_v11) : S8192x8192.Idx → BitVec 1) = maskArr (m ((c : Thread nD τ).loc main_arg0)) :=
  funext fun p => W3_v11 m c p
/-- The mask words handed to the second region: the nearness words widened. -/
theorem V3_v16 (c : Dev nD) (i j : Fin 8192) : W3 m c (Proc.devRef .tc main_v16) (ix2 i j) = (near (m ((c : Thread nD τ).loc main_arg0)) i j).setWidth 32 := by
  show StableHlo.after (hostOps1 (F := Ideal)) (W2 m c) (Proc.devRef .tc main_v16) (ix2 i j) = _
  after_results
  show (IntOp.cmpi .ne (W2 m c (Proc.devRef .tc main_v8_0) (ix2 i j)) (broadcastInDim S8192x8192 ![] bcast_S_S8192x8192 (constantI S_ 32 0#32) (ix2 i j))).setWidth 32 = _
  rw [W2_v8_0, Cert.LibUnitAxes.broadcastInDim_scalar_apply]
  exact congrArg (BitVec.setWidth 32) (cmpi_ne_setWidth _)
/-- Their weights are the adjacency. -/
theorem wt_V3_v16 (c : Dev nD) (i j : Fin 8192) : wt (W3 m c (Proc.devRef .tc main_v16) (ix2 i j)) = adj (m ((c : Thread nD τ).loc main_arg0)) i j := by
  rw [V3_v16, wt_setWidth]; rfl
/-- The inverse-root degrees as a column. -/
theorem V3_v12 (c : Dev nD) (i : Fin 8192) (u : Fin 1) : W3 m c (Proc.devRef .tc main_v12) (ix2 i u) = dinv (m ((c : Thread nD τ).loc main_arg0)) i := by
  show StableHlo.after (hostOps1 (F := Ideal)) (W2 m c) (Proc.devRef .tc main_v12) (ix2 i u) = _
  after_results
  show Ideal.rsqrt (W2 m c (Proc.devRef .tc main_v8_1) (ix2 i u)) = _
  rw [W2_v8_1]; rfl
/-- The states scaled by the inverse-root degrees. -/
theorem V3_v14 (c : Dev nD) (j : Fin 8192) (k : Fin 4) : W3 m c (Proc.devRef .tc main_v14) (ix2 j k) = dinv (m ((c : Thread nD τ).loc main_arg0)) j * (m ((c : Thread nD τ).loc main_arg0)) (ix2 j k) := by
  show StableHlo.after (hostOps1 (F := Ideal)) (W2 m c) (Proc.devRef .tc main_v14) (ix2 j k) = _
  after_results
  show broadcastInDim S8192x4 ![0, 1] bcast_S8192x1_S8192x4_0_1 (Host.rsqrt (F := Ideal) (s := S8192x1) (φ := .f32) (W2 m c (Proc.devRef .tc main_v8_1))) (ix2 j k)
      * W2 m c (Proc.devRef .tc main_arg0) (ix2 j k) = _
  rw [Cert.LibUnitAxes.broadcastInDim_a1_ab_apply, W2_arg m c main_arg0 (by decide) (by decide)]
  show Ideal.rsqrt (W2 m c (Proc.devRef .tc main_v8_1) (ix2 j 0)) * _ = _
  rw [W2_v8_1]; rfl
/-- The first dense weights pass through. -/
theorem V3_arg1 (c : Dev nD) : W3 m c (Proc.devRef .tc main_arg1) = m ((c : Thread nD τ).loc main_arg1) :=
  (StableHlo.after_of_writes_sub hostOps1 _ hostOps1_writes (by decide)).trans (W2_arg m c main_arg1 (by decide) (by decide))
/-- The first bias as a row. -/
theorem V3_v15 (c : Dev nD) (u : Fin 1) (q : Fin 64) : W3 m c (Proc.devRef .tc main_v15) (ix2 u q) = m ((c : Thread nD τ).loc main_arg2) (ix1 q) := by
  show StableHlo.after (hostOps1 (F := Ideal)) (W2 m c) (Proc.devRef .tc main_v15) (ix2 u q) = _
  after_results
  show shapeCast S1x64 (W2 m c (Proc.devRef .tc main_arg2)) shapeCasts_S64_S1x64 (ix2 u q) = _
  rw [shapeCast_a_1a_apply, W2_arg m c main_arg2 (by decide) (by decide)]

/-- What the second region leaves in its output array is the first layer, entry by entry. -/
theorem W4_v17 (c : Dev nD) (p : S8192x64.Idx) :
    W4 m c (Proc.devRef .tc main_v17) p
      = hid1 (m ((c : Thread nD τ).loc main_arg0)) (m ((c : Thread nD τ).loc main_arg1)) (m ((c : Thread nD τ).loc main_arg2)) (idx2_fst p) (idx2_snd p) := by
  refine (congrFun ((W4_arr m c 5).trans (final1 (V3 m) c)) p).trans ?_
  exact layer_congr (m ((c : Thread nD τ).loc main_arg0)) (fun j k => (m ((c : Thread nD τ).loc main_arg0)) (ix2 j k)) (m ((c : Thread nD τ).loc main_arg1)) (m ((c : Thread nD τ).loc main_arg2)) (idx2_fst p) (idx2_snd p)
    (fun j => wt (W3 m c (Proc.devRef .tc main_v16) (ix2 (idx2_fst p) j))) (fun j k => W3 m c (Proc.devRef .tc main_v14) (ix2 j k))
    (W3 m c (Proc.devRef .tc main_v12) (ix2 (idx2_fst p) 0)) (fun k => W3 m c (Proc.devRef .tc main_arg1) (ix2 k (idx2_snd p)))
    (W3 m c (Proc.devRef .tc main_v15) (ix2 0 (idx2_snd p)))
    (fun j => wt_V3_v16 m c _ j) (fun j k => V3_v14 m c j k) (V3_v12 m c _ 0) (fun k => by rw [V3_arg1]) (V3_v15 m c 0 _)

end Cert.KernelIdeal.Hand

end
-- ==== Proof.KI.K2ValP.lean ====
/-
  An aggregation region with a head, the pieces as values.  Every store and every load of the body is of a whole
  buffer, so each written buffer ends as one payload of the contents the run found: the running aggregate plus the
  tile's product in the scratch (from zero where the column tile is 0, the reset being read back by the load that
  follows it), and at the last column tile the head's payload of the updated aggregate in the output block.
-/
import proofs.«138637_j24172075942523_2_alg».proof.Proof.KI.K2Dat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer rectangle. -/
theorem hz2 : (![0, 0] : Fin 2 → Nat) = fun _ => 0 := funext fun a => by fin_cases a <;> rfl

/-- A column tile other than 0 and the last: the scratch ends at its contents plus the tile's product. -/
theorem sout2_B_0_eq (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) :
    sout2_B_0 c i arg2 harg2 arg3 harg3 arg4 harg4 arg5 harg5 arg6 harg6 arg7 harg7 arg8 harg8 arg9 harg9 arg10 harg10 hc0 hc1 x0 x1 x2 x3 x4 x5 x6 xs0 = k2_pay2 x0 xs0 x1 := by
  unfold sout2_B_0
  rw [View.read_writes_eq_canon _ _ _ (scover2_B_0 c i arg2 harg2 arg3 harg3 arg4 harg4 arg5 harg5 arg6 harg6 arg7 harg7 arg8 harg8 arg9 harg9 arg10 harg10 hc0 hc1 x0 x1 x2 x3 x4 x5 x6 xs0)]
  unfold kernelRun2_B
  dsimp only
  rw [View.canon_unit_zero (S := S2048x64) hz2]
  simp only [View.readAt_eq_ld, harg2.read_unread, harg3.read_unread, harg10.read_unread,
    View.ld_unit_zero (S := S2048x2048) hz2, View.ld_unit_zero (S := S2048x64) hz2]

/-- Column tile 0: the scratch is reset, and ends at zero plus the tile's product. -/
theorem sout2_A_0_eq (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : cond2_0 i) (hc1 : ¬cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) :
    sout2_A_0 c i arg2 harg2 arg3 harg3 arg4 harg4 arg5 harg5 arg6 harg6 arg7 harg7 arg8 harg8 arg9 harg9 arg10 harg10 hc0 hc1 x0 x1 x2 x3 x4 x5 x6 = k2_pay2 x0 k2_pay1 x1 := by
  unfold sout2_A_0
  rw [View.read_writes_eq_canon _ _ _ (scover2_A_0 c i arg2 harg2 arg3 harg3 arg4 harg4 arg5 harg5 arg6 harg6 arg7 harg7 arg8 harg8 arg9 harg9 arg10 harg10 hc0 hc1 x0 x1 x2 x3 x4 x5 x6)]
  unfold kernelRun2_A
  dsimp only
  sl_unfold_words
  rw [View.canon_cons_unit_zero (S := S2048x64) hz2, View.readCov_unit_zero (S := S2048x64) _ hz2]
  simp only [View.readAt_eq_ld, harg2.read_unread, harg3.read_unread,
    View.ld_unit_zero (S := S2048x2048) hz2, View.ld_unit_zero (S := S2048x64) hz2]

/-- The last column tile: the scratch ends at its contents plus the tile's product, -/
theorem sout2_C_0_eq (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) :
    sout2_C_0 c i arg2 harg2 arg3 harg3 arg4 harg4 arg5 harg5 arg6 harg6 arg7 harg7 arg8 harg8 arg9 harg9 arg10 harg10 hc0 hc1 x0 x1 x2 x3 x4 x5 x6 xs0 = k2_pay2 x0 xs0 x1 := by
  unfold sout2_C_0
  rw [View.read_writes_eq_canon _ _ _ (scover2_C_0 c i arg2 harg2 arg3 harg3 arg4 harg4 arg5 harg5 arg6 harg6 arg7 harg7 arg8 harg8 arg9 harg9 arg10 harg10 hc0 hc1 x0 x1 x2 x3 x4 x5 x6 xs0)]
  unfold kernelRun2_C
  dsimp only
  sl_unfold_words
  rw [View.canon_unit_zero (S := S2048x64) hz2]
  simp only [View.readAt_eq_ld, harg2.read_unread, harg3.read_unread, harg10.read_unread,
    View.ld_unit_zero (S := S2048x2048) hz2, View.ld_unit_zero (S := S2048x64) hz2]

/-- and the output block at the head's payload of that updated aggregate. -/
theorem out2_C_7_eq (c : Dev nD) (i : grid2.Coords) (arg2 : Memref sig .tc .vmem S2048x2048 .i32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1 .f32) (harg7 : arg7.IsWhole) (arg8 : Memref sig .tc .vmem S1x1 .f32) (harg8 : arg8.IsWhole) (arg9 : Memref sig .tc .vmem S2048x1 .f32) (harg9 : arg9.IsWhole) (arg10 : Memref sig .tc .vmem S2048x64 .f32) (harg10 : arg10.IsWhole) (hc0 : ¬cond2_0 i) (hc1 : cond2_1 i) (x0 : Vec F S2048x2048 .i32) (x1 : Vec F S2048x64 .f32) (x2 : Vec F S2048x1 .f32) (x3 : Vec F S64x64 .f32) (x4 : Vec F S1x64 .f32) (x5 : Vec F S64x1 .f32) (x6 : Vec F S1x1 .f32) (xs0 : Vec F S2048x64 .f32) :
    out2_C_7 c i arg2 harg2 arg3 harg3 arg4 harg4 arg5 harg5 arg6 harg6 arg7 harg7 arg8 harg8 arg9 harg9 arg10 harg10 hc0 hc1 x0 x1 x2 x3 x4 x5 x6 xs0 = k2_pay3 (k2_pay2 x0 xs0 x1) x2 x3 x4 x5 x6 := by
  unfold out2_C_7
  rw [View.read_writes_eq_canon _ _ _ (cover2_C_7 c i arg2 harg2 arg3 harg3 arg4 harg4 arg5 harg5 arg6 harg6 arg7 harg7 arg8 harg8 arg9 harg9 arg10 harg10 hc0 hc1 x0 x1 x2 x3 x4 x5 x6 xs0)]
  unfold kernelRun2_C
  dsimp only
  sl_unfold_words
  rw [View.canon_unit_zero (S := S2048x1) hz2, View.readCov_unit_zero (S := S2048x64) _ hz2]
  simp only [View.readAt_eq_ld, harg2.read_unread, harg3.read_unread, harg4.read_unread, harg5.read_unread, harg6.read_unread,
    harg7.read_unread, harg8.read_unread, harg10.read_unread,
    View.ld_unit_zero (S := S2048x2048) hz2, View.ld_unit_zero (S := S2048x64) hz2, View.ld_unit_zero (S := S2048x1) hz2,
    View.ld_unit_zero (S := S64x64) hz2, View.ld_unit_zero (S := S1x64) hz2, View.ld_unit_zero (S := S64x1) hz2,
    View.ld_unit_zero (S := S1x1) hz2]

end Cert.KernelIdeal.Hand

end
-- ==== Proof.KI.K2ValI.lean ====
/-
  The payloads of an aggregation region with a head, read at an index over the extended reals.  The tile's product is
  a plain sum over the tile's columns of the words' 0/1 weights against the feature rows; the head's payload scales the
  aggregate's row by the row's inverse-root degree, applies the dense map and bias, clips below at zero, and sums the
  clipped channels against the head's weights, plus the head's bias.
-/
import proofs.«138637_j24172075942523_2_alg».proof.Proof.KI.K2ValP
import proofs.«138637_j24172075942523_2_alg».proof.Proof.KI.Wt
import proofs.«138637_j24172075942523_2_alg».proof.Proof.LibPlainDot
import proofs.«138637_j24172075942523_2_alg».proof.Proof.LibUnitAxes
import Idealize.ShloMosaic.Lib.ValueLayout
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-- The float a one-bit "differs from zero" answer widens to is the word's weight. -/
theorem sitofp_ne_zero (w : BitVec 32) :
    (FloatOps.sitofp (F := Ideal) .f32 ((IntOp.cmpi .ne w 0#32).setWidth 32) : Ideal .f32) = wt w := by
  show (((((IntOp.cmpi .ne w 0#32).setWidth 32).toInt : ℝ)) : EReal) = wt w
  unfold wt IntOp.cmpi
  by_cases h : w = 0#32
  · subst h; simp
  · rw [if_neg h]
    have h' : (w != 0#32) = true := by simpa using h
    simp [h']

/-- The reset payload is zero everywhere. -/
theorem k2_pay1_apply (p : Fin 2048) (q : Fin 64) : k2_pay1 (F := Ideal) (ix2 p q) = 0 := by
  unfold k2_pay1
  simp only [shapeCast_self]
  exact Ideal.ofBits_zero_f32

/-- The accumulating payload: the aggregate plus the tile's weighted feature sum. -/
theorem k2_pay2_apply (v3 : Vec Ideal S2048x2048 .i32) (v8 v9 : Vec Ideal S2048x64 .f32) (p : Fin 2048) (q : Fin 64) :
    k2_pay2 v3 v8 v9 (ix2 p q) = v8 (ix2 p q) + ∑ k : Fin 2048, wt (v3 (ix2 p k)) * v9 (ix2 k q) := by
  unfold k2_pay2
  simp only [shapeCast_self]
  show v8 (ix2 p q) + _ = _
  refine congrArg (v8 (ix2 p q) + ·) ?_
  refine (Cert.LibPlainDot.matmul_zero_apply dot_S2048x2048_S2048x64_S2048x64_1_0_0_1_n_n rfl rfl rfl rfl
    (fun _ _ => rfl) (fun _ _ => rfl) none _ v9 p q).trans ?_
  refine Finset.sum_congr rfl fun k _ => ?_
  exact congrArg (· * v9 (ix2 k q)) (sitofp_ne_zero (v3 (ix2 p k)))

/-- The head's payload: scale the aggregate's row, dense map, bias, clip below at zero, sum against the head's weights,
    add the head's bias. -/
theorem k2_pay3_apply (v19 : Vec Ideal S2048x64 .f32) (v20 : Vec Ideal S2048x1 .f32) (v24 : Vec Ideal S64x64 .f32)
    (v26 : Vec Ideal S1x64 .f32) (v32 : Vec Ideal S64x1 .f32) (v35 : Vec Ideal S1x1 .f32) (p : Fin 2048) :
    k2_pay3 v19 v20 v24 v26 v32 v35 (ix2 p (0 : Fin 1))
      = ∑ cc : Fin 64, max (∑ k : Fin 64, (v19 (ix2 p k) * v20 (ix2 p (0 : Fin 1))) * v24 (ix2 k cc) + v26 (ix2 (0 : Fin 1) cc)) 0
            * v32 (ix2 cc (0 : Fin 1)) + v35 (ix2 (0 : Fin 1) (0 : Fin 1)) := by
  unfold k2_pay3
  simp only [shapeCast_self]
  show _ + broadcastTo S2048x1 v35 broadcasts_S1x1_S2048x1 (ix2 p (0 : Fin 1)) = _
  refine congrArg₂ (· + ·) ?_ (broadcastTo_1b_ab_apply v35 broadcasts_S1x1_S2048x1 p (0 : Fin 1))
  refine (Cert.LibPlainDot.matmul_zero_apply dot_S2048x64_S64x1_S2048x1_1_0_0_1_n_n rfl rfl rfl rfl
    (fun _ _ => rfl) (fun _ _ => rfl) none _ v32 p (0 : Fin 1)).trans ?_
  refine Finset.sum_congr rfl fun cc _ => ?_
  refine congrArg (· * v32 (ix2 cc (0 : Fin 1))) ?_
  show max (_ + broadcastTo S2048x64 v26 broadcasts_S1x64_S2048x64 (ix2 p cc)) (Ideal.ofBits .f32 0x00000000#32) = _
  refine congrArg₂ max (congrArg₂ (· + ·) ?_ (broadcastTo_1b_ab_apply v26 broadcasts_S1x64_S2048x64 p cc)) Ideal.ofBits_zero_f32
  refine (Cert.LibPlainDot.matmul_zero_apply dot_S2048x64_S64x64_S2048x64_1_0_0_1_n_n rfl rfl rfl rfl
    (fun _ _ => rfl) (fun _ _ => rfl) none _ v24 p cc).trans ?_
  refine Finset.sum_congr rfl fun k _ => ?_
  refine congrArg (· * v24 (ix2 k cc)) ?_
  show v19 (ix2 p k) * broadcastTo S2048x64 v20 broadcasts_S2048x1_S2048x64 (ix2 p k) = _
  exact congrArg (v19 (ix2 p k) * ·) (Cert.LibUnitAxes.broadcastTo_a1_ab_apply v20 broadcasts_S2048x1_S2048x64 p k)

end Cert.KernelIdeal.Hand

end
-- ==== Proof.KI.K2ValS.lean ====
/-
  An aggregation region's blocks read off their arrays, and the running aggregate point by point.  At the point of
  row tile i and column tile j the nearness block is rows 2048 i .. of columns 2048 j .., the feature block rows
  2048 j ..; so after that point the scratch holds, at row p and channel q, the weighted feature sum over the columns
  of the tiles 0 .. j — by induction on the point, the reset at column tile 0 starting the sum afresh.
-/
import proofs.«138637_j24172075942523_2_alg».proof.Proof.KI.K2ValI
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable {F : FTy → Type} [FloatOps F]
variable (V : (c : Dev nD) → (b : Ref sig .tc) → Buf (Elt F) ((c : Thread nD τ).loc b))

/-- The block indices of the region's windows, decided over the grid: the nearness tile moves with (row tile, column
    tile), the features with the column tile, the degrees and the output with the row tile, the rest stay. -/
theorem idx_facts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val / 4 ∧ win2_7.index t (1 : Fin 2) = 0 :=
  (by decide +kernel : ∀ t : Fin grid2.N, _)

/-- The nearness block at a point: rows of the row tile, columns of the column tile. -/
theorem iblk2_0_apply (c : Dev nD) (t : Fin cfg2.N) (p : Fin 2048) (q : Fin 2048) (R : Fin 8192) (C : Fin 8192)
    (hR : R.val = t.val / 4 * 2048 + p.val) (hC : C.val = t.val % 4 * 2048 + q.val) :
    (iblk2 V c 0 t : Vec F S2048x2048 .i32) (ix2 p q) = V c main_v23 (ix2 R C) := by
  unfold iblk2
  rw [View.read_apply]
  show V c main_v23 _ = V c main_v23 _
  congr 1
  funext a; apply Fin.ext
  match a with
  | ⟨0, _⟩ => show win2_0.index t (0 : Fin 2) * 2048 + 1 * p.val = R.val; rw [(idx_facts2 t).1, hR]; omega
  | ⟨1, _⟩ => show win2_0.index t (1 : Fin 2) * 2048 + 1 * q.val = C.val; rw [(idx_facts2 t).2.1, hC]; omega

/-- The feature block at a point: rows of the column tile. -/
theorem iblk2_1_apply (c : Dev nD) (t : Fin cfg2.N) (p : Fin 2048) (q : Fin 64) (R : Fin 8192) (C : Fin 64)
    (hR : R.val = t.val % 4 * 2048 + p.val) (hC : C.val = q.val) :
    (iblk2 V c 1 t : Vec F S2048x64 .f32) (ix2 p q) = V c main_v19 (ix2 R C) := by
  unfold iblk2
  rw [View.read_apply]
  show V c main_v19 _ = V c main_v19 _
  congr 1
  funext a; apply Fin.ext
  match a with
  | ⟨0, _⟩ => show win2_1.index t (0 : Fin 2) * 2048 + 1 * p.val = R.val; rw [(idx_facts2 t).2.2.1, hR]; omega
  | ⟨1, _⟩ => show win2_1.index t (1 : Fin 2) * 64 + 1 * q.val = C.val; rw [(idx_facts2 t).2.2.2.1, hC]; omega

/-- The inverse-root degree block at a point: rows of the row tile. -/
theorem iblk2_2_apply (c : Dev nD) (t : Fin cfg2.N) (p : Fin 2048) (q : Fin 1) (R : Fin 8192) (C : Fin 1)
    (hR : R.val = t.val / 4 * 2048 + p.val) (hC : C.val = q.val) :
    (iblk2 V c 2 t : Vec F S2048x1 .f32) (ix2 p q) = V c main_v12 (ix2 R C) := by
  unfold iblk2
  rw [View.read_apply]
  show V c main_v12 _ = V c main_v12 _
  congr 1
  funext a; apply Fin.ext
  match a with
  | ⟨0, _⟩ => show win2_2.index t (0 : Fin 2) * 2048 + 1 * p.val = R.val; rw [(idx_facts2 t).2.2.2.2.1, hR]; omega
  | ⟨1, _⟩ => show win2_2.index t (1 : Fin 2) * 1 + 1 * q.val = C.val; rw [(idx_facts2 t).2.2.2.2.2.1, hC]; omega

/-- The dense weights, whole at every point. -/
theorem iblk2_3_apply (c : Dev nD) (t : Fin cfg2.N) (p : Fin 64) (q : Fin 64) (R : Fin 64) (C : Fin 64)
    (hR : R.val = p.val) (hC : C.val = q.val) :
    (iblk2 V c 3 t : Vec F S64x64 .f32) (ix2 p q) = V c main_arg3 (ix2 R C) := by
  unfold iblk2
  rw [View.read_apply]
  show V c main_arg3 _ = V c main_arg3 _
  congr 1
  funext a; apply Fin.ext
  match a with
  | ⟨0, _⟩ => show win2_3.index t (0 : Fin 2) * 64 + 1 * p.val = R.val; rw [(idx_facts2 t).2.2.2.2.2.2.1, hR]; omega
  | ⟨1, _⟩ => show win2_3.index t (1 : Fin 2) * 64 + 1 * q.val = C.val; rw [(idx_facts2 t).2.2.2.2.2.2.2.1, hC]; omega

/-- The bias row, whole at every point. -/
theorem iblk2_4_apply (c : Dev nD) (t : Fin cfg2.N) (p : Fin 1) (q : Fin 64) (R : Fin 1) (C : Fin 64)
    (hR : R.val = p.val) (hC : C.val = q.val) :
    (iblk2 V c 4 t : Vec F S1x64 .f32) (ix2 p q) = V c main_v20 (ix2 R C) := by
  unfold iblk2
  rw [View.read_apply]
  show V c main_v20 _ = V c main_v20 _
  congr 1
  funext a; apply Fin.ext
  match a with
  | ⟨0, _⟩ => show win2_4.index t (0 : Fin 2) * 1 + 1 * p.val = R.val; rw [(idx_facts2 t).2.2.2.2.2.2.2.2.1, hR]; omega
  | ⟨1, _⟩ => show win2_4.index t (1 : Fin 2) * 64 + 1 * q.val = C.val; rw [(idx_facts2 t).2.2.2.2.2.2.2.2.2.1, hC]; omega

/-- The head's weights, whole at every point. -/
theorem iblk2_5_apply (c : Dev nD) (t : Fin cfg2.N) (p : Fin 64) (q : Fin 1) (R : Fin 64) (C : Fin 1)
    (hR : R.val = p.val) (hC : C.val = q.val) :
    (iblk2 V c 5 t : Vec F S64x1 .f32) (ix2 p q) = V c main_v21 (ix2 R C) := by
  unfold iblk2
  rw [View.read_apply]
  show V c main_v21 _ = V c main_v21 _
  congr 1
  funext a; apply Fin.ext
  match a with
  | ⟨0, _⟩ => show win2_5.index t (0 : Fin 2) * 64 + 1 * p.val = R.val; rw [(idx_facts2 t).2.2.2.2.2.2.2.2.2.2.1, hR]; omega
  | ⟨1, _⟩ => show win2_5.index t (1 : Fin 2) * 1 + 1 * q.val = C.val; rw [(idx_facts2 t).2.2.2.2.2.2.2.2.2.2.2.1, hC]; omega

/-- The head's bias, whole at every point. -/
theorem iblk2_6_apply (c : Dev nD) (t : Fin cfg2.N) (p : Fin 1) (q : Fin 1) (R : Fin 1) (C : Fin 1)
    (hR : R.val = p.val) (hC : C.val = q.val) :
    (iblk2 V c 6 t : Vec F S1x1 .f32) (ix2 p q) = V c main_v22 (ix2 R C) := by
  unfold iblk2
  rw [View.read_apply]
  show V c main_v22 _ = V c main_v22 _
  congr 1
  funext a; apply Fin.ext
  match a with
  | ⟨0, _⟩ => show win2_6.index t (0 : Fin 2) * 1 + 1 * p.val = R.val; rw [(idx_facts2 t).2.2.2.2.2.2.2.2.2.2.2.2.1, hR]; omega
  | ⟨1, _⟩ => show win2_6.index t (1 : Fin 2) * 1 + 1 * q.val = C.val; rw [(idx_facts2 t).2.2.2.2.2.2.2.2.2.2.2.2.2.1, hC]; omega

end Cert.KernelIdeal.Hand

end
-- ==== Proof.KI.K2ValAcc.lean ====
/-
  The running aggregate of an aggregation region, point by point, over the extended reals.  After the point of row
  tile i and column tile j the scratch holds, at row p and channel q, the weighted feature sum of row 2048 i + p over
  the columns of the tiles 0 .. j: the reset at column tile 0 starts the sum, every later column tile adds its tile's
  sum to what the point before left.  After the last column tile that is the sum over all 8192 columns (a sum over
  four tiles of 2048 is the sum over 8192), and the output block holds the head's payload of it.
-/
import proofs.«138637_j24172075942523_2_alg».proof.Proof.KI.K2ValS
import proofs.«138637_j24172075942523_2_alg».proof.Proof.LibERealStats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The weighted feature term of row R at channel q for column j (zero past the last column). -/
def term2 (c : Dev nD) (R : Fin 8192) (q : Fin 64) (j : ℕ) : EReal :=
  if h : j < 8192 then wt (V c main_v23 (ix2 R ⟨j, h⟩)) * V c main_v19 (ix2 ⟨j, h⟩ q) else 0

/-- The term the tile's product adds for column k of the tile at a point: that of column 2048 (column tile) + k. -/
theorem tile_term2 (c : Dev nD) (t : Fin cfg2.N) (p k : Fin 2048) (q : Fin 64) (R : Fin 8192)
    (hR : R.val = t.val / 4 * 2048 + p.val) :
    wt ((iblk2 V c 0 t : Vec Ideal S2048x2048 .i32) (ix2 p k)) * (iblk2 V c 1 t : Vec Ideal S2048x64 .f32) (ix2 k q)
      = term2 V c R q (t.val % 4 * 2048 + k.val) := by
  have hN : t.val < 16 := lt_of_lt_of_eq t.isLt (show cfg2.N = 16 from N_2)
  have hj : t.val % 4 * 2048 + k.val < 8192 := by have := k.isLt; omega
  unfold term2
  rw [dif_pos hj]
  exact congrArg₂ (fun a b => wt a * b) (iblk2_0_apply V c t p k R ⟨_, hj⟩ hR rfl) (iblk2_1_apply V c t k q ⟨_, hj⟩ q rfl rfl)

/-- Column tile 0: the scratch holds the first tile's sum. -/
theorem scratch2_A (c : Dev nD) (t : Fin cfg2.N) (h0 : t.val % 4 = 0) (p : Fin 2048) (q : Fin 64) (R : Fin 8192)
    (hR : R.val = t.val / 4 * 2048 + p.val) :
    (outsAt2 V c t.val t.isLt).2 (ix2 p q) = ∑ r : Fin 2048, term2 V c R q (t.val % 4 * 2048 + r.val) := by
  have h1 : ¬t.val % 4 = 3 := by omega
  rw [outsAt2_A V c t h0 h1]
  dsimp only
  refine (congrFun (sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t)) (ix2 p q)).trans ?_
  refine (k2_pay2_apply (iblk2 V c 0 t) (k2_pay1 (F := Ideal)) (iblk2 V c 1 t) p q).trans ?_
  rw [k2_pay1_apply, zero_add]
  exact Finset.sum_congr rfl fun k _ => tile_term2 V c t p k q R hR

/-- A later column tile adds its tile's sum to what the point before left (not the last column tile), -/
theorem scratch2_B (c : Dev nD) (t : Fin cfg2.N) (h0 : ¬t.val % 4 = 0) (h1 : ¬t.val % 4 = 3) (p : Fin 2048) (q : Fin 64) (R : Fin 8192)
    (hR : R.val = t.val / 4 * 2048 + p.val) :
    (outsAt2 V c t.val t.isLt).2 (ix2 p q)
      = (outsAt2 V c (t.val - 1) (Nat.lt_of_le_of_lt (Nat.sub_le _ _) t.isLt)).2 (ix2 p q) + ∑ r : Fin 2048, term2 V c R q (t.val % 4 * 2048 + r.val) := by
  rw [outsAt2_B V c t h0 h1]
  dsimp only
  refine (congrFun (sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) (ix2 p q)).trans ?_
  refine (k2_pay2_apply (iblk2 V c 0 t) (outsAt2 V c (t.val - 1) (Nat.lt_of_le_of_lt (Nat.sub_le _ _) t.isLt)).2 (iblk2 V c 1 t) p q).trans ?_
  refine congrArg ((outsAt2 V c (t.val - 1) (Nat.lt_of_le_of_lt (Nat.sub_le _ _) t.isLt)).2 (ix2 p q) + ·) ?_
  exact Finset.sum_congr rfl fun k _ => tile_term2 V c t p k q R hR

/-- (the last column tile). -/
theorem scratch2_C (c : Dev nD) (t : Fin cfg2.N) (h0 : ¬t.val % 4 = 0) (h1 : t.val % 4 = 3) (p : Fin 2048) (q : Fin 64) (R : Fin 8192)
    (hR : R.val = t.val / 4 * 2048 + p.val) :
    (outsAt2 V c t.val t.isLt).2 (ix2 p q)
      = (outsAt2 V c (t.val - 1) (Nat.lt_of_le_of_lt (Nat.sub_le _ _) t.isLt)).2 (ix2 p q) + ∑ r : Fin 2048, term2 V c R q (t.val % 4 * 2048 + r.val) := by
  rw [outsAt2_C V c t h0 h1]
  dsimp only
  refine (congrFun (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2) (ix2 p q)).trans ?_
  refine (k2_pay2_apply (iblk2 V c 0 t) (outsAt2 V c (t.val - 1) (Nat.lt_of_le_of_lt (Nat.sub_le _ _) t.isLt)).2 (iblk2 V c 1 t) p q).trans ?_
  refine congrArg ((outsAt2 V c (t.val - 1) (Nat.lt_of_le_of_lt (Nat.sub_le _ _) t.isLt)).2 (ix2 p q) + ·) ?_
  exact Finset.sum_congr rfl fun k _ => tile_term2 V c t p k q R hR

/-- THE RUNNING AGGREGATE after the point n, by induction on the point: at row p and channel q the scratch holds the
    sums of the tiles 0 .. (column tile of n) of row 2048 (row tile of n) + p. -/
theorem scratch2_eq (c : Dev nD) (n : ℕ) : ∀ (hn : n < cfg2.N) (p : Fin 2048) (q : Fin 64) (R : Fin 8192)
    (hR : R.val = n / 4 * 2048 + p.val),
    (outsAt2 V c n hn).2 (ix2 p q) = ∑ s ∈ Finset.range (n % 4 + 1), ∑ r : Fin 2048, term2 V c R q (s * 2048 + r.val) := by
  induction n with
  | zero =>
    intro hn p q R hR
    refine (scratch2_A V c ⟨0, hn⟩ rfl p q R hR).trans ?_
    rw [show (0 : ℕ) % 4 + 1 = 1 from rfl, Finset.sum_range_one]
    rfl
  | succ n ih =>
    intro hn p q R hR
    by_cases h0 : (n + 1) % 4 = 0
    · refine (scratch2_A V c ⟨n + 1, hn⟩ h0 p q R hR).trans ?_
      show ∑ r : Fin 2048, term2 V c R q ((n + 1) % 4 * 2048 + r.val) = _
      rw [h0, Finset.sum_range_one]
    · have e : (n + 1) % 4 = n % 4 + 1 := by omega
      have hR' : R.val = n / 4 * 2048 + p.val := by omega
      have step : (outsAt2 V c (n + 1) hn).2 (ix2 p q)
          = (outsAt2 V c n (Nat.lt_of_succ_lt hn)).2 (ix2 p q) + ∑ r : Fin 2048, term2 V c R q ((n + 1) % 4 * 2048 + r.val) := by
        by_cases h1 : (n + 1) % 4 = 3
        · exact scratch2_C V c ⟨n + 1, hn⟩ h0 h1 p q R hR
        · exact scratch2_B V c ⟨n + 1, hn⟩ h0 h1 p q R hR
      rw [step, ih (Nat.lt_of_succ_lt hn) p q R hR', e]
      exact (Finset.sum_range_succ (fun s => ∑ r : Fin 2048, term2 V c R q (s * 2048 + r.val)) (n % 4 + 1)).symm

/-- Four tiles of 2048 columns are the 8192 columns: the sums of the four tiles are the sum over all columns. -/
theorem full_sum2 (c : Dev nD) (R : Fin 8192) (q : Fin 64) :
    ∑ s ∈ Finset.range 4, ∑ r : Fin 2048, term2 V c R q (s * 2048 + r.val)
      = ∑ j : Fin 8192, wt (V c main_v23 (ix2 R j)) * V c main_v19 (ix2 j q) := by
  rw [← Fin.sum_univ_eq_sum_range (fun s => ∑ r : Fin 2048, term2 V c R q (s * 2048 + r.val)) 4,
    Cert.LibERealStats.sum_tiles_of_eq 4 2048 8192 rfl (term2 V c R q)]
  refine Finset.sum_congr rfl fun j _ => ?_
  unfold term2
  rw [dif_pos j.isLt]

/-- After a last column tile the scratch holds, at row p and channel q, the weighted feature sum over all columns. -/
theorem scratch2_last (c : Dev nD) (t : Fin cfg2.N) (h1 : t.val % 4 = 3) (p : Fin 2048) (q : Fin 64) (R : Fin 8192)
    (hR : R.val = t.val / 4 * 2048 + p.val) :
    (outsAt2 V c t.val t.isLt).2 (ix2 p q) = ∑ j : Fin 8192, wt (V c main_v23 (ix2 R j)) * V c main_v19 (ix2 j q) := by
  rw [scratch2_eq V c t.val t.isLt p q R hR, h1]
  exact full_sum2 V c R q

end Cert.KernelIdeal.Hand

end
-- ==== Proof.KI.K2Val.lean ====
/-
  What the second aggregation region leaves in its output array, as a whole-array function of the arrays it reads: for
  agent i, the layer's clipped channels (the 0/1 weights of row i against the scaled features summed over ALL agents,
  scaled by the row's inverse-root degree, dense map, bias, clip at zero) summed against the head's weights, plus the
  head's bias.
-/
import proofs.«138637_j24172075942523_2_alg».proof.Proof.KI.K2Dat
import proofs.«138637_j24172075942523_2_alg».proof.Proof.KI.K2ValAcc
import Idealize.ShloMosaic.Lib.Pipeline.Value
import proofs.«138637_j24172075942523_2_alg».proof.Proof.KI.Wt
import proofs.«138637_j24172075942523_2_alg».proof.Proof.GcnSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.GcnSpec

variable (V : (c : Dev nD) → (b : Ref sig .tc) → Buf (Elt Ideal) ((c : Thread nD τ).loc b))

/-- The head's value for agent R: the clipped channels of the layer summed against the head's weights, plus the
    head's bias. -/
def head2 (c : Dev nD) (R : Fin 8192) : EReal :=
  ∑ cc : Fin 64, max (∑ k : Fin 64, ((∑ j : Fin 8192, wt (V c main_v23 (ix2 R j)) * V c main_v19 (ix2 j k)) * V c main_v12 (ix2 R 0))
                        * V c main_arg3 (ix2 k cc) + V c main_v20 (ix2 0 cc)) 0 * V c main_v21 (ix2 cc 0) + V c main_v22 (ix2 0 0)

/-- After a last column tile the output block holds, at row p, the head's value of agent 2048 (row tile) + p. -/
theorem out2_last (c : Dev nD) (t : Fin cfg2.N) (h1 : t.val % 4 = 3) (p : Fin 2048) (R : Fin 8192)
    (hR : R.val = t.val / 4 * 2048 + p.val) :
    (outsAt2 V c t.val t.isLt).1 (ix2 p (0 : Fin 1)) = head2 V c R := by
  have h0 : ¬t.val % 4 = 0 := by omega
  have hs : (outsAt2 V c t.val t.isLt).2 = k2_pay2 (iblk2 V c 0 t) (outsAt2 V c (t.val - 1) (Nat.lt_of_le_of_lt (Nat.sub_le _ _) t.isLt)).2 (iblk2 V c 1 t) := by
    rw [outsAt2_C V c t h0 h1]
    dsimp only
    exact sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2
  have ho : (outsAt2 V c t.val t.isLt).1
      = k2_pay3 (k2_pay2 (iblk2 V c 0 t) (outsAt2 V c (t.val - 1) (Nat.lt_of_le_of_lt (Nat.sub_le _ _) t.isLt)).2 (iblk2 V c 1 t)) (iblk2 V c 2 t) (iblk2 V c 3 t) (iblk2 V c 4 t) (iblk2 V c 5 t) (iblk2 V c 6 t) := by
    rw [outsAt2_C V c t h0 h1]
    dsimp only
    exact out2_C_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2
  rw [ho, ← hs]
  refine (k2_pay3_apply (outsAt2 V c t.val t.isLt).2 (iblk2 V c 2 t) (iblk2 V c 3 t) (iblk2 V c 4 t) (iblk2 V c 5 t) (iblk2 V c 6 t) p).trans ?_
  unfold head2
  refine congrArg₂ (· + ·) (Finset.sum_congr rfl fun cc _ => ?_) (iblk2_6_apply V c t 0 0 0 0 rfl rfl)
  refine congrArg₂ (· * ·) (congrArg₂ max (congrArg₂ (· + ·) (Finset.sum_congr rfl fun k _ => ?_)
    (iblk2_4_apply V c t 0 cc 0 cc rfl rfl)) rfl) (iblk2_5_apply V c t cc 0 cc 0 rfl rfl)
  exact congrArg₂ (· * ·) (congrArg₂ (· * ·) (scratch2_last V c t h1 p k R hR) (iblk2_2_apply V c t p 0 R 0 hR rfl))
    (iblk2_3_apply V c t k cc k cc rfl rfl)

/-- An index of the output array is in a point's block iff each coordinate is in the block's range on its axis. -/
theorem mem_blk2_7 (t : Fin cfg2.N) (i : S8192x1.Idx) :
    i ∈ ((cfg2.win 7).blk t).view.set
      ↔ ∀ a : Fin 2, win2_7.index t a * S2048x1.size a ≤ (i a).val ∧ (i a).val < win2_7.index t a * S2048x1.size a + S2048x1.size a := by
  show i ∈ ((View.whole main_v24).slice (win2_7.rect t)).set ↔ _
  rw [View.set_slice_whole, Rect.mem_set_unit]
  exact Iff.rfl

/-- A block of the output window read through the window: row p of the block at a point is the array's row
    2048 (row tile) + p. -/
theorem flushed2_row (t : Fin cfg2.N) (X : Vec Ideal S2048x1 .f32) (G : S8192x1.Idx → EReal)
    (h : ∀ (p : Fin 2048) (R : Fin 8192), R.val = t.val / 4 * 2048 + p.val → X (ix2 p (0 : Fin 1)) = G (ix2 R (0 : Fin 1))) :
    (cfg2.win 7).cut (grid2.coords t) X = ((cfg2.win 7).blk t).view.read (Elt Ideal) G := by
  have hN : t.val < 16 := lt_of_lt_of_eq t.isLt (show cfg2.N = 16 from N_2)
  funext y
  obtain ⟨p, u, rfl⟩ : ∃ (p : Fin 2048) (u : Fin 1), y = ix2 p u := ⟨y 0, y 1, eq_ix2 y⟩
  obtain rfl : u = 0 := Subsingleton.elim _ _
  rw [View.read_apply]
  have hRlt : t.val / 4 * 2048 + p.val < 8192 := by have := p.isLt; omega
  refine (h p ⟨_, hRlt⟩ rfl).trans ?_
  show G _ = G _
  congr 1
  funext a; apply Fin.ext
  match a with
  | ⟨0, _⟩ =>
    show t.val / 4 * 2048 + p.val = win2_7.index t (0 : Fin 2) * 2048 + 1 * p.val
    rw [(idx_facts2 t).2.2.2.2.2.2.2.2.2.2.2.2.2.2.1]; omega
  | ⟨1, _⟩ =>
    show 0 = win2_7.index t (1 : Fin 2) * 1 + 1 * 0
    rw [(idx_facts2 t).2.2.2.2.2.2.2.2.2.2.2.2.2.2.2]

/-- What a last column tile's point writes back is its block of the head's values. -/
theorem flushed2_eq (c : Dev nD) (t : Fin cfg2.N) (hf : (cfg2.win 7).flush t = true) :
    (dat2 (F := Ideal) V c).flushed 7 t
      = ((cfg2.win 7).blk t).view.read (Elt Ideal) (fun P : S8192x1.Idx => head2 V c (idx2_fst P)) := by
  have h1 : t.val % 4 = 3 := (flush2_7 t).mp hf
  show (cfg2.win 7).cut (grid2.coords t) ((dat2 (F := Ideal) V c).after 7 t) = _
  rw [after2_7]
  exact flushed2_row t _ _ fun p R hR => out2_last V c t h1 p R hR

/-- Every row of the output array is in the block of the last column tile's point of its row tile. -/
theorem cover2_7 (i : S8192x1.Idx) : ∃ t : Fin cfg2.N, (cfg2.win 7).flush t = true ∧ i ∈ ((cfg2.win 7).blk t).view.set := by
  have hi0 : (i 0).val < 8192 := idx2_lt0 i
  have hi1 : (i 1).val < 1 := idx2_lt1 i
  have hN : cfg2.N = 16 := N_2
  have hT : 4 * ((i 0).val / 2048) + 3 < cfg2.N := by rw [hN]; omega
  refine ⟨⟨4 * ((i 0).val / 2048) + 3, hT⟩, (flush2_7 _).mpr (by show (4 * ((i 0).val / 2048) + 3) % 4 = 3; omega), ?_⟩
  rw [mem_blk2_7]
  have f0 := (idx_facts2 ⟨4 * ((i 0).val / 2048) + 3, hT⟩).2.2.2.2.2.2.2.2.2.2.2.2.2.2.1
  have f1 := (idx_facts2 ⟨4 * ((i 0).val / 2048) + 3, hT⟩).2.2.2.2.2.2.2.2.2.2.2.2.2.2.2
  intro a
  match a with
  | ⟨0, _⟩ =>
    show win2_7.index ⟨4 * ((i 0).val / 2048) + 3, hT⟩ (0 : Fin 2) * 2048 ≤ (i 0).val
      ∧ (i 0).val < win2_7.index ⟨4 * ((i 0).val / 2048) + 3, hT⟩ (0 : Fin 2) * 2048 + 2048
    rw [f0]
    show (4 * ((i 0).val / 2048) + 3) / 4 * 2048 ≤ (i 0).val ∧ (i 0).val < (4 * ((i 0).val / 2048) + 3) / 4 * 2048 + 2048
    omega
  | ⟨1, _⟩ =>
    show win2_7.index ⟨4 * ((i 0).val / 2048) + 3, hT⟩ (1 : Fin 2) * 1 ≤ (i 1).val
      ∧ (i 1).val < win2_7.index ⟨4 * ((i 0).val / 2048) + 3, hT⟩ (1 : Fin 2) * 1 + 1
    rw [f1]
    omega

/-- The output array after all sixteen points: at every agent the head's value. -/
theorem final2 (c : Dev nD) :
    (dat2 (F := Ideal) V c).arrAt 7 cfg2.N
      = fun p => ∑ cc : Fin 64, max (∑ k : Fin 64, ((∑ j : Fin 8192, wt (V c main_v23 (ix2 (idx2_fst p) j)) * V c main_v19 (ix2 j k)) * V c main_v12 (ix2 (idx2_fst p) 0))
                        * V c main_arg3 (ix2 k cc) + V c main_v20 (ix2 0 cc)) 0 * V c main_v21 (ix2 cc 0) + V c main_v22 (ix2 0 0) := by
  exact (dat2 (F := Ideal) V c).arrAt_eq_of_cover 7 (fun P : S8192x1.Idx => head2 V c (idx2_fst P))
    (fun t ht => flushed2_eq V c t ht) cover2_7

end Cert.KernelIdeal.Hand

end
-- ==== Proof.KI.GlueV5.lean ====
/-
  What the third stretch of host operations hands the last region, in the specification's terms: the mask words again,
  the first layer scaled by the inverse-root degrees, those degrees as a column, and the second dense weights, the second
  bias as a row, the head's weights as a column and its bias as a one-by-one array.  Hence what the last region leaves
  is the head's output, and the result mask is still every pair's nearness word.
-/
import proofs.«138637_j24172075942523_2_alg».proof.Proof.KI.GlueV3
import proofs.«138637_j24172075942523_2_alg».proof.Proof.KI.K2Val

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.GcnSpec

variable (m : (ℓ : Loc nD τ sig) → Buf (Elt Ideal) ℓ)

/-- The result mask is not touched by the second region. -/
theorem W4_v11 (c : Dev nD) (p : S8192x8192.Idx) : W4 m c (Proc.devRef .tc main_v11) p = near (m ((c : Thread nD τ).loc main_arg0)) (idx2_fst p) (idx2_snd p) :=
  (congrFun (W4_of_ne m c main_v11 (by decide)) p).trans (W3_v11 m c p)
/-- The inverse-root degrees are an input of the second region: unchanged at its exit. -/
theorem W4_v12 (c : Dev nD) (i : Fin 8192) (u : Fin 1) : W4 m c (Proc.devRef .tc main_v12) (ix2 i u) = dinv (m ((c : Thread nD τ).loc main_arg0)) i :=
  (congrFun ((W4_arr m c 2).trans (((dat1 (V3 m) c).arrAt_in 2 rfl _).trans (A_eq1 (V3 m) c 2))) (ix2 i u)).trans (V3_v12 m c i u)
/-- An argument array that is no array of the second region is unchanged at its exit. -/
theorem W4_arg (c : Dev nD) (b : Ref sig .tc) (h4 : ∀ w, Pipeline.arrRef spec1 w ≠ b) (h1 : b ∉ hostOps1_W)
    (h2 : ∀ w, Pipeline.arrRef spec0 w ≠ b) (h0 : b ∉ hostOps0_W) :
    W4 m c (Proc.devRef .tc b) = m ((c : Thread nD τ).loc b) :=
  (W4_of_ne m c b h4).trans ((StableHlo.after_of_writes_sub hostOps1 _ hostOps1_writes h1).trans (W2_arg m c b h2 h0))

/-- The mask words handed to the last region: the nearness words widened. -/
theorem V5_v23 (c : Dev nD) (i j : Fin 8192) : W5 m c (Proc.devRef .tc main_v23) (ix2 i j) = (near (m ((c : Thread nD τ).loc main_arg0)) i j).setWidth 32 := by
  show StableHlo.after (hostOps2 (F := Ideal)) (W4 m c) (Proc.devRef .tc main_v23) (ix2 i j) = _
  after_results
  show (W4 m c (Proc.devRef .tc main_v11) (ix2 i j)).setWidth 32 = _
  rw [W4_v11]; rfl
theorem wt_V5_v23 (c : Dev nD) (i j : Fin 8192) : wt (W5 m c (Proc.devRef .tc main_v23) (ix2 i j)) = adj (m ((c : Thread nD τ).loc main_arg0)) i j := by
  rw [V5_v23, wt_setWidth]; rfl
/-- The inverse-root degrees, still. -/
theorem V5_v12 (c : Dev nD) (i : Fin 8192) (u : Fin 1) : W5 m c (Proc.devRef .tc main_v12) (ix2 i u) = dinv (m ((c : Thread nD τ).loc main_arg0)) i := by
  rw [show W5 m c (Proc.devRef .tc main_v12) = W4 m c (Proc.devRef .tc main_v12) from
    StableHlo.after_of_writes_sub (r := main_v12) hostOps2 _ hostOps2_writes (by decide)]
  exact W4_v12 m c i u
/-- The first layer scaled by the inverse-root degrees. -/
theorem V5_v19 (c : Dev nD) (j : Fin 8192) (k : Fin 64) :
    W5 m c (Proc.devRef .tc main_v19) (ix2 j k) = dinv (m ((c : Thread nD τ).loc main_arg0)) j * hid1 (m ((c : Thread nD τ).loc main_arg0)) (m ((c : Thread nD τ).loc main_arg1)) (m ((c : Thread nD τ).loc main_arg2)) j k := by
  show StableHlo.after (hostOps2 (F := Ideal)) (W4 m c) (Proc.devRef .tc main_v19) (ix2 j k) = _
  after_results
  show (broadcastInDim S8192x64 ![0, 1] bcast_S8192x1_S8192x64_0_1 (W4 m c (Proc.devRef .tc main_v12) : S8192x1.Idx → EReal) (ix2 j k) : EReal)
      * (W4 m c (Proc.devRef .tc main_v17) (ix2 j k) : EReal) = _
  rw [Cert.LibUnitAxes.broadcastInDim_a1_ab_apply, W4_v12, W4_v17]; rfl
/-- The second dense weights pass through. -/
theorem V5_arg3 (c : Dev nD) : W5 m c (Proc.devRef .tc main_arg3) = m ((c : Thread nD τ).loc main_arg3) :=
  (StableHlo.after_of_writes_sub hostOps2 _ hostOps2_writes (by decide)).trans (W4_arg m c main_arg3 (by decide) (by decide) (by decide) (by decide))
/-- The second bias as a row. -/
theorem V5_v20 (c : Dev nD) (u : Fin 1) (q : Fin 64) : W5 m c (Proc.devRef .tc main_v20) (ix2 u q) = m ((c : Thread nD τ).loc main_arg4) (ix1 q) := by
  show StableHlo.after (hostOps2 (F := Ideal)) (W4 m c) (Proc.devRef .tc main_v20) (ix2 u q) = _
  after_results
  show shapeCast S1x64 (W4 m c (Proc.devRef .tc main_arg4)) shapeCasts_S64_S1x64 (ix2 u q) = _
  rw [shapeCast_a_1a_apply, W4_arg m c main_arg4 (by decide) (by decide) (by decide) (by decide)]
/-- The head's weights as a column. -/
theorem V5_v21 (c : Dev nD) (q : Fin 64) (u : Fin 1) : W5 m c (Proc.devRef .tc main_v21) (ix2 q u) = m ((c : Thread nD τ).loc main_arg5) (ix1 q) := by
  show StableHlo.after (hostOps2 (F := Ideal)) (W4 m c) (Proc.devRef .tc main_v21) (ix2 q u) = _
  after_results
  show shapeCast S64x1 (W4 m c (Proc.devRef .tc main_arg5)) shapeCasts_S64_S64x1 (ix2 q u) = _
  rw [Cert.LibUnitColumns.shapeCast_a_a1_apply, W4_arg m c main_arg5 (by decide) (by decide) (by decide) (by decide)]
/-- The head's bias as a one-by-one array. -/
theorem V5_v22 (c : Dev nD) (u v : Fin 1) : W5 m c (Proc.devRef .tc main_v22) (ix2 u v) = m ((c : Thread nD τ).loc main_arg6) (ix1 0) := by
  show StableHlo.after (hostOps2 (F := Ideal)) (W4 m c) (Proc.devRef .tc main_v22) (ix2 u v) = _
  after_results
  show shapeCast S1x1 (W4 m c (Proc.devRef .tc main_arg6)) shapeCasts_S1_S1x1 (ix2 u v) = _
  rw [shapeCast_a_1a_apply, W4_arg m c main_arg6 (by decide) (by decide) (by decide) (by decide)]
  exact congrArg _ (congrArg ix1 (Subsingleton.elim v 0))

/-- What the last region leaves in its output array is the head's output. -/
theorem W6_v24 (c : Dev nD) :
    (W6 m c (Proc.devRef .tc main_v24) : S8192x1.Idx → EReal) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W6_arr m c 7).trans (final2 (V5 m) c)).trans ?_
  funext p
  unfold outArr
  refine out_congr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (idx2_fst p)
    (fun cc => max (∑ k : Fin 64, ((∑ j : Fin 8192, wt (W5 m c (Proc.devRef .tc main_v23) (ix2 (idx2_fst p) j)) * W5 m c (Proc.devRef .tc main_v19) (ix2 j k)) * W5 m c (Proc.devRef .tc main_v12) (ix2 (idx2_fst p) 0))
                        * W5 m c (Proc.devRef .tc main_arg3) (ix2 k cc) + W5 m c (Proc.devRef .tc main_v20) (ix2 0 cc)) 0)
    (fun cc => W5 m c (Proc.devRef .tc main_v21) (ix2 cc 0)) (W5 m c (Proc.devRef .tc main_v22) (ix2 0 0))
    (fun cc => ?_) (fun cc => V5_v21 m c cc 0) (V5_v22 m c 0 0)
  exact layer_congr (m ((c : Thread nD τ).loc main_arg0)) (hid1 (m ((c : Thread nD τ).loc main_arg0)) (m ((c : Thread nD τ).loc main_arg1)) (m ((c : Thread nD τ).loc main_arg2))) (m ((c : Thread nD τ).loc main_arg3)) (m ((c : Thread nD τ).loc main_arg4)) (idx2_fst p) cc
    (fun j => wt (W5 m c (Proc.devRef .tc main_v23) (ix2 (idx2_fst p) j))) (fun j k => W5 m c (Proc.devRef .tc main_v19) (ix2 j k))
    (W5 m c (Proc.devRef .tc main_v12) (ix2 (idx2_fst p) 0)) (fun k => W5 m c (Proc.devRef .tc main_arg3) (ix2 k cc))
    (W5 m c (Proc.devRef .tc main_v20) (ix2 0 cc))
    (fun j => wt_V5_v23 m c _ j) (fun j k => V5_v19 m c j k) (V5_v12 m c _ 0) (fun k => by rw [V5_arg3]) (V5_v20 m c 0 _)
/-- The result mask at the end is every pair's nearness word. -/
theorem W6_v11 (c : Dev nD) : (W6 m c (Proc.devRef .tc main_v11) : S8192x8192.Idx → BitVec 1) = maskArr (m ((c : Thread nD τ).loc main_arg0)) :=
  funext fun p => (congrFun ((W6_of_ne m c main_v11 (by decide)).trans (StableHlo.after_of_writes_sub hostOps2 _ hostOps2_writes (by decide))) p).trans (W4_v11 m c p)

/-- THE RUN WITH ITS VALUES, at the extended reals: every weakly fair execution terminates, the two results are the
    specification's functions of the argument arrays, and the arguments end unchanged. -/
theorem run_spec (ρ : Dev nD → PrngReg) : θ_run (defs (F := Ideal)) (onTc (τ := τ) (main (F := Ideal))) ⟨m, fun _ => 0, ρ⟩ (fun r => ∀ c : Dev nD,
      r.2.mem ((c.tc : Thread nD τ).loc main_v24) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v11) = maskArr (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v24 (by decide))).trans (W6_v24 m c),
     (h c _ (mem_uc main_v11 (by decide))).trans (W6_v11 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.KernelIdeal.Hand

end
-- ==== Proof.RefFinite.lean ====
/-
  From the precondition to real numbers.

  The precondition says, of each argument array, that the conjunction over all its entries of  |a| < +inf  is
  the word one.  A conjunction of one-bit words that came out one met only ones; and an extended real whose
  absolute value lies strictly below +inf is neither infinity, so it is a real number.
-/
import proofs.«138637_j24172075942523_2_alg».proof.Pre_finite_inputs
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

namespace Cert.RefFinite

open Idealize.ShloMosaic Idealize.ShloMosaic.ValueIdx Cert.Pre_finite_inputs

instance : Subsingleton S_.Idx := ⟨fun a b => funext fun d => d.elim0⟩

/-- An extended real whose absolute value compares strictly below the word of +inf is a real number. -/
theorem real_of_lt_inf (a : EReal)
    (h : Ideal.cmp .olt (max a (-a)) (Ideal.ofBits .f32 0x7F800000#32) = 1#1) : ∃ r : ℝ, a = (r : EReal) := by
  have hinf : Ideal.ofBits .f32 0x7F800000#32 = (⊤ : EReal) := by simp [Ideal.ofBits, Ideal.ieee]
  rw [hinf] at h
  induction a using EReal.rec with
  | bot => simp [Ideal.cmp] at h
  | coe r => exact ⟨r, rfl⟩
  | top => simp [Ideal.cmp] at h

/-- One argument array: if the conjunction over all entries of  |a| < +inf  is one, every entry is real. -/
theorem all_real {s : Shape} (x : FVec Ideal s .f32) (hb : S_.BroadcastsInDim s (![] : Fin 0 → Fin s.rank))
    {axes : List (Fin s.rank)} (hr : s.ReducesTo axes S_) (hS : 0 < S_.numel)
    (h : Host.reduce IntOp.andi (cmpf .olt (Host.absf x) (broadcastInDim s ![] hb (constant (F := Ideal) S_ .f32 0x7F800000#32)))
      (constantI S_ 1 1#1) hr hS ix0 = 1#1) (p : s.Idx) : ∃ r : ℝ, x p = (r : EReal) := by
  have e := Host.reduce_andi_all _ _ hr hS ix0 h p
  have hb' : broadcastInDim s ![] hb (constant (F := Ideal) S_ .f32 0x7F800000#32) p = Ideal.ofBits .f32 0x7F800000#32 :=
    broadcastInDim_apply _ hb _ p ix0 (fun a => a.elim0)
  refine real_of_lt_inf (x p) ?_
  rw [← hb']
  exact e

variable [Cert.Pre_finite_inputs.Facts]

/-- Under the precondition every entry of every argument array is a real number. -/
theorem args_real (x0 : FVec Ideal S8192x4 .f32) (x1 : FVec Ideal S4x64 .f32) (x2 : FVec Ideal S64 .f32)
    (x3 : FVec Ideal S64x64 .f32) (x4 x5 : FVec Ideal S64 .f32) (x6 : FVec Ideal S1 .f32)
    (h : Cert.Pre_finite_inputs.fn (F := Ideal) x0 x1 x2 x3 x4 x5 x6 = fun _ => 1#1) :
    (∀ p, ∃ r : ℝ, x0 p = (r : EReal)) ∧ (∀ p, ∃ r : ℝ, x1 p = (r : EReal)) ∧ (∀ p, ∃ r : ℝ, x2 p = (r : EReal))
      ∧ (∀ p, ∃ r : ℝ, x3 p = (r : EReal)) ∧ (∀ p, ∃ r : ℝ, x4 p = (r : EReal)) ∧ (∀ p, ∃ r : ℝ, x5 p = (r : EReal))
      ∧ (∀ p, ∃ r : ℝ, x6 p = (r : EReal)) := by
  have h0 := congrFun h ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ e0, all_real x1 _ _ _ e1, all_real x2 _ _ _ e2, all_real x3 _ _ _ e3,
    all_real x4 _ _ _ e4, all_real x5 _ _ _ e5, all_real x6 _ _ _ e6⟩

end Cert.RefFinite

end
-- ==== Proof.RefLaw.lean ====
/-
  The mathematics between the reference's arrangement of a graph-convolution layer and the specification's.

  The reference forms the normalized adjacency  n i j = dinv i * adj i j * dinv j  and multiplies it into the
  dense image of the features,  sum_j n i j * (sum_k f j k * W k c);  the specification aggregates first and
  applies the dense map last,  sum_k ((sum_j adj i j * (dinv j * f j k)) * dinv i) * W k c.  Both are the
  double sum of  dinv i * adj i j * dinv j * f j k * W k c;  passing from one to the other moves factors
  across sums, which on the extended reals needs every quantity to be a real number.  With real inputs they
  are: an agent is at distance zero from itself, so it is near itself, every adjacency row sums to a real
  number at least one, and its inverse square root is a positive real.
-/
import proofs.«138637_j24172075942523_2_alg».proof.Proof.GcnSpec
import Idealize.ShloMosaic.PureOps.Ideal.Laws

noncomputable section

namespace Cert.RefLaw

open Idealize.ShloMosaic Idealize.ShloMosaic.ValueIdx Cert.GcnSpec

/-! ## Extended reals that are real numbers -/

/-- An extended real that is (the coercion of) a real number. -/
def IsReal (x : EReal) : Prop := ∃ r : ℝ, x = (r : EReal)

theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max_zero {x : EReal} (hx : IsReal x) : IsReal (max x 0) := by
  obtain ⟨a, rfl⟩ := hx
  exact ⟨max a 0, by rw [EReal.coe_strictMono.monotone.map_max, EReal.coe_zero]⟩

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## The law -/

/-- Normalize-then-multiply is aggregate-then-map, for real quantities: both sides are the double sum of
    di * a j * d j * f j k * w k. -/
theorem sum_law {ι κ : Type*} [Fintype ι] [Fintype κ] (di : EReal) (a d : ι → EReal) (f : ι → κ → EReal)
    (w : κ → EReal) (hdi : IsReal di) (ha : ∀ j, IsReal (a j)) (hd : ∀ j, IsReal (d j))
    (hf : ∀ j k, IsReal (f j k)) (hw : ∀ k, IsReal (w k)) :
    ∑ j, ((di * a j) * d j) * (∑ k, f j k * w k) = ∑ k, ((∑ j, a j * (d j * f j k)) * di) * w k := by
  obtain ⟨di', rfl⟩ := hdi
  choose a' ha' using ha
  choose d' hd' using hd
  choose f' hf' using hf
  choose w' hw' using hw
  obtain rfl : a = fun j => (a' j : EReal) := funext ha'
  obtain rfl : d = fun j => (d' j : EReal) := funext hd'
  obtain rfl : f = fun j k => (f' j k : EReal) := funext fun j => funext fun k => hf' j k
  obtain rfl : w = fun k => (w' k : EReal) := funext hw'
  simp only [← EReal.coe_mul, ← coe_sum]
  refine congrArg _ ?_
  simp only [Finset.mul_sum, Finset.sum_mul]
  rw [Finset.sum_comm]
  exact Finset.sum_congr rfl fun k _ => Finset.sum_congr rfl fun j _ => by ring

/-! ## The graph quantities are real when the positions are -/

/-- The word of the number one denotes one. -/
theorem ofBits_one : Ideal.ofBits .f32 0x3F800000#32 = (1 : EReal) := by
  simp [Ideal.ofBits, Ideal.ieee, -EReal.coe_mul]; norm_num

section Graph

variable (x : Mat 8192 4) (hx : ∀ p, IsReal (x p))

include hx in
/-- An agent is at squared distance zero from itself. -/
theorem dist2_self (i : Fin 8192) : dist2 x i i = 0 := by
  unfold dist2
  obtain ⟨a, ha⟩ := hx (ix2 i 0); obtain ⟨b, hb⟩ := hx (ix2 i 1)
  rw [ha, hb, ← EReal.coe_sub, sub_self, ← EReal.coe_sub, sub_self]; simp

include hx in
/-- An agent is near itself. -/
theorem near_self (i : Fin 8192) : near x i i = 1#1 := by
  unfold near
  rw [dist2_self x hx i]
  simp [Ideal.cmp, ofBits_one]

include hx in
theorem adj_self (i : Fin 8192) : adj x i i = 1 := by
  unfold adj; rw [if_pos (near_self x hx i)]

theorem adj_isReal (i j : Fin 8192) : IsReal (adj x i j) := by
  unfold adj; split
  · exact IsReal.one
  · exact IsReal.zero

include hx in
/-- A row of the adjacency sums to a real number that is at least one (the agent itself). -/
theorem deg_real (i : Fin 8192) : ∃ r : ℝ, 1 ≤ r ∧ deg x i = (r : EReal) := by
  classical
  let a' : Fin 8192 → ℝ := fun j => if near x i j = 1#1 then 1 else 0
  have ha : ∀ j, adj x i j = (a' j : EReal) := fun j => by
    unfold adj; dsimp only [a']; split <;> simp
  refine ⟨∑ j, a' j, ?_, ?_⟩
  · have h1 : a' i = 1 := by dsimp only [a']; rw [if_pos (near_self x hx i)]
    calc (1 : ℝ) = a' i := h1.symm
      _ ≤ ∑ j, a' j := Finset.single_le_sum (f := a')
          (fun j _ => by dsimp only [a']; split <;> norm_num) (Finset.mem_univ i)
  · unfold deg; rw [coe_sum]; exact Finset.sum_congr rfl fun j _ => ha j

include hx in
/-- The inverse square root of a row sum is a real number. -/
theorem dinv_isReal (i : Fin 8192) : IsReal (dinv x i) := by
  obtain ⟨r, hr, h⟩ := deg_real x hx i
  unfold dinv
  rw [h, Ideal.rsqrt_coe, if_neg (by linarith), if_neg (ne_of_gt (by linarith))]
  exact ⟨_, rfl⟩

/-- One layer in the reference's arrangement: the normalized adjacency against the dense image of the features. -/
def refLayer {K : Nat} (f : Fin 8192 → Fin K → EReal) (W : Mat K 64) (b : Vc 64) (i : Fin 8192) (c : Fin 64) : EReal :=
  max (∑ j : Fin 8192, ((dinv x i * adj x i j) * dinv x j) * (∑ k : Fin K, f j k * W (ix2 k c)) + b (ix1 c)) 0

include hx in
/-- With real positions, features and weights, the reference's layer is the specification's. -/
theorem refLayer_eq_layer {K : Nat} (f : Fin 8192 → Fin K → EReal) (hf : ∀ j k, IsReal (f j k))
    (W : Mat K 64) (hW : ∀ p, IsReal (W p)) (b : Vc 64) (i : Fin 8192) (c : Fin 64) :
    refLayer x f W b i c = layer x f W b i c := by
  unfold refLayer layer agg
  exact congrArg (fun t => max (t + b (ix1 c)) 0)
    (sum_law (dinv x i) (fun j => adj x i j) (fun j => dinv x j) f (fun k => W (ix2 k c))
      (dinv_isReal x hx i) (fun j => adj_isReal x i j) (fun j => dinv_isReal x hx j) hf (fun k => hW _))

include hx in
/-- A layer of real features, weights and biases is real. -/
theorem layer_isReal {K : Nat} (f : Fin 8192 → Fin K → EReal) (hf : ∀ j k, IsReal (f j k))
    (W : Mat K 64) (hW : ∀ p, IsReal (W p)) (b : Vc 64) (hb : ∀ p, IsReal (b p)) (i : Fin 8192) (c : Fin 64) :
    IsReal (layer x f W b i c) := by
  unfold layer agg
  exact IsReal.max_zero (IsReal.add (IsReal.sum _ _ fun k _ =>
    ((IsReal.sum _ _ fun j _ => (adj_isReal x i j).mul ((dinv_isReal x hx j).mul (hf j k))).mul
      (dinv_isReal x hx i)).mul (hW _)) (hb _))

end Graph

/-! ## The reference's adjacency entry -/

/-- The reference writes an adjacency entry as a selection between the words of one and zero under
    "near and not on the diagonal", plus the diagonal indicator converted to a float: on the diagonal that is
    0 + 1, off it the nearness indicator + 0. -/
theorem ahat_eq (n e : BitVec 1) :
    Scalar.select (IntOp.andi n (~~~ e)) (Ideal.ofBits .f32 0x3F800000#32) (Ideal.ofBits .f32 0x00000000#32)
        + (((e.toNat : ℝ)) : EReal)
      = if e = 1#1 then 1 else (if n = 1#1 then 1 else 0) := by
  rw [ofBits_one, Ideal.ofBits_zero_f32]
  rcases BitVec.eq_zero_or_eq_one n with h | h <;> rcases BitVec.eq_zero_or_eq_one e with h' | h' <;>
    subst h <;> subst h' <;> simp [Scalar.select, IntOp.andi]

/-- The diagonal indicator: comparing the row counter (plus the zero word) with the column counter. -/
theorem iota_eq (i j : Fin 8192) :
    IntOp.cmpi .eq (IntOp.addi (BitVec.ofNat 32 i.val) 0#32) (BitVec.ofNat 32 j.val) = if i = j then 1#1 else 0#1 := by
  unfold IntOp.cmpi IntOp.addi
  simp only [BitVec.add_zero]
  by_cases h : i = j
  · subst h; simp
  · rw [if_neg h]
    have hne : (BitVec.ofNat 32 i.val == BitVec.ofNat 32 j.val) = false := by
      rw [beq_eq_false_iff_ne]; intro hh
      have h2 := congrArg BitVec.toNat hh
      simp only [BitVec.toNat_ofNat] at h2
      rw [Nat.mod_eq_of_lt (by omega), Nat.mod_eq_of_lt (by omega)] at h2
      exact h (Fin.ext h2)
    simp [hne]

end Cert.RefLaw

end
-- ==== Proof.RefRead.lean ====
/-
  The reference program read at an index: the stages that build the graph.

  Each stage of the reference's run is read at an index given by its coordinates: the squared distance, the
  nearness word, the adjacency entry (selection plus diagonal indicator), the row sum, its inverse square root
  and the normalized adjacency entry  dinv i * adj i j * dinv j.
-/
import proofs.«138637_j24172075942523_2_alg».proof.Proof.Gen.ReferenceIdeal.Run
import proofs.«138637_j24172075942523_2_alg».proof.Proof.Gen.ReferenceIdeal.Read
import proofs.«138637_j24172075942523_2_alg».proof.Proof.GcnSpec
import proofs.«138637_j24172075942523_2_alg».proof.Proof.RefLaw

noncomputable section

namespace Cert.RefRead

open Idealize.ShloMosaic Idealize.ShloMosaic.ValueIdx Cert.ReferenceIdeal Cert.ReferenceIdeal.Gen
  Cert.ReferenceIdeal.Read Cert.GcnSpec Cert.RefLaw

/-! ## Where the broadcast positions are read -/

/-- Entry (i, j, k) of the row-broadcast positions is coordinate k of agent i. -/
theorem pos_row (i j : Fin 8192) (k : Fin 2) :
    idx_main_v0 (idx_main_v1 (idx_main_v3 (idx_main_v7 (ix2 i j) k))) = ix2 i (Fin.castLE (by decide : 2 ≤ 4) k) :=
  funext fun a => Fin.ext (by match a with | ⟨0, _⟩ => rfl | ⟨1, _⟩ => rfl)

/-- Entry (i, j, k) of the column-broadcast positions is coordinate k of agent j. -/
theorem pos_col (i j : Fin 8192) (k : Fin 2) :
    idx_main_v0 (idx_main_v2 (idx_main_v4 (idx_main_v7 (ix2 i j) k))) = ix2 j (Fin.castLE (by decide : 2 ≤ 4) k) :=
  funext fun a => Fin.ext (by match a with | ⟨0, _⟩ => rfl | ⟨1, _⟩ => rfl)

/-- The reduced squared differences are the squared planar distance. -/
theorem v7_eq (x : Mat 8192 4) (i j : Fin 8192) : val_main_v7 (F := Ideal) x (ix2 i j) = dist2 x i j := by
  rw [val_main_v7_apply]
  simp only [val_main_v6_apply, val_main_v5_apply, val_main_v3_apply, val_main_v4_apply, val_main_v1_apply,
    val_main_v2_apply, val_main_v0_apply, val_main_cst_apply, pos_row, pos_col, Ideal.mulf_def, Ideal.subf_def,
    Ideal.ofBits_def, Ideal.ofBits_zero_f32, zero_add, Fin.sum_univ_two]
  rfl

/-- The comparison stage is the nearness word. -/
theorem v9_eq (x : Mat 8192 4) (i j : Fin 8192) : val_main_v9 (F := Ideal) x (ix2 i j) = near x i j := by
  rw [val_main_v9_apply, v7_eq, val_main_v8_apply, val_main_cst_0_apply]
  rfl

/-- The adjacency stage at (i, j), with its integer and selection parts spelt out. -/
theorem v24_read (x : Mat 8192 4) (i j : Fin 8192) :
    val_main_v24 (F := Ideal) x (ix2 i j)
      = Scalar.select (IntOp.andi (val_main_v9 (F := Ideal) x (ix2 i j))
            (~~~ (IntOp.cmpi .eq (IntOp.addi (BitVec.ofNat 32 i.val) 0#32) (BitVec.ofNat 32 j.val))))
          (Ideal.ofBits .f32 0x3F800000#32) (Ideal.ofBits .f32 0x00000000#32)
        + ((((IntOp.cmpi .eq (IntOp.addi (BitVec.ofNat 32 i.val) 0#32) (BitVec.ofNat 32 j.val)).toNat : ℝ)) : EReal) :=
  rfl

/-- With real positions the adjacency stage is the 0/1 adjacency: the diagonal entry comes from the indicator,
    and an agent is near itself. -/
theorem v24_eq (x : Mat 8192 4) (hx : ∀ p, IsReal (x p)) (i j : Fin 8192) :
    val_main_v24 (F := Ideal) x (ix2 i j) = adj x i j := by
  rw [v24_read, v9_eq, iota_eq, ahat_eq]
  unfold adj
  by_cases h : i = j
  · subst h; rw [if_pos rfl, if_pos (near_self x hx i), if_pos rfl]
  · rw [if_neg h, if_neg (by decide)]

/-- The row-sum stage reads row i of the adjacency stage. -/
theorem row_idx (i k : Fin 8192) : idx_main_v25 (ix1 i) k = ix2 i k :=
  funext fun a => Fin.ext (by match a with | ⟨0, _⟩ => rfl | ⟨1, _⟩ => rfl)

theorem v25_eq (x : Mat 8192 4) (hx : ∀ p, IsReal (x p)) (i : Fin 8192) :
    val_main_v25 (F := Ideal) x (ix1 i) = deg x i := by
  rw [val_main_v25_apply, val_main_cst_4_apply]
  simp only [row_idx, v24_eq x hx, Ideal.ofBits_def, Ideal.ofBits_zero_f32, zero_add]
  rfl

theorem v26_eq (x : Mat 8192 4) (hx : ∀ p, IsReal (x p)) (i : Fin 8192) :
    val_main_v26 (F := Ideal) x (ix1 i) = dinv x i := by
  rw [val_main_v26_apply, v25_eq x hx]
  rfl

theorem bc_row (i j : Fin 8192) : idx_main_v27 (idx_main_v28 (ix2 i j)) = ix1 i :=
  funext fun a => Fin.ext (by match a with | ⟨0, _⟩ => rfl)

theorem bc_col (i j : Fin 8192) : idx_main_v30 (idx_main_v31 (ix2 i j)) = ix1 j :=
  funext fun a => Fin.ext (by match a with | ⟨0, _⟩ => rfl)

/-- The normalized adjacency stage. -/
theorem v32_eq (x : Mat 8192 4) (hx : ∀ p, IsReal (x p)) (i j : Fin 8192) :
    val_main_v32 (F := Ideal) x (ix2 i j) = (dinv x i * adj x i j) * dinv x j := by
  rw [val_main_v32_apply, val_main_v29_apply, val_main_v28_apply, val_main_v27_apply, val_main_v31_apply,
    val_main_v30_apply, bc_row, bc_col, v26_eq x hx, v26_eq x hx, v24_eq x hx]
  rfl

end Cert.RefRead

end
-- ==== Proof.RefLayers.lean ====
/-
  The reference program read at an index: the two layers and the head.

  A layer of the reference is the normalized adjacency multiplied into the dense image of the features, plus
  the bias, clipped below at zero; read at (i, c) that is the reference's arrangement of the layer, which
  for real quantities is the specification's.  The head is the channel sum against cw plus the scalar bias.
-/
import proofs.«138637_j24172075942523_2_alg».proof.Proof.RefRead

noncomputable section

namespace Cert.RefLayers

open Idealize.ShloMosaic Idealize.ShloMosaic.ValueIdx Cert.ReferenceIdeal Cert.ReferenceIdeal.Gen
  Cert.ReferenceIdeal.Read Cert.GcnSpec Cert.RefLaw Cert.RefRead

/-! ## The first layer -/

theorem dense1_l (j : Fin 8192) (c : Fin 64) (k : Fin 4) : lidx_main_v33 (ix2 j c) k = ix2 j k :=
  funext fun a => Fin.ext (by match a with | ⟨0, _⟩ => rfl | ⟨1, _⟩ => rfl)
theorem dense1_r (j : Fin 8192) (c : Fin 64) (k : Fin 4) : ridx_main_v33 (ix2 j c) k = ix2 k c :=
  funext fun a => Fin.ext (by match a with | ⟨0, _⟩ => rfl | ⟨1, _⟩ => rfl)

/-- The dense image of the states. -/
theorem v33_eq (x : Mat 8192 4) (W1 : Mat 4 64) (j : Fin 8192) (c : Fin 64) :
    val_main_v33 (F := Ideal) x W1 (ix2 j c) = ∑ k : Fin 4, x (ix2 j k) * W1 (ix2 k c) := by
  rw [val_main_v33_apply]
  simp only [dense1_l, dense1_r]

theorem agg1_l (i : Fin 8192) (c : Fin 64) (k : Fin 8192) : lidx_main_v34 (ix2 i c) k = ix2 i k :=
  funext fun a => Fin.ext (by match a with | ⟨0, _⟩ => rfl | ⟨1, _⟩ => rfl)
theorem agg1_r (i : Fin 8192) (c : Fin 64) (k : Fin 8192) : ridx_main_v34 (ix2 i c) k = ix2 k c :=
  funext fun a => Fin.ext (by match a with | ⟨0, _⟩ => rfl | ⟨1, _⟩ => rfl)
theorem bias1_idx (i : Fin 8192) (c : Fin 64) : idx_main_v35 (idx_main_v36 (ix2 i c)) = ix1 c :=
  funext fun a => Fin.ext (by match a with | ⟨0, _⟩ => rfl)

/-- The first layer's output stage is the reference's arrangement of a layer over the states. -/
theorem v38_eq (x : Mat 8192 4) (hx : ∀ p, IsReal (x p)) (W1 : Mat 4 64) (b1 : Vc 64) (i : Fin 8192) (c : Fin 64) :
    val_main_v38 (F := Ideal) x W1 b1 (ix2 i c) = refLayer x (fun j k => x (ix2 j k)) W1 b1 i c := by
  rw [val_main_v38_apply, val_main_v37_apply, val_main_v34_apply, val_main_v36_apply, val_main_v35_apply,
    val_main_call1_v0_apply, val_main_call1_cst_apply, bias1_idx]
  simp only [agg1_l, agg1_r, v32_eq x hx, v33_eq, Ideal.ofBits_def, Ideal.ofBits_zero_f32, Ideal.maximumf_def,
    Ideal.addf_def]
  rfl

/-- With real states and weights the first layer's output stage is the specification's first hidden layer. -/
theorem v38_hid1 (x : Mat 8192 4) (hx : ∀ p, IsReal (x p)) (W1 : Mat 4 64) (hW1 : ∀ p, IsReal (W1 p)) (b1 : Vc 64)
    (i : Fin 8192) (c : Fin 64) : val_main_v38 (F := Ideal) x W1 b1 (ix2 i c) = hid1 x W1 b1 i c :=
  (v38_eq x hx W1 b1 i c).trans (refLayer_eq_layer x hx _ (fun _ _ => hx _) W1 hW1 b1 i c)

theorem hid1_isReal (x : Mat 8192 4) (hx : ∀ p, IsReal (x p)) (W1 : Mat 4 64) (hW1 : ∀ p, IsReal (W1 p)) (b1 : Vc 64)
    (hb1 : ∀ p, IsReal (b1 p)) (j : Fin 8192) (k : Fin 64) : IsReal (hid1 x W1 b1 j k) :=
  layer_isReal x hx _ (fun _ _ => hx _) W1 hW1 b1 hb1 j k

/-! ## The second layer -/

theorem dense2_l (j : Fin 8192) (c : Fin 64) (k : Fin 64) : lidx_main_v39 (ix2 j c) k = ix2 j k :=
  funext fun a => Fin.ext (by match a with | ⟨0, _⟩ => rfl | ⟨1, _⟩ => rfl)
theorem dense2_r (j : Fin 8192) (c : Fin 64) (k : Fin 64) : ridx_main_v39 (ix2 j c) k = ix2 k c :=
  funext fun a => Fin.ext (by match a with | ⟨0, _⟩ => rfl | ⟨1, _⟩ => rfl)

/-- The dense image of the first hidden layer. -/
theorem v39_eq (x : Mat 8192 4) (hx : ∀ p, IsReal (x p)) (W1 : Mat 4 64) (hW1 : ∀ p, IsReal (W1 p)) (b1 : Vc 64)
    (W2 : Mat 64 64) (j : Fin 8192) (c : Fin 64) :
    val_main_v39 (F := Ideal) x W1 b1 W2 (ix2 j c) = ∑ k : Fin 64, hid1 x W1 b1 j k * W2 (ix2 k c) := by
  rw [val_main_v39_apply]
  simp only [dense2_l, dense2_r, v38_hid1 x hx W1 hW1 b1]

theorem agg2_l (i : Fin 8192) (c : Fin 64) (k : Fin 8192) : lidx_main_v40 (ix2 i c) k = ix2 i k :=
  funext fun a => Fin.ext (by match a with | ⟨0, _⟩ => rfl | ⟨1, _⟩ => rfl)
theorem agg2_r (i : Fin 8192) (c : Fin 64) (k : Fin 8192) : ridx_main_v40 (ix2 i c) k = ix2 k c :=
  funext fun a => Fin.ext (by match a with | ⟨0, _⟩ => rfl | ⟨1, _⟩ => rfl)
theorem bias2_idx (i : Fin 8192) (c : Fin 64) : idx_main_v41 (idx_main_v42 (ix2 i c)) = ix1 c :=
  funext fun a => Fin.ext (by match a with | ⟨0, _⟩ => rfl)

/-- The second layer's output stage is the reference's arrangement of a layer over the first hidden layer. -/
theorem v44_eq (x : Mat 8192 4) (hx : ∀ p, IsReal (x p)) (W1 : Mat 4 64) (hW1 : ∀ p, IsReal (W1 p)) (b1 : Vc 64)
    (W2 : Mat 64 64) (b2 : Vc 64) (i : Fin 8192) (c : Fin 64) :
    val_main_v44 (F := Ideal) x W1 b1 W2 b2 (ix2 i c) = refLayer x (hid1 x W1 b1) W2 b2 i c := by
  rw [val_main_v44_apply, val_main_v43_apply, val_main_v40_apply, val_main_v42_apply, val_main_v41_apply,
    val_main_call2_v0_apply, val_main_call2_cst_apply, bias2_idx]
  simp only [agg2_l, agg2_r, v32_eq x hx, v39_eq x hx W1 hW1 b1, Ideal.ofBits_def, Ideal.ofBits_zero_f32,
    Ideal.maximumf_def, Ideal.addf_def]
  rfl

/-- With real states, weights and first bias the second layer's output stage is the specification's second
    hidden layer. -/
theorem v44_hid2 (x : Mat 8192 4) (hx : ∀ p, IsReal (x p)) (W1 : Mat 4 64) (hW1 : ∀ p, IsReal (W1 p)) (b1 : Vc 64)
    (hb1 : ∀ p, IsReal (b1 p)) (W2 : Mat 64 64) (hW2 : ∀ p, IsReal (W2 p)) (b2 : Vc 64) (i : Fin 8192) (c : Fin 64) :
    val_main_v44 (F := Ideal) x W1 b1 W2 b2 (ix2 i c) = hid2 x W1 b1 W2 b2 i c :=
  (v44_eq x hx W1 hW1 b1 W2 b2 i c).trans
    (refLayer_eq_layer x hx _ (hid1_isReal x hx W1 hW1 b1 hb1) W2 hW2 b2 i c)

/-! ## The head -/

theorem head_l (i : Fin 8192) (z : Fin 1) (k : Fin 64) : lidx_main_v46 (ix2 i z) k = ix2 i k :=
  funext fun a => Fin.ext (by match a with | ⟨0, _⟩ => rfl | ⟨1, _⟩ => rfl)
theorem head_r (i : Fin 8192) (z : Fin 1) (k : Fin 64) : idx_main_v45 (ridx_main_v46 (ix2 i z) k) = ix1 k :=
  funext fun a => Fin.ext (by match a with | ⟨0, _⟩ => rfl)
theorem cb_idx (i : Fin 8192) (z : Fin 1) : idx_main_v47 (idx_main_v48 (ix2 i z)) = ix1 0 :=
  funext fun a => Fin.ext (by match a with | ⟨0, _⟩ => rfl)

/-- The result stage at row i is the specification's head. -/
theorem v49_eq (x : Mat 8192 4) (hx : ∀ p, IsReal (x p)) (W1 : Mat 4 64) (hW1 : ∀ p, IsReal (W1 p)) (b1 : Vc 64)
    (hb1 : ∀ p, IsReal (b1 p)) (W2 : Mat 64 64) (hW2 : ∀ p, IsReal (W2 p)) (b2 cw : Vc 64) (cb : Vc 1)
    (i : Fin 8192) (z : Fin 1) :
    val_main_v49 (F := Ideal) x W1 b1 W2 b2 cw cb (ix2 i z) = out x W1 b1 W2 b2 cw cb i := by
  rw [val_main_v49_apply, val_main_v46_apply, val_main_v48_apply, val_main_v47_apply, cb_idx]
  simp only [val_main_v45_apply, head_l, head_r, v44_hid2 x hx W1 hW1 b1 hb1 W2 hW2 b2, Ideal.addf_def]
  rfl

/-! ## The two results as arrays -/

/-- The reference's first result is the specification's head array. -/
theorem out_eq (x : Mat 8192 4) (hx : ∀ p, IsReal (x p)) (W1 : Mat 4 64) (hW1 : ∀ p, IsReal (W1 p)) (b1 : Vc 64)
    (hb1 : ∀ p, IsReal (b1 p)) (W2 : Mat 64 64) (hW2 : ∀ p, IsReal (W2 p)) (b2 cw : Vc 64) (cb : Vc 1) :
    val_main_v49 (F := Ideal) x W1 b1 W2 b2 cw cb = outArr x W1 b1 W2 b2 cw cb := by
  funext p
  obtain ⟨i, z, rfl⟩ : ∃ (i : Fin 8192) (z : Fin 1), p = ix2 i z := ⟨p 0, p 1, eq_ix2 p⟩
  rw [v49_eq x hx W1 hW1 b1 hb1 W2 hW2 b2 cw cb i z]
  rfl

/-- The reference's second result is the specification's nearness array. -/
theorem mask_eq (x : Mat 8192 4) : val_main_v9 (F := Ideal) x = maskArr x := by
  funext p
  obtain ⟨i, j, rfl⟩ : ∃ (i j : Fin 8192), p = ix2 i j := ⟨p 0, p 1, eq_ix2 p⟩
  rw [v9_eq]
  rfl

end Cert.RefLayers

end
-- ==== Proof.RefSpec.lean ====
/-
  The reference computes the specification.

  Under the precondition every argument entry is a real number; the reference's run ends with its first result
  at the head array of the specification of its own argument arrays and its second at the nearness array, and
  with its arguments unchanged.  The run and its result terms are the generated ones; what is added here is
  that those terms are the specification (the stage-by-stage reading, and the law that needs real numbers).
-/
import proofs.«138637_j24172075942523_2_alg».proof.Defs
import proofs.«138637_j24172075942523_2_alg».proof.Proof.Gen.ReferenceIdeal.Run
import proofs.«138637_j24172075942523_2_alg».proof.Proof.Gen.ReferenceIdeal.Read
import proofs.«138637_j24172075942523_2_alg».proof.Proof.GcnSpec
import proofs.«138637_j24172075942523_2_alg».proof.Proof.RefFinite
import proofs.«138637_j24172075942523_2_alg».proof.Proof.RefLayers

noncomputable section

open Idealize.ShloMosaic Idealize.ShloMosaic.TcCoe Idealize.SL.Sem

theorem Cert.RefSpec.run [Cert.ReferenceIdeal.Facts] [Cert.Pre_finite_inputs.Facts]
    (m' : (l : Loc Cert.ReferenceIdeal.nD Cert.ReferenceIdeal.τ Cert.ReferenceIdeal.sig) → Buf (Elt Ideal) l) (g' : Dev Cert.ReferenceIdeal.nD → PrngReg)
    (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v49)
            = Cert.GcnSpec.outArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v9) = Cert.GcnSpec.maskArr (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) := by
  refine (θ_run (Cert.ReferenceIdeal.defs (F := Ideal)) _ _).mono (fun r h c => ?_)
    (Cert.ReferenceIdeal.Value.run (F := Ideal) m' g')
  obtain ⟨h49, h9, hargs⟩ := h c
  obtain ⟨r0, r1, r2, r3, _, _, _⟩ := Cert.RefFinite.args_real _ _ _ _ _ _ _ (hpre c)
  refine ⟨h49.trans ((Cert.ReferenceIdeal.Read.val_main_v49_eq m' c).trans ?_),
    h9.trans ((Cert.ReferenceIdeal.Read.val_main_v9_eq _).trans ?_), hargs⟩
  · exact Cert.RefLayers.out_eq _ r0 _ r1 _ r2 _ r3 _ _ _
  · exact Cert.RefLayers.mask_eq _

end
-- ==== Proof.lean ====
/-
  The certificate's claim.

  Both programs compute one function of the seven argument arrays (Proof/GcnSpec.lean): a two-layer graph convolution
  over the radius graph of the agents' planar positions, followed by a per-agent linear head; the second result is the
  radius mask itself.

  The kernel program is three kernel regions between stretches of host operations. Each region's run is proved point
  by point over its 4 × 4 grid (Proof/KI: the case runs of each body, the accumulation of the degree block and of the
  scratch aggregates across the column tiles, the regions as segments of one run); read at the extended reals, what
  each region leaves in its arrays is a whole-array function of what it was handed (the tiles' partial sums put
  together, which needs only that extended-real addition is commutative and associative), and the host stretches
  between them carry those functions to the specification, written in the kernel's own arrangement
  (aggregate the features scaled by the inverse-root degrees, scale the row, then apply the dense map).
  The word-level program has the same text; its frame is the same proof at the other instance (Proof/KB).

  The reference computes the normalised adjacency matrix first and multiplies it with the dense images. With every
  input finite all quantities are real numbers (an agent is within the radius of itself, so every degree is at least
  one and its inverse root is a positive real), and over the reals the two arrangements agree by distributivity
  (Proof/RefLaw.lean); the reference's run and its stage-by-stage reading are the generated ones (Proof/RefSpec.lean).

  The ideal pass rewrote nothing, so the idealization conjunct is trivial.
-/
import proofs.«138637_j24172075942523_2_alg».proof.Defs
import proofs.«138637_j24172075942523_2_alg».proof.Proof.Gen.Kernel
import proofs.«138637_j24172075942523_2_alg».proof.Proof.Gen.KernelIdeal
import proofs.«138637_j24172075942523_2_alg».proof.Proof.Gen.ReferenceIdeal
import proofs.«138637_j24172075942523_2_alg».proof.Proof.Gen.Pre_finite_inputs
import proofs.«138637_j24172075942523_2_alg».proof.Proof.KB.Args
import proofs.«138637_j24172075942523_2_alg».proof.Proof.KI.GlueV5
import proofs.«138637_j24172075942523_2_alg».proof.Proof.RefSpec
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- So does the reference: its run with the two results dropped. -/
theorem frame_ri : Cert.frame_ReferenceIdeal := fun m ρ hpre =>
  (θ_run Cert.ReferenceIdeal.defs _ _).mono (fun _ h c => (h c).2.2) (Cert.RefSpec.run m ρ hpre)
/-- The ideal pass rewrote no operation. -/
theorem preserves : Cert.preserves_Kernel_KernelIdeal := trivial

/-- Run from memories agreeing on the arguments, both idealized programs end with the specification's two arrays of
    those arguments. -/
theorem algebraic : Cert.algebraic_KernelIdeal_ReferenceIdeal := by
  intro m ρ m' ρ' hpre hagree
  have hpre' : Cert.Pre_ReferenceIdeal m' := fun c => by
    have h := hpre c
    rw [← (hagree c).1, ← (hagree c).2.1, ← (hagree c).2.2.1, ← (hagree c).2.2.2.1, ← (hagree c).2.2.2.2.1,
      ← (hagree c).2.2.2.2.2.1, ← (hagree c).2.2.2.2.2.2] at h
    exact h
  refine ⟨fun c => Cert.GcnSpec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.GcnSpec.maskArr (m ((c.tc : Thread Cert.KernelIdeal.nD Cert.KernelIdeal.τ).loc Cert.KernelIdeal.main_arg0)),
    Cert.KernelIdeal.Hand.run_spec m ρ, ?_⟩
  refine (θ_run Cert.ReferenceIdeal.defs _ _).mono (fun _ h c => ?_) (Cert.RefSpec.run m' ρ' hpre')
  obtain ⟨h1, h2, h3⟩ := h c
  refine ⟨h1.trans ?_, h2.trans ?_, h3⟩
  · rw [(hagree c).1, (hagree c).2.1, (hagree c).2.2.1, (hagree c).2.2.2.1, (hagree c).2.2.2.2.1,
      (hagree c).2.2.2.2.2.1, (hagree c).2.2.2.2.2.2]
  · rw [(hagree c).1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
